-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x256 : Shape := ⟨2, ![512, 256]⟩
abbrev S1x256 : Shape := ⟨2, ![1, 256]⟩
abbrev S256x128 : Shape := ⟨2, ![256, 128]⟩
abbrev S1x128 : Shape := ⟨2, ![1, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S256x128 .f32) (main_arg5 : FVec F S1x128 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  main_v28

def fn {F : FTy → Type} [FloatOps F] (main_arg0 : FVec F S4096x512 .f32) (main_arg1 : FVec F S4096x4096 .f32) (main_arg2 : FVec F S512x256 .f32) (main_arg3 : FVec F S1x256 .f32) (main_arg4 : FVec F S256x128 .f32) (main_arg5 : FVec F S1x128 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_v13 main_v16
-- ==== Kernel.lean ====
abbrev S4096x512 : Shape := ⟨2, ![4096, 512]⟩
abbrev S4096x4096 : Shape := ⟨2, ![4096, 4096]⟩
abbrev S512x256 : Shape := ⟨2, ![512, 256]⟩
abbrev S1x256 : Shape := ⟨2, ![1, 256]⟩
abbrev S256x128 : Shape := ⟨2, ![256, 128]⟩
abbrev S1x128 : Shape := ⟨2, ![1, 128]⟩
abbrev S4096x256 : Shape := ⟨2, ![4096, 256]⟩
abbrev S512x512 : Shape := ⟨2, ![512, 512]⟩
abbrev S4096x128 : Shape := ⟨2, ![4096, 128]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S1x256, .f32⟩
  | .hbm, ⟨4, _⟩ => ⟨S256x128, .f32⟩
  | .hbm, ⟨5, _⟩ => ⟨S1x128, .f32⟩
  | .hbm, ⟨6, _⟩ => ⟨S4096x256, .bf16⟩
  | .hbm, ⟨7, _⟩ => ⟨S4096x128, .bf16⟩
  | .hbm, ⟨8, _⟩ => ⟨S4096x128, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .bf16⟩
  | .local _ .vmem, ⟨4, _⟩ => ⟨S512x256, .bf16⟩
  | .local _ .vmem, ⟨5, _⟩ => ⟨S512x4096, .f32⟩
  | .local _ .vmem, ⟨6, _⟩ => ⟨S512x4096, .f32⟩
  | .local _ .vmem, ⟨7, _⟩ => ⟨S4096x256, .bf16⟩
  | .local _ .vmem, ⟨8, _⟩ => ⟨S1x256, .f32⟩
  | .local _ .vmem, ⟨9, _⟩ => ⟨S256x128, .f32⟩
  | .local _ .vmem, ⟨10, _⟩ => ⟨S512x128, .bf16⟩
  | .local _ .vmem, ⟨11, _⟩ => ⟨S512x128, .bf16⟩
  | .local _ .vmem, ⟨12, _⟩ => ⟨S512x4096, .f32⟩
  | .local _ .vmem, ⟨13, _⟩ => ⟨S512x4096, .f32⟩
  | .local _ .vmem, ⟨14, _⟩ => ⟨S4096x128, .bf16⟩
  | .local _ .vmem, ⟨15, _⟩ => ⟨S1x128, .f32⟩
  | .local _ .vmem, ⟨16, _⟩ => ⟨S512x128, .f32⟩
  | .local _ .vmem, ⟨17, _⟩ => ⟨S512x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S256x128_S256x128_0_0 : ∀ a, (![0, 0] : Fin 2 → Nat) a + S256x128.size a ≤ S256x128.size a
  h_S256x128 : 0 < S256x128.numel
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  dot_S512x512_S512x256_S512x256_1_0_0_1_n_n_wf : DotDims.WF S512x512 S512x256 S512x256 [1] [0] [0] [1] [] []
  dot_S512x4096_S4096x256_S512x256_1_0_0_1_n_n_wf : DotDims.WF S512x4096 S4096x256 S512x256 [1] [0] [0] [1] [] []
  dot_S512x256_S256x128_S512x128_1_0_0_1_n_n_wf : DotDims.WF S512x256 S256x128 S512x128 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .bf16 = 32 ∨ (Rect.block (s := S4096x256) S512x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .bf16 = 32 ∨ (Rect.block (s := S4096x128) S512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .bf16 = 32 ∨ (Rect.block (s := S4096x128) S4096x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x256 : Shape := ⟨2, ![512, 256]⟩
abbrev S1x256 : Shape := ⟨2, ![1, 256]⟩
abbrev S256x128 : Shape := ⟨2, ![256, 128]⟩
abbrev S1x128 : Shape := ⟨2, ![1, 128]⟩
abbrev S0 : Shape := ⟨1, ![0]⟩
abbrev S_ : Shape := ⟨0, ![]⟩
abbrev S4096x256 : Shape := ⟨2, ![4096, 256]⟩
abbrev S1024x512 : Shape := ⟨2, ![1024, 512]⟩
abbrev S1024x256 : Shape := ⟨2, ![1024, 256]⟩
abbrev S4096x128 : Shape := ⟨2, ![4096, 128]⟩
abbrev S512x1024 : Shape := ⟨2, ![512, 1024]⟩
abbrev S512x128 : Shape := ⟨2, ![512, 128]⟩
abbrev S1024x128 : Shape := ⟨2, ![1024, 128]⟩
abbrev S512 : Shape := ⟨1, ![512]⟩
abbrev S512x1 : Shape := ⟨2, ![512, 1]⟩

abbrev nBuf : Space → Nat
  | .hbm => 37
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S1x256, .f32⟩
  | .hbm, ⟨4, _⟩ => ⟨S256x128, .f32⟩
  | .hbm, ⟨5, _⟩ => ⟨S1x128, .f32⟩
  | .hbm, ⟨6, _⟩ => ⟨S0, .i32⟩
  | .hbm, ⟨7, _⟩ => ⟨S0, .i32⟩
  | .hbm, ⟨8, _⟩ => ⟨S0, .i32⟩
  | .hbm, ⟨9, _⟩ => ⟨S0, .i32⟩
  | .hbm, ⟨10, _⟩ => ⟨S0, .i32⟩
  | .hbm, ⟨11, _⟩ => ⟨S0, .i32⟩
  | .hbm, ⟨12, _⟩ => ⟨S_, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S_, .bf16⟩
  | .hbm, ⟨17, _⟩ => ⟨S4096x4096, .bf16⟩
  | .hbm, ⟨18, _⟩ => ⟨S4096x4096, .bf16⟩
  | .hbm, ⟨19, _⟩ => ⟨S4096x4096, .bf16⟩
  | .hbm, ⟨20, _⟩ => ⟨S_, .bf16⟩
  | .hbm, ⟨21, _⟩ => ⟨S512x256, .bf16⟩
  | .hbm, ⟨22, _⟩ => ⟨S512x256, .bf16⟩
  | .hbm, ⟨23, _⟩ => ⟨S512x256, .bf16⟩
  | .hbm, ⟨24, _⟩ => ⟨S_, .bf16⟩
  | .hbm, ⟨25, _⟩ => ⟨S256x128, .bf16⟩
  | .hbm, ⟨26, _⟩ => ⟨S256x128, .bf16⟩
  | .hbm, ⟨27, _⟩ => ⟨S256x128, .bf16⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S4096x256, .bf16⟩
  | .hbm, ⟨35, _⟩ => ⟨S4096x128, .bf16⟩
  | .hbm, ⟨36, _⟩ => ⟨S4096x128, .f32⟩
  | .local _ .vmem, ⟨0, _⟩ => ⟨S1024x512, .bf16⟩
  | .local _ .vmem, ⟨1, _⟩ => ⟨S1024x512, .bf16⟩
  | .local _ .vmem, ⟨2, _⟩ => ⟨S512x256, .bf16⟩
  | .local _ .vmem, ⟨3, _⟩ => ⟨S1024x256, .bf16⟩
  | .local _ .vmem, ⟨4, _⟩ => ⟨S1024x256, .bf16⟩
  | .local _ .vmem, ⟨5, _⟩ => ⟨S512x1024, .bf16⟩
  | .local _ .vmem, ⟨6, _⟩ => ⟨S512x1024, .bf16⟩
  | .local _ .vmem, ⟨7, _⟩ => ⟨S1024x256, .bf16⟩
  | .local _ .vmem, ⟨8, _⟩ => ⟨S1024x256, .bf16⟩
  | .local _ .vmem, ⟨9, _⟩ => ⟨S1x256, .f32⟩
  | .local _ .vmem, ⟨10, _⟩ => ⟨S256x128, .bf16⟩
  | .local _ .vmem, ⟨11, _⟩ => ⟨S512x128, .bf16⟩
  | .local _ .vmem, ⟨12, _⟩ => ⟨S512x128, .bf16⟩
  | .local _ .vmem, ⟨13, _⟩ => ⟨S512x256, .f32⟩
  | .local _ .vmem, ⟨14, _⟩ => ⟨S512x1024, .bf16⟩
  | .local _ .vmem, ⟨15, _⟩ => ⟨S512x1024, .bf16⟩
  | .local _ .vmem, ⟨16, _⟩ => ⟨S1024x128, .bf16⟩
  | .local _ .vmem, ⟨17, _⟩ => ⟨S1024x128, .bf16⟩
  | .local _ .vmem, ⟨18, _⟩ => ⟨S1x128, .f32⟩
  | .local _ .vmem, ⟨19, _⟩ => ⟨S512x128, .f32⟩
  | .local _ .vmem, ⟨20, _⟩ => ⟨S512x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_6 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_7 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_8 : Ref sig .tc := ⟨.hbm, 28, rfl⟩
abbrev main_v12 : Ref sig .tc := ⟨.hbm, 29, rfl⟩
abbrev main_v13 : Ref sig .tc := ⟨.hbm, 30, rfl⟩
abbrev main_cst_9 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  hz_S0 : S0.numel = 0
  bcast_S_S4096x512 : S_.BroadcastsInDim S4096x512 (![] : Fin 0 → Fin S4096x512.rank)
  bitsLt_bf16_f32 : FTy.bits .bf16 < FTy.bits .f32
  bcast_S_S4096x4096 : S_.BroadcastsInDim S4096x4096 (![] : Fin 0 → Fin S4096x4096.rank)
  bcast_S_S512x256 : S_.BroadcastsInDim S512x256 (![] : Fin 0 → Fin S512x256.rank)
  bcast_S_S256x128 : S_.BroadcastsInDim S256x128 (![] : Fin 0 → Fin S256x128.rank)
  bcast_S_S1x256 : S_.BroadcastsInDim S1x256 (![] : Fin 0 → Fin S1x256.rank)
  bcast_S_S1x128 : S_.BroadcastsInDim S1x128 (![] : Fin 0 → Fin S1x128.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  iota_S512x128_d1_w32 : S512x128.Iotas .tc 32 [1]
  reduces_S512x128_S512 : S512x128.Reduces [1] S512
  shapeCasts_S512_S512x1 : S512.ShapeCasts S512x1
  broadcasts_S512x1_S512x128 : S512x1.Broadcasts S512x128
  scatter_S4096x512_S0_S4096x512_01_n_n_0_wf : ScatterDims.WF S4096x512 S0 S4096x512 [0, 1] [] [] 0
  scatter_S4096x4096_S0_S4096x4096_01_n_n_0_wf : ScatterDims.WF S4096x4096 S0 S4096x4096 [0, 1] [] [] 0
  scatter_S512x256_S0_S512x256_01_n_n_0_wf : ScatterDims.WF S512x256 S0 S512x256 [0, 1] [] [] 0
  scatter_S256x128_S0_S256x128_01_n_n_0_wf : ScatterDims.WF S256x128 S0 S256x128 [0, 1] [] [] 0
  scatter_S1x256_S0_S1x256_01_n_n_0_wf : ScatterDims.WF S1x256 S0 S1x256 [0, 1] [] [] 0
  scatter_S1x128_S0_S1x128_01_n_n_0_wf : ScatterDims.WF S1x128 S0 S1x128 [0, 1] [] [] 0
  dot_S1024x512_S512x256_S1024x256_1_0_0_1_n_n_wf : DotDims.WF S1024x512 S512x256 S1024x256 [1] [0] [0] [1] [] []
  dot_S512x1024_S1024x256_S512x256_1_0_0_1_n_n_wf : DotDims.WF S512x1024 S1024x256 S512x256 [1] [0] [0] [1] [] []
  dot_S512x256_S256x128_S512x128_1_0_0_1_n_n_wf : DotDims.WF S512x256 S256x128 S512x128 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .bf16 = 32 ∨ (Rect.block (s := S4096x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .bf16 = 32 ∨ (Rect.block (s := S4096x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .bf16 = 32 ∨ (Rect.block (s := S4096x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .bf16 = 32 ∨ (Rect.block (s := S4096x128) S512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x4096.size a
  hwx2_0 : ∀ i : grid2.Coords, EltTy.bits .bf16 = 32 ∨ (Rect.block (s := S4096x4096) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S4096x128.size a
  hwx2_1 : ∀ i : grid2.Coords, EltTy.bits .bf16 = 32 ∨ (Rect.block (s := S4096x128) S1024x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)

variable [Facts₀]

def scatter_S4096x512_S0_S4096x512_01_n_n_0 : ScatterDims S4096x512 S0 S4096x512 where
  updateWindowDims := [0, 1]
  insertedWindowDims := []
  scatterDimsToOperandDims := []
  indexVectorDim := 0
  wf := scatter_S4096x512_S0_S4096x512_01_n_n_0_wf
def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf
def scatter_S512x256_S0_S512x256_01_n_n_0 : ScatterDims S512x256 S0 S512x256 where
  updateWindowDims := [0, 1]
  insertedWindowDims := []
  scatterDimsToOperandDims := []
  indexVectorDim := 0
  wf := scatter_S512x256_S0_S512x256_01_n_n_0_wf
def scatter_S256x128_S0_S256x128_01_n_n_0 : ScatterDims S256x128 S0 S256x128 where
  updateWindowDims := [0, 1]
  insertedWindowDims := []
  scatterDimsToOperandDims := []
  indexVectorDim := 0
  wf := scatter_S256x128_S0_S256x128_01_n_n_0_wf
def scatter_S1x256_S0_S1x256_01_n_n_0 : ScatterDims S1x256 S0 S1x256 where
  updateWindowDims := [0, 1]
  insertedWindowDims := []
  scatterDimsToOperandDims := []
  indexVectorDim := 0
  wf := scatter_S1x256_S0_S1x256_01_n_n_0_wf
def scatter_S1x128_S0_S1x128_01_n_n_0 : ScatterDims S1x128 S0 S1x128 where
  updateWindowDims := [0, 1]
  insertedWindowDims := []
  scatterDimsToOperandDims := []
  indexVectorDim := 0
  wf := scatter_S1x128_S0_S1x128_01_n_n_0_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_v2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v5) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== Proof.KernelRun.lean ====
/-
  The idealized kernel's run with its RESULT named: every weakly fair execution of the three launches terminates,
  nothing faults, the six argument arrays end as they were, and the result array ends holding what the last
  launch's write-backs leave. Then the chain of names: each launch's output array is the folded write-backs of its
  own pipeline, and each launch reads the launch memory (for an argument) or the previous launch's output array.
-/
import proofs.«168608_g2000301010487996_pallasbulk_922_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, keeping the result: the same launch over the same segments as the generated frame, reading one more
    buffer (the result) off the last boundary's contents. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-! ## The names: which array each launch writes, and what each launch reads -/

/-- The result is the last launch's output array: its write-backs folded over the eight row stripes. -/
theorem result_eq (c : Dev nD) :
    W3 m ρ c (Proc.devRef .tc main_v2) = (dat2 (V2 m ρ) c).arrAt 3 cfg2.N := W3_arr m ρ c 3

/-- The last launch reads the adjacency as launched, -/
theorem V2_adj (c : Dev nD) : V2 m ρ c main_arg1 = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl
/-- the second bias as launched, -/
theorem V2_b2 (c : Dev nD) : V2 m ρ c main_arg5 = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl
/-- and the middle launch's output array. -/
theorem V2_support2 (c : Dev nD) : V2 m ρ c main_v1 = (dat1 (V1 m ρ) c).arrAt 4 cfg1.N := W2_arr m ρ c 4

/-- The middle launch reads the adjacency, the first bias and the second weights as launched, -/
theorem V1_adj (c : Dev nD) : V1 m ρ c main_arg1 = m ((c : Thread nD τ).loc main_arg1) :=
  W1_of_ne m ρ c main_arg1 (by decide)
theorem V1_b1 (c : Dev nD) : V1 m ρ c main_arg3 = m ((c : Thread nD τ).loc main_arg3) :=
  W1_of_ne m ρ c main_arg3 (by decide)
theorem V1_w2 (c : Dev nD) : V1 m ρ c main_arg4 = m ((c : Thread nD τ).loc main_arg4) :=
  W1_of_ne m ρ c main_arg4 (by decide)
/-- and the first launch's output array. -/
theorem V1_support1 (c : Dev nD) : V1 m ρ c main_v0 = (dat0 (V0 m ρ) c).arrAt 2 cfg0.N := W1_arr m ρ c 2

/-- The first launch reads the features and the first weights as launched. -/
theorem V0_x (c : Dev nD) : V0 m ρ c main_arg0 = m ((c : Thread nD τ).loc main_arg0) := rfl
theorem V0_w1 (c : Dev nD) : V0 m ρ c main_arg2 = m ((c : Thread nD τ).loc main_arg2) := rfl

end Cert.KernelIdeal.Hand

end
-- ==== Proof.Spec.lean ====
/-
  The specification: a two-layer graph convolution followed by a row-wise log-softmax, stated index by index
  over the extended reals, as ONE function of the six argument arrays.

    support1 x w1          [4096,256]   (x · w1)[r,h]      = Σ_{f<512}  x[r,f] · w1[f,h]
    hidden adj s1 b1       [4096,256]   relu(adj · s1 + b1) = max (Σ_{k<4096} adj[r,k] · s1[k,h] + b1[0,h]) 0
    support2 hid w2        [4096,128]   (hid · w2)[r,c]    = Σ_{h<256}  hid[r,h] · w2[h,c]
    logits adj s2 b2       [4096,128]   (adj · s2 + b2)[r,c] = Σ_{k<4096} adj[r,k] · s2[k,c] + b2[0,c]
    logSoftmax L           [4096,128]   z[r,c] - log (Σ_{c'<128} exp z[r,c']),  z[r,c] = L[r,c] - max_{c'} L[r,c']

  The row maximum is the fold of `max` over the 128 lanes from the value of the word 0xFF800000 (minus infinity),
  kept as that word; each contraction is a single `Fin`-indexed sum with no accumulator term.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- An `a × b` array of extended reals. -/
abbrev Arr (a b : Nat) : Type := (⟨2, ![a, b]⟩ : Shape).Idx → EReal

/-- The first feature product `x · w1`. -/
def support1 (x : Arr 4096 512) (w1 : Arr 512 256) : Arr 4096 256 :=
  fun j => ∑ f : Fin 512, x (ix2 (j 0) f) * w1 (ix2 f (j 1))

/-- The first aggregation with its bias and rectifier: `max (adj · s1 + b1) 0`. -/
def hidden (adj : Arr 4096 4096) (s1 : Arr 4096 256) (b1 : Arr 1 256) : Arr 4096 256 :=
  fun j => max (∑ k : Fin 4096, adj (ix2 (j 0) k) * s1 (ix2 k (j 1)) + b1 (ix2 (0 : Fin 1) (j 1))) 0

/-- The second feature product `hid · w2`. -/
def support2 (hid : Arr 4096 256) (w2 : Arr 256 128) : Arr 4096 128 :=
  fun j => ∑ h : Fin 256, hid (ix2 (j 0) h) * w2 (ix2 h (j 1))

/-- The second aggregation with its bias: `adj · s2 + b2`. -/
def logits (adj : Arr 4096 4096) (s2 : Arr 4096 128) (b2 : Arr 1 128) : Arr 4096 128 :=
  fun j => ∑ k : Fin 4096, adj (ix2 (j 0) k) * s2 (ix2 k (j 1)) + b2 (ix2 (0 : Fin 1) (j 1))

/-- The maximum of row `r` over its 128 lanes, folded from minus infinity (the word 0xFF800000). -/
def rowMax (L : Arr 4096 128) (r : Fin 4096) : EReal :=
  (Finset.univ : Finset (Fin 128)).fold max (Ideal.ofBits .f32 0xFF800000#32) (fun c => L (ix2 r c))

/-- A row shifted by its maximum. -/
def shifted (L : Arr 4096 128) : Arr 4096 128 :=
  fun j => L j - rowMax L (j 0)

/-- The row-wise log-softmax: the shifted row minus the logarithm of the sum of its exponentials. -/
def logSoftmax (L : Arr 4096 128) : Arr 4096 128 :=
  fun j => shifted L j - Ideal.log (∑ c : Fin 128, Ideal.exp (shifted L (ix2 (j 0) c)))

/-- The second layer from the first layer's second product: what the last stage computes. -/
def outOfSupport2 (adj : Arr 4096 4096) (s2 : Arr 4096 128) (b2 : Arr 1 128) : Arr 4096 128 :=
  logSoftmax (logits adj s2 b2)

/-- The middle stage: the second product of the rectified first aggregation. -/
def support2Of (adj : Arr 4096 4096) (s1 : Arr 4096 256) (b1 : Arr 1 256) (w2 : Arr 256 128) : Arr 4096 128 :=
  support2 (hidden adj s1 b1) w2

/-- THE RESULT as one function of the six argument arrays (features, adjacency, first weights and bias, second
    weights and bias). -/
def out (x : Arr 4096 512) (adj : Arr 4096 4096) (w1 : Arr 512 256) (b1 : Arr 1 256) (w2 : Arr 256 128)
    (b2 : Arr 1 128) : Arr 4096 128 :=
  outOfSupport2 adj (support2Of adj (support1 x w1) b1 w2) b2

/-! ## Each piece read at an index given by its coordinates (all by unfolding) -/

theorem support1_apply (x : Arr 4096 512) (w1 : Arr 512 256) (r : Fin 4096) (h : Fin 256) :
    support1 x w1 (ix2 r h) = ∑ f : Fin 512, x (ix2 r f) * w1 (ix2 f h) := rfl

theorem hidden_apply (adj : Arr 4096 4096) (s1 : Arr 4096 256) (b1 : Arr 1 256) (r : Fin 4096) (h : Fin 256) :
    hidden adj s1 b1 (ix2 r h) = max (∑ k : Fin 4096, adj (ix2 r k) * s1 (ix2 k h) + b1 (ix2 (0 : Fin 1) h)) 0 := rfl

theorem support2_apply (hid : Arr 4096 256) (w2 : Arr 256 128) (r : Fin 4096) (c : Fin 128) :
    support2 hid w2 (ix2 r c) = ∑ h : Fin 256, hid (ix2 r h) * w2 (ix2 h c) := rfl

theorem logits_apply (adj : Arr 4096 4096) (s2 : Arr 4096 128) (b2 : Arr 1 128) (r : Fin 4096) (c : Fin 128) :
    logits adj s2 b2 (ix2 r c) = ∑ k : Fin 4096, adj (ix2 r k) * s2 (ix2 k c) + b2 (ix2 (0 : Fin 1) c) := rfl

theorem shifted_apply (L : Arr 4096 128) (r : Fin 4096) (c : Fin 128) :
    shifted L (ix2 r c) = L (ix2 r c) - rowMax L r := rfl

theorem logSoftmax_apply (L : Arr 4096 128) (r : Fin 4096) (c : Fin 128) :
    logSoftmax L (ix2 r c)
      = shifted L (ix2 r c) - Ideal.log (∑ c' : Fin 128, Ideal.exp (shifted L (ix2 r c'))) := rfl

end Cert.Gcn

end
-- ==== Proof.KernelValue1.lean ====
/-
  The first launch's output array as one function of its two input arrays: a row stripe of 512 rows of the
  features times the whole first weight matrix is the same 512 rows of their product, and the eight stripes
  tile the 4096 rows.
-/
import proofs.«168608_g2000301010487996_pallasbulk_922_1_alg».proof.Proof.Gen.KernelIdeal.Frame
import proofs.«168608_g2000301010487996_pallasbulk_922_1_alg».proof.Proof.Spec
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-- A 512×512 by 512×256 block product into the zero accumulator, at row `p` and column `q`: the sum over the
    512 contraction positions of the products. -/
theorem mm0_apply (lhs : FVec Ideal S512x512 .bf16) (rhs : FVec Ideal S512x256 .bf16) (p : Fin 512) (q : Fin 256) :
    FloatOps.matmul dot_S512x512_S512x256_S512x256_1_0_0_1_n_n none lhs rhs (constant S512x256 .f32 0x00000000#32) (ix2 p q)
      = ∑ k : Fin 512, lhs (ix2 p k) * rhs (ix2 k q) := by
  rw [Ideal.matmul_constant_zero_apply]
  rw [← Equiv.sum_comp (contrEquiv1 dot_S512x512_S512x256_S512x256_1_0_0_1_n_n 512 rfl rfl).symm]
  refine Finset.sum_congr rfl fun k _ => ?_
  have hl : dot_S512x512_S512x256_S512x256_1_0_0_1_n_n.lhsIdx (ix2 p q) ((contrEquiv1 dot_S512x512_S512x256_S512x256_1_0_0_1_n_n 512 rfl rfl).symm k) = ix2 p k := by
    funext a; apply Fin.ext
    match a with
    | ⟨0, _⟩ => rfl
    | ⟨1, _⟩ => exact (DotDims.lhsIdx_val_of_single _ (cl := 1) rfl _ _).trans (contrEquiv1_symm_val _ 512 rfl rfl k)
  have hr : dot_S512x512_S512x256_S512x256_1_0_0_1_n_n.rhsIdx (ix2 p q) ((contrEquiv1 dot_S512x512_S512x256_S512x256_1_0_0_1_n_n 512 rfl rfl).symm k) = ix2 k q := by
    funext a; apply Fin.ext
    match a with
    | ⟨0, _⟩ => exact (DotDims.rhsIdx_val_of_single _ (cr := 0) rfl _ _).trans (contrEquiv1_symm_val _ 512 rfl rfl k)
    | ⟨1, _⟩ => rfl
  rw [hl, hr]

/-- The body's one store, read at row `p` and column `q` of the block: the format changes are the identity, so it
    is the block product there. -/
theorem pay0_apply (x0 : Vec Ideal S512x512 .f32) (x1 : Vec Ideal S512x256 .f32) (p : Fin 512) (q : Fin 256) :
    k0_pay1 x0 x1 (ix2 p q) = ∑ f : Fin 512, x0 (ix2 p f) * x1 (ix2 f q) := by
  unfold k0_pay1
  exact mm0_apply _ _ p q

/-- One row stripe: if the first loaded block is rows `512·s …` of `X` and the second is all of `W`, the stored
    block at `y` is `X · W` at the array index `i` over `y`. -/
theorem stripe0 (x0 : Vec Ideal S512x512 .f32) (x1 : Vec Ideal S512x256 .f32) (X : Cert.Gcn.Arr 4096 512) (W : Cert.Gcn.Arr 512 256)
    (s : Nat)
    (h0 : ∀ (y : S512x512.Idx) (i : S4096x512.Idx), (i 0).val = s * 512 + (y 0).val → (i 1).val = (y 1).val → x0 y = X i)
    (h1 : ∀ (y : S512x256.Idx), x1 y = W y)
    (y : S512x256.Idx) (i : S4096x256.Idx) (hi0 : (i 0).val = s * 512 + (y 0).val) (hi1 : (i 1).val = (y 1).val) :
    k0_pay1 x0 x1 y = Cert.Gcn.support1 X W i := by
  obtain ⟨p, q, rfl⟩ : ∃ (p : Fin 512) (q : Fin 256), y = ix2 p q := ⟨y 0, y 1, eq_ix2 y⟩
  obtain ⟨r, h, rfl⟩ : ∃ (r : Fin 4096) (h : Fin 256), i = ix2 r h := ⟨i 0, i 1, eq_ix2 i⟩
  obtain rfl : h = q := Fin.ext hi1
  rw [pay0_apply, Cert.Gcn.support1_apply]
  refine Finset.sum_congr rfl fun f _ => ?_
  rw [h0 (ix2 p f) (ix2 r f) hi0 rfl, h1]

/-- The printed index maps over the eight points: the feature and output stripes move with the point, the
    weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two input arrays as the launch finds them. -/
theorem flushed0_eq (c : Dev nD) (t : Fin cfg0.N) :
    (dat0 V c).flushed 2 t
      = ((cfg0.win 2).blk t).view.read (Elt Ideal) (Cert.Gcn.support1 (V c main_arg0) (V c main_arg2)) := by
  show (cfg0.win 2).cut (grid0.coords t) ((dat0 V c).after 2 t) = _
  rw [after0_2]
  unfold out0_2
  rw [View.canon_unit_zero hz]
  simp only [View.ld_unit_zero (S := S512x512) hz, View.ld_unit_zero (S := S512x256) hz]
  obtain ⟨e0, e1, e2, e3, e4, e5⟩ := idx_facts0 t
  funext j
  refine stripe0 _ _ _ _ t.val ?_ ?_ j _ ?_ ?_
  · intro y i hi0 hi1
    show V c main_arg0 (((cfg0.win 0).blk t).view.emb y) = V c main_arg0 i
    refine congrArg _ (funext fun a => Fin.ext ?_)
    match a with
    | ⟨0, _⟩ => show win0_0.index t (0 : Fin 2) * 512 + 1 * (y 0).val = (i 0).val; omega
    | ⟨1, _⟩ => show win0_0.index t (1 : Fin 2) * 512 + 1 * (y 1).val = (i 1).val; omega
  · intro y
    show V c main_arg2 (((cfg0.win 1).blk t).view.emb y) = V c main_arg2 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 256 + 1 * (y 1).val = (y 1).val; omega
  · show win0_2.index t (0 : Fin 2) * 512 + 1 * (j 0).val = t.val * 512 + (j 0).val; omega
  · show win0_2.index t (1 : Fin 2) * 256 + 1 * (j 1).val = (j 1).val; omega

/-- An index of the output array is in point `t`'s block iff each coordinate is in the block's range. -/
theorem mem_blk0 (t : Fin cfg0.N) (i : S4096x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]
  exact Iff.rfl

/-- Row `r` lies in the stripe of point `r / 512`. -/
theorem cover0 (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  have hN : cfg0.N = 8 := N_0
  refine ⟨⟨(i 0).val / 512, by rw [hN]; omega⟩, flush0_2 _, ?_⟩
  rw [mem_blk0]
  obtain ⟨e0, e1, e2, e3, e4, e5⟩ := idx_facts0 ⟨(i 0).val / 512, by rw [hN]; omega⟩
  intro a
  match a with
  | ⟨0, _⟩ => show win0_2.index _ (0 : Fin 2) * 512 ≤ (i 0).val ∧ (i 0).val < win0_2.index _ (0 : Fin 2) * 512 + 512; rw [e4]; show (i 0).val / 512 * 512 ≤ (i 0).val ∧ (i 0).val < (i 0).val / 512 * 512 + 512; omega
  | ⟨1, _⟩ => show win0_2.index _ (1 : Fin 2) * 256 ≤ (i 1).val ∧ (i 1).val < win0_2.index _ (1 : Fin 2) * 256 + 256; rw [e5]; omega

/-- THE FIRST LAUNCH'S VALUE: its output array ends holding the product of its two input arrays. -/
theorem value0 (c : Dev nD) :
    (dat0 V c).arrAt 2 cfg0.N = Cert.Gcn.support1 (V c main_arg0) (V c main_arg2) :=
  (dat0 V c).arrAt_eq_of_cover 2 _ (fun t _ => flushed0_eq V c t) cover0

end Cert.KernelIdeal.Hand

end
-- ==== Proof.KernelValue2.lean ====
/-
  The middle launch's output array as one function of its four input arrays: a row stripe of 512 rows of the
  adjacency times the whole first product, plus the bias row, rectified, times the whole second weight matrix, is
  the same 512 rows of the second product of the rectified aggregation; the eight stripes tile the 4096 rows.
-/
import proofs.«168608_g2000301010487996_pallasbulk_922_1_alg».proof.Proof.Gen.KernelIdeal.Frame
import proofs.«168608_g2000301010487996_pallasbulk_922_1_alg».proof.Proof.Spec
import proofs.«168608_g2000301010487996_pallasbulk_922_1_alg».proof.Proof.KernelValue1
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A 512×4096 by 4096×256 block product into the zero accumulator, at row \`p\` and column \`q\`. -/
theorem mm1a_apply (lhs : FVec Ideal S512x4096 .bf16) (rhs : FVec Ideal S4096x256 .bf16) (p : Fin 512) (q : Fin 256) :
    FloatOps.matmul dot_S512x4096_S4096x256_S512x256_1_0_0_1_n_n none lhs rhs (constant S512x256 .f32 0x00000000#32) (ix2 p q)
      = ∑ k : Fin 4096, lhs (ix2 p k) * rhs (ix2 k q) := by
  rw [Ideal.matmul_constant_zero_apply]
  rw [← Equiv.sum_comp (contrEquiv1 dot_S512x4096_S4096x256_S512x256_1_0_0_1_n_n 4096 rfl rfl).symm]
  refine Finset.sum_congr rfl fun k _ => ?_
  have hl : dot_S512x4096_S4096x256_S512x256_1_0_0_1_n_n.lhsIdx (ix2 p q) ((contrEquiv1 dot_S512x4096_S4096x256_S512x256_1_0_0_1_n_n 4096 rfl rfl).symm k) = ix2 p k := by
    funext a; apply Fin.ext
    match a with
    | ⟨0, _⟩ => rfl
    | ⟨1, _⟩ => exact (DotDims.lhsIdx_val_of_single _ (cl := 1) rfl _ _).trans (contrEquiv1_symm_val _ 4096 rfl rfl k)
  have hr : dot_S512x4096_S4096x256_S512x256_1_0_0_1_n_n.rhsIdx (ix2 p q) ((contrEquiv1 dot_S512x4096_S4096x256_S512x256_1_0_0_1_n_n 4096 rfl rfl).symm k) = ix2 k q := by
    funext a; apply Fin.ext
    match a with
    | ⟨0, _⟩ => exact (DotDims.rhsIdx_val_of_single _ (cr := 0) rfl _ _).trans (contrEquiv1_symm_val _ 4096 rfl rfl k)
    | ⟨1, _⟩ => rfl
  rw [hl, hr]

/-- A 512×256 by 256×128 block product into the zero accumulator, at row \`p\` and column \`q\`. -/
theorem mm1b_apply (lhs : FVec Ideal S512x256 .bf16) (rhs : FVec Ideal S256x128 .bf16) (p : Fin 512) (q : Fin 128) :
    FloatOps.matmul dot_S512x256_S256x128_S512x128_1_0_0_1_n_n none lhs rhs (constant S512x128 .f32 0x00000000#32) (ix2 p q)
      = ∑ k : Fin 256, lhs (ix2 p k) * rhs (ix2 k q) := by
  rw [Ideal.matmul_constant_zero_apply]
  rw [← Equiv.sum_comp (contrEquiv1 dot_S512x256_S256x128_S512x128_1_0_0_1_n_n 256 rfl rfl).symm]
  refine Finset.sum_congr rfl fun k _ => ?_
  have hl : dot_S512x256_S256x128_S512x128_1_0_0_1_n_n.lhsIdx (ix2 p q) ((contrEquiv1 dot_S512x256_S256x128_S512x128_1_0_0_1_n_n 256 rfl rfl).symm k) = ix2 p k := by
    funext a; apply Fin.ext
    match a with
    | ⟨0, _⟩ => rfl
    | ⟨1, _⟩ => exact (DotDims.lhsIdx_val_of_single _ (cl := 1) rfl _ _).trans (contrEquiv1_symm_val _ 256 rfl rfl k)
  have hr : dot_S512x256_S256x128_S512x128_1_0_0_1_n_n.rhsIdx (ix2 p q) ((contrEquiv1 dot_S512x256_S256x128_S512x128_1_0_0_1_n_n 256 rfl rfl).symm k) = ix2 k q := by
    funext a; apply Fin.ext
    match a with
    | ⟨0, _⟩ => exact (DotDims.rhsIdx_val_of_single _ (cr := 0) rfl _ _).trans (contrEquiv1_symm_val _ 256 rfl rfl k)
    | ⟨1, _⟩ => rfl
  rw [hl, hr]

/-- The rectified aggregation of the stripe as the body forms it. -/
def reluBlock (v0 : Vec Ideal S512x4096 .f32) (v2 : Vec Ideal S4096x256 .bf16) (v5 : Vec Ideal S1x256 .f32) :
    FVec Ideal S512x256 .f32 :=
  maximumf (addf (matmul dot_S512x4096_S4096x256_S512x256_1_0_0_1_n_n none
        (truncf .bf16 v0 bitsLt_bf16_f32 : FVec Ideal S512x4096 .bf16)
        (shapeCast S4096x256 v2 shapeCasts_S4096x256_S4096x256 : FVec Ideal S4096x256 .bf16)
        (constant S512x256 .f32 0x00000000#32))
      (broadcastTo S512x256 v5 broadcasts_S1x256_S512x256 : FVec Ideal S512x256 .f32))
    (broadcast S512x256 (Scalar.ofBits (F := Ideal) .f32 0x00000000#32) : FVec Ideal S512x256 .f32)

/-- It is, at row `p` and hidden unit `h` of the block, the maximum of the aggregation plus the bias and zero. -/
theorem reluBlock_apply (v0 : Vec Ideal S512x4096 .f32) (v2 : Vec Ideal S4096x256 .bf16) (v5 : Vec Ideal S1x256 .f32)
    (p : Fin 512) (h : Fin 256) :
    reluBlock v0 v2 v5 (ix2 p h)
      = max (∑ k : Fin 4096, v0 (ix2 p k) * v2 (ix2 k h) + v5 (ix2 (0 : Fin 1) h)) 0 := by
  unfold reluBlock
  rw [maximumf_apply, addf_apply, broadcast_apply, shapeCast_self, broadcastTo_1b_ab_apply]
  show max (FloatOps.matmul _ none _ _ _ (ix2 p h) + _) (Ideal.ofBits .f32 0x00000000#32) = _
  rw [mm1a_apply, Ideal.ofBits_zero_f32]
  rfl

/-- The body's one store at row `p` and class `c` of the block: the second product of the rectified aggregation. -/
theorem pay1_apply (v0 : Vec Ideal S512x4096 .f32) (v2 : Vec Ideal S4096x256 .bf16) (v5 : Vec Ideal S1x256 .f32)
    (v11 : Vec Ideal S256x128 .f32) (p : Fin 512) (c : Fin 128) :
    k1_pay1 v0 v2 v5 v11 (ix2 p c)
      = ∑ h : Fin 256, max (∑ k : Fin 4096, v0 (ix2 p k) * v2 (ix2 k h) + v5 (ix2 (0 : Fin 1) h)) 0 * v11 (ix2 h c) := by
  unfold k1_pay1
  refine (mm1b_apply _ _ p c).trans ?_
  refine Finset.sum_congr rfl fun h _ => ?_
  exact congrArg (· * v11 (ix2 h c)) (reluBlock_apply v0 v2 v5 p h)

/-- One row stripe: if the first loaded block is rows `512·s …` of `A` and the other three are all of `S`, `B`
    and `W`, the stored block at `y` is the middle stage at the array index `i` over `y`. -/
theorem stripe1 (v0 : Vec Ideal S512x4096 .f32) (v2 : Vec Ideal S4096x256 .bf16) (v5 : Vec Ideal S1x256 .f32)
    (v11 : Vec Ideal S256x128 .f32)
    (A : Cert.Gcn.Arr 4096 4096) (S : Cert.Gcn.Arr 4096 256) (B : Cert.Gcn.Arr 1 256) (W : Cert.Gcn.Arr 256 128) (s : Nat)
    (h0 : ∀ (y : S512x4096.Idx) (i : S4096x4096.Idx), (i 0).val = s * 512 + (y 0).val → (i 1).val = (y 1).val → v0 y = A i)
    (h1 : ∀ (y : S4096x256.Idx), v2 y = S y) (h2 : ∀ (y : S1x256.Idx), v5 y = B y) (h3 : ∀ (y : S256x128.Idx), v11 y = W y)
    (y : S512x128.Idx) (i : S4096x128.Idx) (hi0 : (i 0).val = s * 512 + (y 0).val) (hi1 : (i 1).val = (y 1).val) :
    k1_pay1 v0 v2 v5 v11 y = Cert.Gcn.support2Of A S B W i := by
  obtain ⟨p, q, rfl⟩ : ∃ (p : Fin 512) (q : Fin 128), y = ix2 p q := ⟨y 0, y 1, eq_ix2 y⟩
  obtain ⟨r, c, rfl⟩ : ∃ (r : Fin 4096) (c : Fin 128), i = ix2 r c := ⟨i 0, i 1, eq_ix2 i⟩
  obtain rfl : c = q := Fin.ext hi1
  rw [pay1_apply]
  show _ = ∑ h : Fin 256, Cert.Gcn.hidden A S B (ix2 r h) * W (ix2 h c)
  refine Finset.sum_congr rfl fun h _ => ?_
  rw [Cert.Gcn.hidden_apply, h3, h2]
  refine congrArg (fun z => max (z + B (ix2 (0 : Fin 1) h)) 0 * W (ix2 h c)) (Finset.sum_congr rfl fun k _ => ?_)
  rw [h0 (ix2 p k) (ix2 r k) hi0 rfl, h1]

/-- The printed index maps over the eight points: the adjacency and output stripes move with the point, the other
    three windows stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the middle stage of the four input arrays as the launch finds them. -/
theorem flushed1_eq (c : Dev nD) (t : Fin cfg1.N) :
    (dat1 V c).flushed 4 t
      = ((cfg1.win 4).blk t).view.read (Elt Ideal)
          (Cert.Gcn.support2Of (V c main_arg1) (V c main_v0) (V c main_arg3) (V c main_arg4)) := by
  show (cfg1.win 4).cut (grid1.coords t) ((dat1 V c).after 4 t) = _
  rw [after1_4]
  unfold out1_4
  rw [View.canon_unit_zero hz]
  simp only [View.ld_unit_zero (S := S512x4096) hz, View.ld_unit_zero (S := S4096x256) hz,
    View.ld_unit_zero (S := S1x256) hz, View.ld_unit_zero (S := S256x128) hz]
  obtain ⟨e0, e1, e2, e3, e4, e5, e6, e7, e8, e9⟩ := idx_facts1 t
  funext j
  refine stripe1 _ _ _ _ _ _ _ _ t.val ?_ ?_ ?_ ?_ j _ ?_ ?_
  · intro y i hi0 hi1
    show V c main_arg1 (((cfg1.win 0).blk t).view.emb y) = V c main_arg1 i
    refine congrArg _ (funext fun a => Fin.ext ?_)
    match a with
    | ⟨0, _⟩ => show win1_0.index t (0 : Fin 2) * 512 + 1 * (y 0).val = (i 0).val; omega
    | ⟨1, _⟩ => show win1_0.index t (1 : Fin 2) * 4096 + 1 * (y 1).val = (i 1).val; omega
  · intro y
    show V c main_v0 (((cfg1.win 1).blk t).view.emb y) = V c main_v0 y
    refine congrArg _ (funext fun a => Fin.ext ?_)
    match a with
    | ⟨0, _⟩ => show win1_1.index t (0 : Fin 2) * 4096 + 1 * (y 0).val = (y 0).val; omega
    | ⟨1, _⟩ => show win1_1.index t (1 : Fin 2) * 256 + 1 * (y 1).val = (y 1).val; omega
  · intro y
    show V c main_arg3 (((cfg1.win 2).blk t).view.emb y) = V c main_arg3 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 256 + 1 * (y 1).val = (y 1).val; omega
  · intro y
    show V c main_arg4 (((cfg1.win 3).blk t).view.emb y) = V c main_arg4 y
    refine congrArg _ (funext fun a => Fin.ext ?_)
    match a with
    | ⟨0, _⟩ => show win1_3.index t (0 : Fin 2) * 256 + 1 * (y 0).val = (y 0).val; omega
    | ⟨1, _⟩ => show win1_3.index t (1 : Fin 2) * 128 + 1 * (y 1).val = (y 1).val; omega
  · show win1_4.index t (0 : Fin 2) * 512 + 1 * (j 0).val = t.val * 512 + (j 0).val; omega
  · show win1_4.index t (1 : Fin 2) * 128 + 1 * (j 1).val = (j 1).val; omega

/-- An index of the output array is in point `t`'s block iff each coordinate is in the block's range. -/
theorem mem_blk1 (t : Fin cfg1.N) (i : S4096x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v1).slice (win1_4.rect t)).set ↔ _
  rw [View.set_slice_whole, Rect.mem_set_unit]
  exact Iff.rfl

/-- Row `r` lies in the stripe of point `r / 512`. -/
theorem cover1 (i : S4096x128.Idx) : ∃ t : Fin cfg1.N, (cfg1.win 4).flush t = true ∧ i ∈ ((cfg1.win 4).blk t).view.set := by
  have hi0 : (i 0).val < 4096 := (i 0).isLt
  have hi1 : (i 1).val < 128 := (i 1).isLt
  have hN : cfg1.N = 8 := N_1
  refine ⟨⟨(i 0).val / 512, by rw [hN]; omega⟩, flush1_4 _, ?_⟩
  rw [mem_blk1]
  obtain ⟨e0, e1, e2, e3, e4, e5, e6, e7, e8, e9⟩ := idx_facts1 ⟨(i 0).val / 512, by rw [hN]; omega⟩
  intro a
  match a with
  | ⟨0, _⟩ => show win1_4.index _ (0 : Fin 2) * 512 ≤ (i 0).val ∧ (i 0).val < win1_4.index _ (0 : Fin 2) * 512 + 512; rw [e8]; show (i 0).val / 512 * 512 ≤ (i 0).val ∧ (i 0).val < (i 0).val / 512 * 512 + 512; omega
  | ⟨1, _⟩ => show win1_4.index _ (1 : Fin 2) * 128 ≤ (i 1).val ∧ (i 1).val < win1_4.index _ (1 : Fin 2) * 128 + 128; rw [e9]; omega

/-- THE MIDDLE LAUNCH'S VALUE: its output array ends holding the middle stage of its four input arrays. -/
theorem value1 (c : Dev nD) :
    (dat1 V c).arrAt 4 cfg1.N
      = Cert.Gcn.support2Of (V c main_arg1) (V c main_v0) (V c main_arg3) (V c main_arg4) :=
  (dat1 V c).arrAt_eq_of_cover 4 _ (fun t _ => flushed1_eq V c t) cover1

end Cert.KernelIdeal.Hand

end
-- ==== Proof.KernelValue3.lean ====
/-
  The last launch's output array as one function of its three input arrays: a row stripe of 512 rows of the
  adjacency times the whole second product, plus the bias row, is the same 512 rows of the second aggregation;
  the log-softmax is taken row by row (a row's maximum and the sum of its exponentials see only that row), so a
  stripe's log-softmax is the stripe of the whole array's; the eight stripes tile the 4096 rows.
-/
import proofs.«168608_g2000301010487996_pallasbulk_922_1_alg».proof.Proof.Gen.KernelIdeal.Frame
import proofs.«168608_g2000301010487996_pallasbulk_922_1_alg».proof.Proof.Spec
import proofs.«168608_g2000301010487996_pallasbulk_922_1_alg».proof.Proof.KernelValue1
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## A column kept beside its rows: the two layout steps of a row statistic -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions of a 512 × 128 block, at a row -/

/-- The lane maximum of row `p`: the fold of `max` from minus infinity over the row's 128 entries. -/
theorem rowMax_apply (src : FVec Ideal S512x128 .f32) (p : Fin 512) :
    multiReduction .maximumf [1] S512 src 0xFF800000#32 reduces_S512x128_S512 (.inl rfl) rfl (ix1 p)
      = (Finset.univ : Finset (Fin 128)).fold max (Ideal.ofBits .f32 0xFF800000#32) (fun c => src (ix2 p c)) := by
  refine (Ideal.multiReduction_maximumf_single src 0xFF800000#32 reduces_S512x128_S512 (.inl rfl) rfl (ix1 p)).trans ?_
  show (Finset.univ : Finset (Fin 128)).fold max (Ideal.ofBits .f32 0xFF800000#32)
      (fun c => src (reduces_S512x128_S512.lift (ix1 p) c)) = _
  refine congrArg (fun f => (Finset.univ : Finset (Fin 128)).fold max (Ideal.ofBits .f32 0xFF800000#32) f)
    (funext fun c => congrArg src (funext fun a => Fin.ext ?_))
  match a with
  | ⟨0, _⟩ => rfl
  | ⟨1, _⟩ => rfl

/-- The lane sum of row `p`: the sum of the row's 128 entries. -/
theorem rowSum_apply (src : FVec Ideal S512x128 .f32) (p : Fin 512) :
    multiReduction .add [1] S512 src 0x00000000#32 reduces_S512x128_S512 (.inl rfl) rfl (ix1 p)
      = ∑ c : Fin 128, src (ix2 p c) := by
  refine (Ideal.multiReduction_add_single src 0x00000000#32 reduces_S512x128_S512 (.inl rfl) rfl (ix1 p)).trans ?_
  show ∑ c : Fin 128, src (reduces_S512x128_S512.lift (ix1 p) c) = _
  refine Finset.sum_congr rfl fun c _ => congrArg src (funext fun a => Fin.ext ?_)
  match a with
  | ⟨0, _⟩ => rfl
  | ⟨1, _⟩ => rfl

/-! ## The body's arithmetic in two steps: the logits of the stripe, then their log-softmax -/

/-- A 512×4096 by 4096×128 block product into the zero accumulator, at row \`p\` and column \`q\`. -/
theorem mm2_apply (lhs : FVec Ideal S512x4096 .bf16) (rhs : FVec Ideal S4096x128 .bf16) (p : Fin 512) (q : Fin 128) :
    FloatOps.matmul dot_S512x4096_S4096x128_S512x128_1_0_0_1_n_n none lhs rhs (constant S512x128 .f32 0x00000000#32) (ix2 p q)
      = ∑ k : Fin 4096, lhs (ix2 p k) * rhs (ix2 k q) := by
  rw [Ideal.matmul_constant_zero_apply]
  rw [← Equiv.sum_comp (contrEquiv1 dot_S512x4096_S4096x128_S512x128_1_0_0_1_n_n 4096 rfl rfl).symm]
  refine Finset.sum_congr rfl fun k _ => ?_
  have hl : dot_S512x4096_S4096x128_S512x128_1_0_0_1_n_n.lhsIdx (ix2 p q) ((contrEquiv1 dot_S512x4096_S4096x128_S512x128_1_0_0_1_n_n 4096 rfl rfl).symm k) = ix2 p k := by
    funext a; apply Fin.ext
    match a with
    | ⟨0, _⟩ => rfl
    | ⟨1, _⟩ => exact (DotDims.lhsIdx_val_of_single _ (cl := 1) rfl _ _).trans (contrEquiv1_symm_val _ 4096 rfl rfl k)
  have hr : dot_S512x4096_S4096x128_S512x128_1_0_0_1_n_n.rhsIdx (ix2 p q) ((contrEquiv1 dot_S512x4096_S4096x128_S512x128_1_0_0_1_n_n 4096 rfl rfl).symm k) = ix2 k q := by
    funext a; apply Fin.ext
    match a with
    | ⟨0, _⟩ => exact (DotDims.rhsIdx_val_of_single _ (cr := 0) rfl _ _).trans (contrEquiv1_symm_val _ 4096 rfl rfl k)
    | ⟨1, _⟩ => rfl
  rw [hl, hr]

/-- The stripe's logits as the body forms them. -/
def logitBlock (v0 : Vec Ideal S512x4096 .f32) (v2 : Vec Ideal S4096x128 .bf16) (v5 : Vec Ideal S1x128 .f32) :
    FVec Ideal S512x128 .f32 :=
  addf (matmul dot_S512x4096_S4096x128_S512x128_1_0_0_1_n_n none
      (truncf .bf16 v0 bitsLt_bf16_f32 : FVec Ideal S512x4096 .bf16)
      (shapeCast S4096x128 v2 shapeCasts_S4096x128_S4096x128 : FVec Ideal S4096x128 .bf16)
      (constant S512x128 .f32 0x00000000#32))
    (broadcastTo S512x128 v5 broadcasts_S1x128_S512x128 : FVec Ideal S512x128 .f32)

theorem logitBlock_apply (v0 : Vec Ideal S512x4096 .f32) (v2 : Vec Ideal S4096x128 .bf16) (v5 : Vec Ideal S1x128 .f32)
    (p : Fin 512) (c : Fin 128) :
    logitBlock v0 v2 v5 (ix2 p c) = ∑ k : Fin 4096, v0 (ix2 p k) * v2 (ix2 k c) + v5 (ix2 (0 : Fin 1) c) := by
  unfold logitBlock
  rw [addf_apply, shapeCast_self, broadcastTo_1b_ab_apply]
  show FloatOps.matmul _ none _ _ _ (ix2 p c) + _ = _
  rw [mm2_apply]
  rfl

/-- Each row's maximum, kept as a column and spread back over the 128 lanes. -/
def spreadMax (L : FVec Ideal S512x128 .f32) : FVec Ideal S512x128 .f32 :=
  broadcastTo S512x128 (shapeCast S512x1
    (multiReduction .maximumf [1] S512 L 0xFF800000#32 reduces_S512x128_S512 (.inl rfl) rfl) shapeCasts_S512_S512x1)
    broadcasts_S512x1_S512x128

theorem spreadMax_apply (L : FVec Ideal S512x128 .f32) (p : Fin 512) (c : Fin 128) :
    spreadMax L (ix2 p c)
      = (Finset.univ : Finset (Fin 128)).fold max (Ideal.ofBits .f32 0xFF800000#32) (fun c' => L (ix2 p c')) := by
  unfold spreadMax
  rw [broadcastTo_a1_ab_apply, shapeCast_a_a1_apply, rowMax_apply]

/-- The logarithm of each row's sum, kept as a column and spread back over the 128 lanes. -/
def spreadLogSum (E : FVec Ideal S512x128 .f32) : FVec Ideal S512x128 .f32 :=
  broadcastTo S512x128 (log (shapeCast S512x1
    (multiReduction .add [1] S512 E 0x00000000#32 reduces_S512x128_S512 (.inl rfl) rfl) shapeCasts_S512_S512x1))
    broadcasts_S512x1_S512x128

theorem spreadLogSum_apply (E : FVec Ideal S512x128 .f32) (p : Fin 512) (c : Fin 128) :
    spreadLogSum E (ix2 p c) = Ideal.log (∑ c' : Fin 128, E (ix2 p c')) := by
  unfold spreadLogSum
  rw [broadcastTo_a1_ab_apply]
  show Ideal.log (shapeCast S512x1 _ shapeCasts_S512_S512x1 (ix2 p (0 : Fin 1))) = _
  rw [shapeCast_a_a1_apply, rowSum_apply]

/-- The log-softmax of a block of logits as the body forms it. -/
def blockLsm (L : FVec Ideal S512x128 .f32) : FVec Ideal S512x128 .f32 :=
  subf (subf L (spreadMax L)) (spreadLogSum (exp (subf L (spreadMax L))))

/-- The body's one store is the log-softmax of the stripe's logits (the same operations, named). -/
theorem pay2_eq (v0 : Vec Ideal S512x4096 .f32) (v2 : Vec Ideal S4096x128 .bf16) (v5 : Vec Ideal S1x128 .f32) :
    k2_pay1 v0 v2 v5 = blockLsm (logitBlock v0 v2 v5) := rfl

/-- The block's log-softmax at row `p` and class `c`. -/
theorem blockLsm_apply (L : FVec Ideal S512x128 .f32) (p : Fin 512) (c : Fin 128) :
    blockLsm L (ix2 p c)
      = (L (ix2 p c) - (Finset.univ : Finset (Fin 128)).fold max (Ideal.ofBits .f32 0xFF800000#32) (fun c' => L (ix2 p c')))
        - Ideal.log (∑ c' : Fin 128, Ideal.exp
            (L (ix2 p c') - (Finset.univ : Finset (Fin 128)).fold max (Ideal.ofBits .f32 0xFF800000#32) (fun c'' => L (ix2 p c'')))) := by
  unfold blockLsm
  rw [subf_apply, subf_apply, spreadLogSum_apply, spreadMax_apply]
  refine congrArg (fun z => _ - Ideal.log z) (Finset.sum_congr rfl fun c' _ => ?_)
  show Ideal.exp (L (ix2 p c') - spreadMax L (ix2 p c')) = _
  rw [spreadMax_apply]

/-- One row stripe: if the first loaded block is rows `512·s …` of `A` and the other two are all of `S` and
    `B`, the stored block at `y` is the last stage at the array index `i` over `y`. -/
theorem stripe2 (v0 : Vec Ideal S512x4096 .f32) (v2 : Vec Ideal S4096x128 .bf16) (v5 : Vec Ideal S1x128 .f32)
    (A : Cert.Gcn.Arr 4096 4096) (S : Cert.Gcn.Arr 4096 128) (B : Cert.Gcn.Arr 1 128) (s : Nat)
    (h0 : ∀ (y : S512x4096.Idx) (i : S4096x4096.Idx), (i 0).val = s * 512 + (y 0).val → (i 1).val = (y 1).val → v0 y = A i)
    (h1 : ∀ (y : S4096x128.Idx), v2 y = S y) (h2 : ∀ (y : S1x128.Idx), v5 y = B y)
    (y : S512x128.Idx) (i : S4096x128.Idx) (hi0 : (i 0).val = s * 512 + (y 0).val) (hi1 : (i 1).val = (y 1).val) :
    k2_pay1 v0 v2 v5 y = Cert.Gcn.outOfSupport2 A S B i := by
  obtain ⟨p, q, rfl⟩ : ∃ (p : Fin 512) (q : Fin 128), y = ix2 p q := ⟨y 0, y 1, eq_ix2 y⟩
  obtain ⟨r, c, rfl⟩ : ∃ (r : Fin 4096) (c : Fin 128), i = ix2 r c := ⟨i 0, i 1, eq_ix2 i⟩
  obtain rfl : c = q := Fin.ext hi1
  have hL : ∀ c' : Fin 128, logitBlock v0 v2 v5 (ix2 p c') = Cert.Gcn.logits A S B (ix2 r c') := fun c' => by
    rw [logitBlock_apply, Cert.Gcn.logits_apply, h2]
    refine congrArg (· + B (ix2 (0 : Fin 1) c')) (Finset.sum_congr rfl fun k _ => ?_)
    rw [h0 (ix2 p k) (ix2 r k) hi0 rfl, h1]
  rw [pay2_eq, blockLsm_apply]
  simp only [hL]
  rfl

/-- The printed index maps over the eight points: the adjacency and output stripes move with the point, the other
    two windows stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the last stage of the three input arrays as the launch finds them. -/
theorem flushed2_eq (c : Dev nD) (t : Fin cfg2.N) :
    (dat2 V c).flushed 3 t
      = ((cfg2.win 3).blk t).view.read (Elt Ideal)
          (Cert.Gcn.outOfSupport2 (V c main_arg1) (V c main_v1) (V c main_arg5)) := by
  show (cfg2.win 3).cut (grid2.coords t) ((dat2 V c).after 3 t) = _
  rw [after2_3]
  unfold out2_3
  rw [View.canon_unit_zero hz]
  simp only [View.ld_unit_zero (S := S512x4096) hz, View.ld_unit_zero (S := S4096x128) hz,
    View.ld_unit_zero (S := S1x128) hz]
  obtain ⟨e0, e1, e2, e3, e4, e5, e6, e7⟩ := idx_facts2 t
  funext j
  refine stripe2 _ _ _ _ _ _ t.val ?_ ?_ ?_ j _ ?_ ?_
  · intro y i hi0 hi1
    show V c main_arg1 (((cfg2.win 0).blk t).view.emb y) = V c main_arg1 i
    refine congrArg _ (funext fun a => Fin.ext ?_)
    match a with
    | ⟨0, _⟩ => show win2_0.index t (0 : Fin 2) * 512 + 1 * (y 0).val = (i 0).val; omega
    | ⟨1, _⟩ => show win2_0.index t (1 : Fin 2) * 4096 + 1 * (y 1).val = (i 1).val; omega
  · intro y
    show V c main_v1 (((cfg2.win 1).blk t).view.emb y) = V c main_v1 y
    refine congrArg _ (funext fun a => Fin.ext ?_)
    match a with
    | ⟨0, _⟩ => show win2_1.index t (0 : Fin 2) * 4096 + 1 * (y 0).val = (y 0).val; omega
    | ⟨1, _⟩ => show win2_1.index t (1 : Fin 2) * 128 + 1 * (y 1).val = (y 1).val; omega
  · intro y
    show V c main_arg5 (((cfg2.win 2).blk t).view.emb y) = V c main_arg5 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  · show win2_3.index t (0 : Fin 2) * 512 + 1 * (j 0).val = t.val * 512 + (j 0).val; omega
  · show win2_3.index t (1 : Fin 2) * 128 + 1 * (j 1).val = (j 1).val; omega

/-- An index of the output array is in point `t`'s block iff each coordinate is in the block's range. -/
theorem mem_blk2 (t : Fin cfg2.N) (i : S4096x128.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v2).slice (win2_3.rect t)).set ↔ _
  rw [View.set_slice_whole, Rect.mem_set_unit]
  exact Iff.rfl

/-- Row `r` lies in the stripe of point `r / 512`. -/
theorem cover2 (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  have hN : cfg2.N = 8 := N_2
  refine ⟨⟨(i 0).val / 512, by rw [hN]; omega⟩, flush2_3 _, ?_⟩
  rw [mem_blk2]
  obtain ⟨e0, e1, e2, e3, e4, e5, e6, e7⟩ := idx_facts2 ⟨(i 0).val / 512, by rw [hN]; omega⟩
  intro a
  match a with
  | ⟨0, _⟩ => show win2_3.index _ (0 : Fin 2) * 512 ≤ (i 0).val ∧ (i 0).val < win2_3.index _ (0 : Fin 2) * 512 + 512; rw [e6]; show (i 0).val / 512 * 512 ≤ (i 0).val ∧ (i 0).val < (i 0).val / 512 * 512 + 512; omega
  | ⟨1, _⟩ => show win2_3.index _ (1 : Fin 2) * 128 ≤ (i 1).val ∧ (i 1).val < win2_3.index _ (1 : Fin 2) * 128 + 128; rw [e7]; omega

/-- THE LAST LAUNCH'S VALUE: its output array ends holding the last stage of its three input arrays. -/
theorem value2 (c : Dev nD) :
    (dat2 V c).arrAt 3 cfg2.N
      = Cert.Gcn.outOfSupport2 (V c main_arg1) (V c main_v1) (V c main_arg5) :=
  (dat2 V c).arrAt_eq_of_cover 3 _ (fun t _ => flushed2_eq V c t) cover2

end Cert.KernelIdeal.Hand

end
-- ==== Proof.KernelOut.lean ====
/-
  The idealized kernel's run with its result as ONE function of the six argument arrays: the result array is the
  last launch's output, which is the log-softmax of the second aggregation of the middle launch's output, which is
  the second product of the rectified first aggregation of the first launch's output, which is the first product of
  the features and the first weights; every launch reads its arguments as launched.
-/
import proofs.«168608_g2000301010487996_pallasbulk_922_1_alg».proof.Proof.KernelRun
import proofs.«168608_g2000301010487996_pallasbulk_922_1_alg».proof.Proof.KernelValue1
import proofs.«168608_g2000301010487996_pallasbulk_922_1_alg».proof.Proof.KernelValue2
import proofs.«168608_g2000301010487996_pallasbulk_922_1_alg».proof.Proof.KernelValue3
import proofs.«168608_g2000301010487996_pallasbulk_922_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array after the run, as the specification of the six argument arrays. -/
theorem result_value (c : Dev nD) :
    W3 m ρ c (Proc.devRef .tc main_v2)
      = Cert.Gcn.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  calc W3 m ρ c (Proc.devRef .tc main_v2)
    _ = (dat2 (V2 m ρ) c).arrAt 3 cfg2.N := result_eq m ρ c
    _ = Cert.Gcn.outOfSupport2 (V2 m ρ c main_arg1) (V2 m ρ c main_v1) (V2 m ρ c main_arg5) := value2 (V2 m ρ) c
    _ = Cert.Gcn.outOfSupport2 (m ((c.tc : Thread nD τ).loc main_arg1)) ((dat1 (V1 m ρ) c).arrAt 4 cfg1.N)
          (m ((c.tc : Thread nD τ).loc main_arg5)) := by rw [V2_adj, V2_support2, V2_b2]
    _ = Cert.Gcn.outOfSupport2 (m ((c.tc : Thread nD τ).loc main_arg1))
          (Cert.Gcn.support2Of (V1 m ρ c main_arg1) (V1 m ρ c main_v0) (V1 m ρ c main_arg3) (V1 m ρ c main_arg4))
          (m ((c.tc : Thread nD τ).loc main_arg5)) := by rw [value1 (V1 m ρ) c]
    _ = Cert.Gcn.outOfSupport2 (m ((c.tc : Thread nD τ).loc main_arg1))
          (Cert.Gcn.support2Of (m ((c.tc : Thread nD τ).loc main_arg1)) ((dat0 (V0 m ρ) c).arrAt 2 cfg0.N)
            (m ((c.tc : Thread nD τ).loc main_arg3)) (m ((c.tc : Thread nD τ).loc main_arg4)))
          (m ((c.tc : Thread nD τ).loc main_arg5)) := by rw [V1_adj, V1_support1, V1_b1, V1_w2]
    _ = Cert.Gcn.outOfSupport2 (m ((c.tc : Thread nD τ).loc main_arg1))
          (Cert.Gcn.support2Of (m ((c.tc : Thread nD τ).loc main_arg1))
            (Cert.Gcn.support1 (V0 m ρ c main_arg0) (V0 m ρ c main_arg2))
            (m ((c.tc : Thread nD τ).loc main_arg3)) (m ((c.tc : Thread nD τ).loc main_arg4)))
          (m ((c.tc : Thread nD τ).loc main_arg5)) := by rw [value0 (V0 m ρ) c]
    _ = _ := rfl

/-- THE KERNEL'S RUN: every weakly fair execution terminates, nothing faults, the result array ends at the
    specification of the launch contents of the six arguments, and the arguments end as launched. -/
theorem run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread nD τ).loc main_v2)
        = Cert.Gcn.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.KernelIdeal.defs (F := Ideal)) _ _).mono (fun r h c => ⟨(h c).1.trans (result_value m ρ c), (h c).2⟩)
    (run_named (F := Ideal) m ρ)

end Cert.KernelIdeal.Hand

end
-- ==== Proof.RefLinear.lean ====
/- The first region of the reference program: one linear layer, row stripe by row stripe.

   The grid has 4 points. At point t the body is handed rows [1024 t, 1024 t + 1024) of the node features (a 1024 x 512
   block), the whole 512 x 256 weight matrix, and the matching 1024 x 256 row stripe of the result. It multiplies the
   feature stripe by the weights over the whole contraction axis, starting from a zero accumulator, narrows the product
   and writes it over the whole result stripe. What the result stripe held before is read once and never used, so the
   stripe after the body is a function of the two input blocks alone.

   This module states that per point, at any buffer contents V found on entry, and packages it as the proof data the
   launch of this region consumes: the arrays on entry, each window's buffer after the body, the (constant) invariant
   and the body's triple at every point. -/
import proofs.«168608_g2000301010487996_pallasbulk_922_1_alg».proof.Proof.Gen.ReferenceIdeal.Launch
import proofs.«168608_g2000301010487996_pallasbulk_922_1_alg».proof.Proof.Gen.ReferenceIdeal.Skeleton
import proofs.«168608_g2000301010487996_pallasbulk_922_1_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 1024 rows long is decided coordinate by coordinate
set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks the body is handed -/

/-- Window `w`'s block at point `t`, cut out of its array as found on entry: for the features the rows
    [1024 t, 1024 t + 1024), for the weights the whole matrix, for the result the same rows as the features. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's buffer holds the feature stripe of point `t` when the body starts, whichever of its two
    buffers is current, for any proof data over the entry arrays whose body leaves that stripe in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's buffer holds the whole weight matrix at every point: it is brought in once, at the first
    point, its index never moves afterwards, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its buffer whole -/

abbrev rFeat : Rect S1024x512 := Rect.unit (s := S1024x512) ![0, 0] S1024x512.size inb_S1024x512_S1024x512_0_0
abbrev rWeight : Rect S512x256 := Rect.unit (s := S512x256) ![0, 0] S512x256.size inb_S512x256_S512x256_0_0
abbrev rStripe : Rect S1024x256 := Rect.unit (s := S1024x256) ![0, 0] S1024x256.size inb_S1024x256_S1024x256_0_0

/-! ## What the body leaves in the result stripe -/

/-- The result window's buffer after the body, from the two input blocks: a single write of the whole stripe, whose
    value is the narrowed product of the feature stripe with the weights. -/
def out0_2 (x0 : Vec F S1024x512 .bf16) (x1 : Vec F S512x256 .bf16) : Vec F S1024x256 .bf16 :=
  View.canon [⟨rStripe, k0_pay1 (View.ld x0 rFeat) (View.ld x1 rWeight)⟩]

/-- That single write covers the stripe: its rectangle is the whole 1024 x 256 buffer. -/
theorem cover0_2 (p0 : Vec F S1024x256 .bf16) (y : S1024x256.Idx) :
    ∃ pc ∈ ([⟨rStripe, p0⟩] : List (View.Piece (Elt F) S1024x256 .bf16)), y ∈ pc.1.set :=
  View.cover_of_tiled [⟨rStripe, p0⟩] S1024x256.size (by rfl) y

/-! ## The body's triple -/

set_option maxHeartbeats 1000000 in
/-- On whole buffers, the two inputs holding `x0` and `x1` and the result stripe holding anything, the body ends with
    the inputs unchanged and the result stripe at `out0_2 x0 x1`. The old contents of the stripe are read on the way
    and discarded. -/
theorem sound_kernel0 (c : Dev nD) (E : Set ℕ) (i : grid0.Coords) (arg1 : Memref sig .tc .vmem S1024x512 .bf16) (harg1 : arg1.IsWhole) (arg2 : Memref sig .tc .vmem S512x256 .bf16) (harg2 : arg2.IsWhole) (arg3 : Memref sig .tc .vmem S1024x256 .bf16) (harg3 : arg3.IsWhole)
    (x0 : Vec F S1024x512 .bf16) (x1 : Vec F S512x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the region -/

/-- On core `c`: the arrays as found on entry; after the body at point `t` the feature and weight buffers still at
    their blocks and the result buffer at `out0_2` of those blocks; the invariant constantly the region's resting
    state (the other scoped buffers and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are the contents found on entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block when the body starts. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The invariant is the region's resting state at both ends. -/
theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RefAgg1Cases.lean ====
/-
  The reference's second call, one grid point at a time. A point is a row stripe of 512 rows and one of four column
  blocks of 1024; with t the point's position in row-major order the column block is k = t mod 4. The body adds
  adj[stripe, block k] · S1[block k] into a 512 × 256 accumulator that lives in a scratch buffer across the four
  blocks of a stripe: at k = 0 it first sets the accumulator to zero, at k = 3 it also stores
  relu(accumulator + b1) · W2 into the output block. So a point is of one of three kinds — first (k = 0), middle
  (k = 1, 2), last (k = 3) — and the output block is touched at the last kind only.
  Here: the two branch conditions in closed form over the 32 points, where the output window is idle and not
  written back, the scoped buffers around the accumulator, and the body run once per kind on arbitrary whole
  buffers — the inputs kept, the accumulator (and at the last kind the output block) left as the stores wrote them.
-/
import proofs.«168608_g2000301010487996_pallasbulk_922_1_alg».proof.Proof.Gen.ReferenceIdeal.Launch
import proofs.«168608_g2000301010487996_pallasbulk_922_1_alg».proof.Proof.Gen.ReferenceIdeal.Skeleton
import proofs.«168608_g2000301010487996_pallasbulk_922_1_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kind of a point -/

/-- "This is the first column block": the body's test k = 0 as it computes it from the second grid coordinate. -/
abbrev isFirst (i : grid1.Coords) : Prop := (Scalar.cmpi .ne (Scalar.extui (Scalar.cmpi .eq (BitVec.ofNat 32 (i 1).val) 0#32)) 0#32) = 1#1
/-- It holds exactly at the positions ≡ 0 (mod 4). -/
theorem isFirst_iff : ∀ t : Fin cfg1.N, isFirst (grid1.coords t) ↔ t.val % 4 = 0 :=
  (by decide +kernel : ∀ t : Fin grid1.N, isFirst (grid1.coords t) ↔ t.val % 4 = 0)

/-- "This is the last column block": the body's test k = 3. -/
abbrev isLast (i : grid1.Coords) : Prop := k1_cond2 i = 1#1
/-- It holds exactly at the positions ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Away from the last column block nothing is stored into the output block, and it is not written back. -/
theorem idle1_4 : ∀ t : Fin cfg1.N, ¬isLast (grid1.coords t) → cfg1.idle 4 (grid1.coords t) = true := by decide +kernel
theorem noFlush1_4 : ∀ t : Fin cfg1.N, ¬isLast (grid1.coords t) → (cfg1.win 4).flush t = false := by decide +kernel
/-- At the last column block the output block is stored. -/
theorem live1_4 : ∀ t : Fin cfg1.N, isLast (grid1.coords t) → cfg1.idle 4 (grid1.coords t) = false := by decide +kernel

/-! ## The buffers the body is handed -/

/-- One staging buffer of the output window, through which its contents are stated (the choice does not matter). -/
abbrev outView : View sig .tc .vmem S512x128 .bf16 := (Memref.whole cc1_stg4_0 : Memref sig .tc .vmem S512x128 .bf16).view
/-- Each window's current staging buffer at a point, as the pipeline passes it, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .bf16 := win1_4.stage (cfg1.slots t 4)
abbrev hs1_4 (t : Fin cfg1.N) : (ms1_4 t).IsWhole := hstage1_4 ((cfg1.slots t 4).cast nbuf1_4)
/-- The accumulator: a whole scoped buffer of the call's own, passed beside the windows. -/
abbrev accM : Memref sig .tc .vmem S512x256 .f32 := Memref.whole cc1_scratch0
abbrev accView : View sig .tc .vmem S512x256 .f32 := accM.view

/-! ## The scoped buffers around the accumulator -/

/-- The third call's seven staging buffers, each whole at some contents: the core's scoped buffers listed after the
    accumulator. -/
abbrev restAfter (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The core's scoped buffers that are no staging buffer of this call, in the core's order — the first call's five
    staging buffers, the accumulator, the third call's seven — with the accumulator's place holding `S`. -/
abbrev scopedWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S ∗ restAfter c)

/-- The same buffers without the accumulator. -/
abbrev scopedOthers (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ restAfter c)

/-- The accumulator's place taken out of the list, -/
theorem scopedWith_open (c : Dev nD) (S : sProp 𝕄) : scopedWith c S ⊢ iprop(S ∗ scopedOthers (F := F) c) := by
  iintro ⟨B1, B2, B3, B4, B5, HS, HR⟩
  isplitl [HS]; · iexact HS
  isplitl [B1]; · iexact B1
  isplitl [B2]; · iexact B2
  isplitl [B3]; · iexact B3
  isplitl [B4]; · iexact B4
  isplitl [B5]; · iexact B5
  iexact HR
/-- and put back. -/
theorem scopedWith_close (c : Dev nD) (S : sProp 𝕄) : iprop(S ∗ scopedOthers (F := F) c) ⊢ scopedWith c S := by
  iintro ⟨HS, B1, B2, B3, B4, B5, HR⟩
  isplitl [B1]; · iexact B1
  isplitl [B2]; · iexact B2
  isplitl [B3]; · iexact B3
  isplitl [B4]; · iexact B4
  isplitl [B5]; · iexact B5
  isplitl [HS]; · iexact HS
  iexact HR

/-- What the pipeline hands the body beside the windows and takes back: those scoped buffers, the accumulator whole
    at some contents, and the core's generator register at some state. -/
theorem PhiA1_eq (c : Dev nD) :
    (Pipeline.ΦA spec1 c : sProp 𝕄)
      = iprop(scopedWith c iprop(∃ d, owns (c : Thread nD τ) accM fullShare d) ∗ (∃ r, prngReg c r)) := by
  unfold Pipeline.ΦA; rw [scopedRest1_eq]; simp only [accM, owns_whole]; try rfl

/-! ## The body, once per kind of point -/

set_option maxHeartbeats 1000000 in
/-- THE FIRST COLUMN BLOCK (k = 0). On whole buffers — the four inputs at their contents, the output block at contents
    handed back untouched (nothing is stored into it), the accumulator at anything — the body runs to the continuation
    holding the inputs as they were and the accumulator with its stores written: zero, then zero plus this block's
    product. The pieces are what the run finds. -/
noncomputable def runFirst (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : isFirst i) (hc1 : ¬isLast i)
    (x0 : Vec F S512x1024 .bf16) (x1 : Vec F S1024x256 .bf16) (x2 : Vec F S1x256 .f32) (x3 : Vec F S256x128 .bf16) :
    Σ' (L4 : List (View.Piece (Elt F) S512x128 .bf16)), { LS : List (View.Piece (Elt F) S512x256 .f32) //
      ∀ (xi4 : Vec F S512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__agg1_fused_kernel i arg2 harg2 arg3 harg3 arg4 harg4 arg5 harg5 arg6 harg6 arg7 harg7) K } := by
  refine ⟨[], ?_, fun xi4 E K => ?run⟩
  case run =>
    simp only [cc1__agg1_fused_kernel_eq_skeleton]; unfold cc1__agg1_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- A MIDDLE COLUMN BLOCK (k = 1, 2). As at the first block, but the accumulator comes in at the contents `acc` the
    point before left and goes out with one store written: `acc` plus this block's product. -/
noncomputable def runMiddle (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : ¬isLast i)
    (x0 : Vec F S512x1024 .bf16) (x1 : Vec F S1024x256 .bf16) (x2 : Vec F S1x256 .f32) (x3 : Vec F S256x128 .bf16) (acc : Vec F S512x256 .f32) :
    Σ' (L4 : List (View.Piece (Elt F) S512x128 .bf16)), { LS : List (View.Piece (Elt F) S512x256 .f32) //
      ∀ (xi4 : Vec F S512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__agg1_fused_kernel i arg2 harg2 arg3 harg3 arg4 harg4 arg5 harg5 arg6 harg6 arg7 harg7) K } := by
  refine ⟨[], ?_, fun xi4 E K => ?run⟩
  case run =>
    simp only [cc1__agg1_fused_kernel_eq_skeleton]; unfold cc1__agg1_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- THE LAST COLUMN BLOCK (k = 3). The accumulator comes in at `acc` and goes out at `acc` plus this block's product;
    the output block, at anything, goes out with its one store written: relu of that sum plus the bias row, times W2. -/
noncomputable def runLast (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : isLast i)
    (x0 : Vec F S512x1024 .bf16) (x1 : Vec F S1024x256 .bf16) (x2 : Vec F S1x256 .f32) (x3 : Vec F S256x128 .bf16) (acc : Vec F S512x256 .f32) :
    Σ' (L4 : List (View.Piece (Elt F) S512x128 .bf16)), { LS : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__agg1_fused_kernel i arg2 harg2 arg3 harg3 arg4 harg4 arg5 harg5 arg6 harg6 arg7 harg7) K } := by
  refine ⟨?_, ?_, fun E K => ?run⟩
  case run =>
    simp only [cc1__agg1_fused_kernel_eq_skeleton]; unfold cc1__agg1_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.ReferenceIdeal.Hand

end
-- ==== Proof.RefAggregate1.lean ====
/-
  The reference's second call over its whole grid. With the body run per kind of point (first, middle, last column
  block of a row stripe), what the accumulator and the output block hold after each of the 32 points is defined by
  recursion on the point: a first-block point starts from nothing, a middle- or last-block point from what the point
  before left in the accumulator. The region's invariant names the accumulator's contents from the second point on;
  with it the body meets the pipeline's obligation at every point, and the invariant is the pipeline's own before the
  first point and after the last. All of it is stated at the contents `V` of the core's buffers when the call is entered.
-/
import proofs.«168608_g2000301010487996_pallasbulk_922_1_alg».proof.Proof.RefAgg1Cases

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the call finds it: the (stripe, column-block) tile of adj,
    the column block's rows of S1, the bias row, W2. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not, for any proof data whose
    array is `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each kind of point leaves -/

/-- The stores of a first-block point into the accumulator tile it, so they cover it. -/
theorem accFirst_cover (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : isFirst i) (hc1 : ¬isLast i)
    (x0 : Vec F S512x1024 .bf16) (x1 : Vec F S1024x256 .bf16) (x2 : Vec F S1x256 .f32) (x3 : Vec F S256x128 .bf16) (y : S512x256.Idx) :
    ∃ pc ∈ (runFirst c i arg2 harg2 arg3 harg3 arg4 harg4 arg5 harg5 arg6 harg6 arg7 harg7 hc0 hc1 x0 x1 x2 x3).2.1, y ∈ pc.1.set :=
  View.cover_of_tiledL (runFirst c i arg2 harg2 arg3 harg3 arg4 harg4 arg5 harg5 arg6 harg6 arg7 harg7 hc0 hc1 x0 x1 x2 x3).2.1 S512x256.size (by sl_kernel_rfl) y

/-- What a first-block point leaves in the accumulator: zero plus the first block's product. -/
def accFirst (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : isFirst i) (hc1 : ¬isLast i)
    (x0 : Vec F S512x1024 .bf16) (x1 : Vec F S1024x256 .bf16) (x2 : Vec F S1x256 .f32) (x3 : Vec F S256x128 .bf16) : Vec F S512x256 .f32 :=
  accView.read (Elt F) (accView.writes (Elt F) accView.junk (runFirst c i arg2 harg2 arg3 harg3 arg4 harg4 arg5 harg5 arg6 harg6 arg7 harg7 hc0 hc1 x0 x1 x2 x3).2.1)

/-- A first-block point stores nothing into the output block: a placeholder nothing consults (the window is
    idle there, not written back, and not read at the next point). -/
def outFirst (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : isFirst i) (hc1 : ¬isLast i)
    (x0 : Vec F S512x1024 .bf16) (x1 : Vec F S1024x256 .bf16) (x2 : Vec F S1x256 .f32) (x3 : Vec F S256x128 .bf16) : Vec F S512x128 .bf16 :=
  outView.read (Elt F) (outView.writes (Elt F) outView.junk (runFirst c i arg2 harg2 arg3 harg3 arg4 harg4 arg5 harg5 arg6 harg6 arg7 harg7 hc0 hc1 x0 x1 x2 x3).1)

/-- The stores of a middle-block point into the accumulator tile it, so they cover it. -/
theorem accMiddle_cover (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : ¬isLast i)
    (x0 : Vec F S512x1024 .bf16) (x1 : Vec F S1024x256 .bf16) (x2 : Vec F S1x256 .f32) (x3 : Vec F S256x128 .bf16) (acc : Vec F S512x256 .f32) (y : S512x256.Idx) :
    ∃ pc ∈ (runMiddle c i arg2 harg2 arg3 harg3 arg4 harg4 arg5 harg5 arg6 harg6 arg7 harg7 hc0 hc1 x0 x1 x2 x3 acc).2.1, y ∈ pc.1.set :=
  View.cover_of_tiledL (runMiddle c i arg2 harg2 arg3 harg3 arg4 harg4 arg5 harg5 arg6 harg6 arg7 harg7 hc0 hc1 x0 x1 x2 x3 acc).2.1 S512x256.size (by sl_kernel_rfl) y

/-- What a middle-block point leaves in the accumulator: what the point before left plus this block's product. -/
def accMiddle (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : ¬isLast i)
    (x0 : Vec F S512x1024 .bf16) (x1 : Vec F S1024x256 .bf16) (x2 : Vec F S1x256 .f32) (x3 : Vec F S256x128 .bf16) (acc : Vec F S512x256 .f32) : Vec F S512x256 .f32 :=
  accView.read (Elt F) (accView.writes (Elt F) accView.junk (runMiddle c i arg2 harg2 arg3 harg3 arg4 harg4 arg5 harg5 arg6 harg6 arg7 harg7 hc0 hc1 x0 x1 x2 x3 acc).2.1)

/-- A middle-block point stores nothing into the output block: a placeholder nothing consults (the window is
    idle there, not written back, and not read at the next point). -/
def outMiddle (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : ¬isLast i)
    (x0 : Vec F S512x1024 .bf16) (x1 : Vec F S1024x256 .bf16) (x2 : Vec F S1x256 .f32) (x3 : Vec F S256x128 .bf16) (acc : Vec F S512x256 .f32) : Vec F S512x128 .bf16 :=
  outView.read (Elt F) (outView.writes (Elt F) outView.junk (runMiddle c i arg2 harg2 arg3 harg3 arg4 harg4 arg5 harg5 arg6 harg6 arg7 harg7 hc0 hc1 x0 x1 x2 x3 acc).1)

/-- The stores of a last-block point into the accumulator tile it, so they cover it. -/
theorem accLast_cover (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : isLast i)
    (x0 : Vec F S512x1024 .bf16) (x1 : Vec F S1024x256 .bf16) (x2 : Vec F S1x256 .f32) (x3 : Vec F S256x128 .bf16) (acc : Vec F S512x256 .f32) (y : S512x256.Idx) :
    ∃ pc ∈ (runLast c i arg2 harg2 arg3 harg3 arg4 harg4 arg5 harg5 arg6 harg6 arg7 harg7 hc0 hc1 x0 x1 x2 x3 acc).2.1, y ∈ pc.1.set :=
  View.cover_of_tiledL (runLast c i arg2 harg2 arg3 harg3 arg4 harg4 arg5 harg5 arg6 harg6 arg7 harg7 hc0 hc1 x0 x1 x2 x3 acc).2.1 S512x256.size (by sl_kernel_rfl) y

/-- What a last-block point leaves in the accumulator: what the point before left plus the last block's product: the whole contraction. -/
def accLast (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : isLast i)
    (x0 : Vec F S512x1024 .bf16) (x1 : Vec F S1024x256 .bf16) (x2 : Vec F S1x256 .f32) (x3 : Vec F S256x128 .bf16) (acc : Vec F S512x256 .f32) : Vec F S512x256 .f32 :=
  accView.read (Elt F) (accView.writes (Elt F) accView.junk (runLast c i arg2 harg2 arg3 harg3 arg4 harg4 arg5 harg5 arg6 harg6 arg7 harg7 hc0 hc1 x0 x1 x2 x3 acc).2.1)

/-- The one store of a last-block point into the output block is the whole block. -/
theorem outLast_cover (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : isLast i)
    (x0 : Vec F S512x1024 .bf16) (x1 : Vec F S1024x256 .bf16) (x2 : Vec F S1x256 .f32) (x3 : Vec F S256x128 .bf16) (acc : Vec F S512x256 .f32) (y : S512x128.Idx) :
    ∃ pc ∈ (runLast c i arg2 harg2 arg3 harg3 arg4 harg4 arg5 harg5 arg6 harg6 arg7 harg7 hc0 hc1 x0 x1 x2 x3 acc).1, y ∈ pc.1.set :=
  View.cover_of_tiledL (runLast c i arg2 harg2 arg3 harg3 arg4 harg4 arg5 harg5 arg6 harg6 arg7 harg7 hc0 hc1 x0 x1 x2 x3 acc).1 S512x128.size (by sl_kernel_rfl) y

/-- What a last-block point leaves in the output block: relu(whole contraction + bias row) · W2 of the stripe. -/
def outLast (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : isLast i)
    (x0 : Vec F S512x1024 .bf16) (x1 : Vec F S1024x256 .bf16) (x2 : Vec F S1x256 .f32) (x3 : Vec F S256x128 .bf16) (acc : Vec F S512x256 .f32) : Vec F S512x128 .bf16 :=
  outView.read (Elt F) (outView.writes (Elt F) outView.junk (runLast c i arg2 harg2 arg3 harg3 arg4 harg4 arg5 harg5 arg6 harg6 arg7 harg7 hc0 hc1 x0 x1 x2 x3 acc).1)

/-! ## What the output block and the accumulator hold after each point -/

/-- After the body at position `n`: (output block, accumulator). The kind is read off `n mod 4`; a middle- or last-block
    point takes the accumulator the point before left. -/
def outsAt1 (c : Dev nD) : (n : ℕ) → n < cfg1.N → Vec F S512x128 .bf16 × Vec F S512x256 .f32
  | 0, hn => (outFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) accM (Memref.isWhole_whole _) ((isFirst_iff ⟨0, hn⟩).mpr (Nat.zero_mod _)) (fun h => (fun h => by (try dsimp only at h); omega) ((isLast_iff ⟨0, hn⟩).mp h)) (iblk1 V c 0 ⟨0, hn⟩) (iblk1 V c 1 ⟨0, hn⟩) (iblk1 V c 2 ⟨0, hn⟩) (iblk1 V c 3 ⟨0, hn⟩), accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) accM (Memref.isWhole_whole _) ((isFirst_iff ⟨0, hn⟩).mpr (Nat.zero_mod _)) (fun h => (fun h => by (try dsimp only at h); omega) ((isLast_iff ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (outFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) ((isFirst_iff ⟨n + 1, hn⟩).mpr h0) (fun h => h1 ((isLast_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩), accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) ((isFirst_iff ⟨n + 1, hn⟩).mpr h0) (fun h => h1 ((isLast_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirst_iff ⟨n + 1, hn⟩).mp h)) ((isLast_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirst_iff ⟨n + 1, hn⟩).mp h)) ((isLast_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outMiddle c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirst_iff ⟨n + 1, hn⟩).mp h)) (fun h => h1 ((isLast_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, accMiddle c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirst_iff ⟨n + 1, hn⟩).mp h)) (fun h => h1 ((isLast_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_first (c : Dev nD) (t : Fin cfg1.N) (h0 : t.val % 4 = 0) (h1 : ¬t.val % 4 = 3) :
    outsAt1 V c t.val t.isLt = (outFirst c (grid1.coords t) (ms1_0 t) (hs1_0 t) (ms1_1 t) (hs1_1 t) (ms1_2 t) (hs1_2 t) (ms1_3 t) (hs1_3 t) (ms1_4 t) (hs1_4 t) accM (Memref.isWhole_whole _) ((isFirst_iff t).mpr h0) (fun h => h1 ((isLast_iff t).mp h)) (iblk1 V c 0 t) (iblk1 V c 1 t) (iblk1 V c 2 t) (iblk1 V c 3 t), accFirst c (grid1.coords t) (ms1_0 t) (hs1_0 t) (ms1_1 t) (hs1_1 t) (ms1_2 t) (hs1_2 t) (ms1_3 t) (hs1_3 t) (ms1_4 t) (hs1_4 t) accM (Memref.isWhole_whole _) ((isFirst_iff t).mpr h0) (fun h => h1 ((isLast_iff t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_middle (c : Dev nD) (t : Fin cfg1.N) (h0 : ¬t.val % 4 = 0) (h1 : ¬t.val % 4 = 3) :
    outsAt1 V c t.val t.isLt = (outMiddle c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) (fun h => h1 ((isLast_iff t).mp h)) (iblk1 V c 0 t) (iblk1 V c 1 t) (iblk1 V c 2 t) (iblk1 V c 3 t) (outsAt1 V c (t.val - 1) (Nat.lt_of_le_of_lt (Nat.sub_le _ _) t.isLt)).2, accMiddle c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) (fun h => h1 ((isLast_iff t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_last (c : Dev nD) (t : Fin cfg1.N) (h0 : ¬t.val % 4 = 0) (h1 : t.val % 4 = 3) :
    outsAt1 V c t.val t.isLt = (outLast c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) ((isLast_iff t).mpr h1) (iblk1 V c 0 t) (iblk1 V c 1 t) (iblk1 V c 2 t) (iblk1 V c 3 t) (outsAt1 V c (t.val - 1) (Nat.lt_of_le_of_lt (Nat.sub_le _ _) t.isLt)).2, accLast c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) ((isLast_iff t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the pipeline's own invariant (the accumulator at anything); afterwards
    the same scoped buffers with the accumulator at what the point before left. -/
def PhiS1 (c : Dev nD) : (n : ℕ) → n ≤ cfg1.N → sProp 𝕄
  | 0, _ => Pipeline.ΦA spec1 c
  | n + 1, hn => iprop(scopedWith c (owns (c : Thread nD τ) accM fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scopedWith c (owns (c : Thread nD τ) accM fullShare ((outsAt1 V c n hn).2)) ∗ (∃ r, prngReg c r)) := rfl
theorem PhiS1_pos (c : Dev nD) (n : ℕ) (h : n ≤ cfg1.N) (hz : n ≠ 0) :
    PhiS1 V c n h = iprop(scopedWith c (owns (c : Thread nD τ) accM fullShare ((outsAt1 V c (n - 1) (by omega)).2)) ∗ (∃ r, prngReg c r)) := by
  cases n with
  | zero => exact absurd rfl hz
  | succ n => rfl

/-! ## The pipeline's proof data -/

/-- The arrays as the call finds them; after the body at a point each input's buffer at its block and the output's at
    `outsAt1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; `t mod 4` says which kind of point it is; the invariant
    hands the body the accumulator at what the point before left (at anything at the very first point) and takes it
    back at this point's contents; away from the last column block the output block's buffer is handed back as it was
    found, at the last it holds the finished block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [Dat.leavesExact_idle (dat1 V c) 4 t (idle1_4 t (fun h => h1 ((isLast_iff t).mp h))) (noFlush1_4 t (fun h => h1 ((isLast_iff t).mp h)))]
      rw [outsAt1_first V c t h0 h1]
      unfold accFirst; (try dsimp only)
      by_cases hz : t.val = 0
      ·
        rw [PhiS1_castSucc V c t, PhiS1_zero V c _ _ hz, PhiA1_eq]
        iintro ⟨⟨HSc, Hg⟩, Ho, ⟨%d0, H0⟩, ⟨%d1, H1⟩, ⟨%d2, H2⟩, ⟨%d3, H3⟩, ⟨%d4, H4⟩⟩
        ihave HSc' := (scopedWith_open c _) $$ HSc
        icases HSc' with ⟨HS, HR⟩
        iapply ((runFirst c (grid1.coords t) _ _ _ _ _ _ _ _ _ _ _ _ ((isFirst_iff t).mpr h0) (fun h => h1 ((isLast_iff t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS HR Hg]
        · isplitl [HS HR]
          · iapply (scopedWith_close c _)
            isplitl [HS]
            · unfold owns; iexists _; isplitr
              swap; · iexact HS
              ipureintro; exact View.read_writes_of_cover _ _ _ _ _ (accFirst_cover c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      ·
        rw [PhiS1_castSucc V c t, PhiS1_pos V c _ _ hz]
        iintro ⟨⟨HSc, Hg⟩, Ho, ⟨%d0, H0⟩, ⟨%d1, H1⟩, ⟨%d2, H2⟩, ⟨%d3, H3⟩, ⟨%d4, H4⟩⟩
        ihave HSc' := (scopedWith_open c _) $$ HSc
        icases HSc' with ⟨HS, HR⟩
        iapply ((runFirst c (grid1.coords t) _ _ _ _ _ _ _ _ _ _ _ _ ((isFirst_iff t).mpr h0) (fun h => h1 ((isLast_iff t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS HR Hg]
        · isplitl [HS HR]
          · iapply (scopedWith_close c _)
            isplitl [HS]
            · unfold owns; iexists _; isplitr
              swap; · iexact HS
              ipureintro; exact View.read_writes_of_cover _ _ _ _ _ (accFirst_cover c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t ((isLast_iff t).mpr h1)], after1_4]
      rw [outsAt1_last V c t h0 h1]
      unfold outLast accLast; (try dsimp only)
      by_cases hz : t.val = 0
      · exfalso; omega
      ·
        rw [PhiS1_castSucc V c t, PhiS1_pos V c _ _ hz]
        iintro ⟨⟨HSc, Hg⟩, Ho, ⟨%d0, H0⟩, ⟨%d1, H1⟩, ⟨%d2, H2⟩, ⟨%d3, H3⟩, ⟨%d4, H4⟩⟩
        ihave HSc' := (scopedWith_open c _) $$ HSc
        icases HSc' with ⟨HS, HR⟩
        iapply ((runLast c (grid1.coords t) _ _ _ _ _ _ _ _ _ _ _ _ (fun h => h0 ((isFirst_iff t).mp h)) ((isLast_iff t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS HR Hg]
        · isplitl [HS HR]
          · iapply (scopedWith_close c _)
            isplitl [HS]
            · unfold owns; iexists _; isplitr
              swap; · iexact HS
              ipureintro; exact View.read_writes_of_cover _ _ _ _ _ (accLast_cover c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (outLast_cover c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [Dat.leavesExact_idle (dat1 V c) 4 t (idle1_4 t (fun h => h1 ((isLast_iff t).mp h))) (noFlush1_4 t (fun h => h1 ((isLast_iff t).mp h)))]
      rw [outsAt1_middle V c t h0 h1]
      unfold accMiddle; (try dsimp only)
      by_cases hz : t.val = 0
      · exfalso; omega
      ·
        rw [PhiS1_castSucc V c t, PhiS1_pos V c _ _ hz]
        iintro ⟨⟨HSc, Hg⟩, Ho, ⟨%d0, H0⟩, ⟨%d1, H1⟩, ⟨%d2, H2⟩, ⟨%d3, H3⟩, ⟨%d4, H4⟩⟩
        ihave HSc' := (scopedWith_open c _) $$ HSc
        icases HSc' with ⟨HS, HR⟩
        iapply ((runMiddle c (grid1.coords t) _ _ _ _ _ _ _ _ _ _ _ _ (fun h => h0 ((isFirst_iff t).mp h)) (fun h => h1 ((isLast_iff t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS HR Hg]
        · isplitl [HS HR]
          · iapply (scopedWith_close c _)
            isplitl [HS]
            · unfold owns; iexists _; isplitr
              swap; · iexact HS
              ipureintro; exact View.read_writes_of_cover _ _ _ _ _ (accMiddle_cover c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the pipeline's own back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HSc, Hg⟩
  isplitl [HSc]
  · ihave HSc' := (scopedWith_open c _) $$ HSc
    icases HSc' with ⟨HS, HR⟩
    iapply (scopedWith_close c _)
    isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region

end Cert.ReferenceIdeal.Hand

end
-- ==== Proof.RefAggregate2.lean ====
/- The third region of the reference program: the second neighbourhood aggregation, accumulated in place, finished by
   a row-wise log-softmax.

   The grid is 8 x 4. Point t has row stripe i = t / 4 and contraction chunk k = t % 4. It is handed the 512 x 1024
   block (i, k) of the adjacency matrix, the 1024 x 128 block (k, 0) of the hidden features, the whole 1 x 128 bias, and
   the 512 x 128 block (i, 0) of the result. The result block does not move while k runs over 0..3 and is written back
   only after k = 3, so between those points its buffer keeps what the body left: the result block is the accumulator.

   The body has two conditionals on k, hence three kinds of point:
     k = 0      the block (holding anything) is overwritten with zeros, then the product of the two input blocks is
                added to it;
     k = 1, 2   the product of the two input blocks is added to what the point before left;
     k = 3      the product is added as before, then the sum is read back, the bias is added, and the block is
                overwritten with the row-wise log-softmax of that.
   In every case the last write covers the whole block.

   This module states that per point, at any buffer contents V found on entry, and packages it as the proof data the
   launch of this region consumes. -/
import proofs.«168608_g2000301010487996_pallasbulk_922_1_alg».proof.Proof.Gen.ReferenceIdeal.Launch
import proofs.«168608_g2000301010487996_pallasbulk_922_1_alg».proof.Proof.Gen.ReferenceIdeal.Skeleton
import proofs.«168608_g2000301010487996_pallasbulk_922_1_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 512 rows long is decided coordinate by coordinate
set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks the body is handed -/

/-- Window `w`'s block at point `t`, cut out of its array as found on entry: block (t / 4, t % 4) of the adjacency
    matrix, block (t % 4, 0) of the hidden features, the whole bias, block (t / 4, 0) of the result. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency window's buffer holds adjacency block (t / 4, t % 4) when the body starts, for any proof data over
    the entry arrays whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The feature window's buffer holds feature block (t % 4, 0) when the body starts. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias window's buffer holds the whole bias at every point: it is brought in once, at the first point, its index
    never moves afterwards, and the body leaves it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, as functions of the point -/

/-- "This is the first contraction chunk": the body's first test, on the second grid coordinate. -/
abbrev cond2_0 (i : grid2.Coords) : Prop := (Scalar.cmpi .ne (Scalar.extui (Scalar.cmpi .eq (BitVec.ofNat 32 (i 1).val) 0#32)) 0#32) = 1#1
/-- It holds exactly at the points with t % 4 = 0. -/
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last contraction chunk": the body's second test. -/
abbrev cond2_1 (i : grid2.Coords) : Prop := (Scalar.cmpi .ne (Scalar.extui (Scalar.cmpi .eq (BitVec.ofNat 32 (i 1).val) 3#32)) 0#32) = 1#1
/-- It holds exactly at the points with t % 4 = 3. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## The buffers the body is called on -/

/-- One buffer of the result window, through which the block's contents are stated (which of the two does not matter). -/
abbrev VO2_3 : View sig .tc .vmem S512x128 .f32 := (Memref.whole cc2_stg3_0 : Memref sig .tc .vmem S512x128 .f32).view
/-- Each window's current buffer at point `t`, and that it is a whole buffer. -/
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x128 .f32 := win2_3.stage (cfg2.slots t 3)
abbrev hs2_3 (t : Fin cfg2.N) : (ms2_3 t).IsWhole := hstage2_3 ((cfg2.slots t 3).cast nbuf2_3)

/-! ## The body, case by case -/

set_option maxHeartbeats 1000000 in
/-- FIRST CHUNK (k = 0). On whole buffers, the three inputs at `x0`, `x1`, `x2` and the result block at anything, the
    body ends with the inputs unchanged and the result block holding the listed writes (last first): zeros, then zeros
    plus the product of `x0` and `x1`. Nothing written depends on what the block held before. -/
noncomputable def kernelRun2_A (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : cond2_0 i) (hc1 : ¬cond2_1 i)
    (x0 : Vec F S512x1024 .bf16) (x1 : Vec F S1024x128 .bf16) (x2 : Vec F S1x128 .f32) :
    { L3 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__agg2_logsoftmax_kernel i arg2 harg2 arg3 harg3 arg4 harg4 arg5 harg5) K } := by
  refine ⟨?_, fun E K => ?run⟩
  case run =>
    simp only [cc2__agg2_logsoftmax_kernel_eq_skeleton]; unfold cc2__agg2_logsoftmax_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- MIDDLE CHUNKS (k = 1, 2). The result block at `xo3`, what the point before left: the body ends with the inputs
    unchanged and the block overwritten with `xo3` plus the product of `x0` and `x1`. -/
noncomputable def kernelRun2_B (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : ¬cond2_0 i) (hc1 : ¬cond2_1 i)
    (x0 : Vec F S512x1024 .bf16) (x1 : Vec F S1024x128 .bf16) (x2 : Vec F S1x128 .f32) (xo3 : Vec F S512x128 .f32) :
    { L3 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__agg2_logsoftmax_kernel i arg2 harg2 arg3 harg3 arg4 harg4 arg5 harg5) K } := by
  refine ⟨?_, fun E K => ?run⟩
  case run =>
    simp only [cc2__agg2_logsoftmax_kernel_eq_skeleton]; unfold cc2__agg2_logsoftmax_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- LAST CHUNK (k = 3). The result block at `xo3`: the body adds the product of `x0` and `x1` to it, reads the sum back,
    and overwrites the block with the row-wise log-softmax of that sum plus the bias `x2`. -/
noncomputable def kernelRun2_C (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : ¬cond2_0 i) (hc1 : cond2_1 i)
    (x0 : Vec F S512x1024 .bf16) (x1 : Vec F S1024x128 .bf16) (x2 : Vec F S1x128 .f32) (xo3 : Vec F S512x128 .f32) :
    { L3 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__agg2_logsoftmax_kernel i arg2 harg2 arg3 harg3 arg4 harg4 arg5 harg5) K } := by
  refine ⟨?_, fun E K => ?run⟩
  case run =>
    simp only [cc2__agg2_logsoftmax_kernel_eq_skeleton]; unfold cc2__agg2_logsoftmax_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-! ## What each case leaves in the result block -/

/-- The writes of the first-chunk case cover the block: each is the whole 512 x 128 rectangle. -/
theorem cover2_A_3 (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : cond2_0 i) (hc1 : ¬cond2_1 i)
    (x0 : Vec F S512x1024 .bf16) (x1 : Vec F S1024x128 .bf16) (x2 : Vec F S1x128 .f32) (y : S512x128.Idx) :
    ∃ pc ∈ (kernelRun2_A c i arg2 harg2 arg3 harg3 arg4 harg4 arg5 harg5 hc0 hc1 x0 x1 x2).1, y ∈ pc.1.set :=
  View.cover_of_tiledL (kernelRun2_A c i arg2 harg2 arg3 harg3 arg4 harg4 arg5 harg5 hc0 hc1 x0 x1 x2).1 S512x128.size (by sl_kernel_rfl) y

/-- What the first-chunk case leaves in the result block. -/
def out2_A_3 (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : cond2_0 i) (hc1 : ¬cond2_1 i)
    (x0 : Vec F S512x1024 .bf16) (x1 : Vec F S1024x128 .bf16) (x2 : Vec F S1x128 .f32) : Vec F S512x128 .f32 :=
  VO2_3.read (Elt F) (VO2_3.writes (Elt F) VO2_3.junk (kernelRun2_A c i arg2 harg2 arg3 harg3 arg4 harg4 arg5 harg5 hc0 hc1 x0 x1 x2).1)

/-- The single write of the middle case covers the block. -/
theorem cover2_B_3 (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : ¬cond2_0 i) (hc1 : ¬cond2_1 i)
    (x0 : Vec F S512x1024 .bf16) (x1 : Vec F S1024x128 .bf16) (x2 : Vec F S1x128 .f32) (xo3 : Vec F S512x128 .f32) (y : S512x128.Idx) :
    ∃ pc ∈ (kernelRun2_B c i arg2 harg2 arg3 harg3 arg4 harg4 arg5 harg5 hc0 hc1 x0 x1 x2 xo3).1, y ∈ pc.1.set :=
  View.cover_of_tiledL (kernelRun2_B c i arg2 harg2 arg3 harg3 arg4 harg4 arg5 harg5 hc0 hc1 x0 x1 x2 xo3).1 S512x128.size (by sl_kernel_rfl) y

/-- What a middle chunk leaves in the result block, from what it found there. -/
def out2_B_3 (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : ¬cond2_0 i) (hc1 : ¬cond2_1 i)
    (x0 : Vec F S512x1024 .bf16) (x1 : Vec F S1024x128 .bf16) (x2 : Vec F S1x128 .f32) (xo3 : Vec F S512x128 .f32) : Vec F S512x128 .f32 :=
  VO2_3.read (Elt F) (VO2_3.writes (Elt F) VO2_3.junk (kernelRun2_B c i arg2 harg2 arg3 harg3 arg4 harg4 arg5 harg5 hc0 hc1 x0 x1 x2 xo3).1)

/-- The writes of the last-chunk case cover the block. -/
theorem cover2_C_3 (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : ¬cond2_0 i) (hc1 : cond2_1 i)
    (x0 : Vec F S512x1024 .bf16) (x1 : Vec F S1024x128 .bf16) (x2 : Vec F S1x128 .f32) (xo3 : Vec F S512x128 .f32) (y : S512x128.Idx) :
    ∃ pc ∈ (kernelRun2_C c i arg2 harg2 arg3 harg3 arg4 harg4 arg5 harg5 hc0 hc1 x0 x1 x2 xo3).1, y ∈ pc.1.set :=
  View.cover_of_tiledL (kernelRun2_C c i arg2 harg2 arg3 harg3 arg4 harg4 arg5 harg5 hc0 hc1 x0 x1 x2 xo3).1 S512x128.size (by sl_kernel_rfl) y

/-- What the last chunk leaves in the result block, from what it found there. -/
def out2_C_3 (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : ¬cond2_0 i) (hc1 : cond2_1 i)
    (x0 : Vec F S512x1024 .bf16) (x1 : Vec F S1024x128 .bf16) (x2 : Vec F S1x128 .f32) (xo3 : Vec F S512x128 .f32) : Vec F S512x128 .f32 :=
  VO2_3.read (Elt F) (VO2_3.writes (Elt F) VO2_3.junk (kernelRun2_C c i arg2 harg2 arg3 harg3 arg4 harg4 arg5 harg5 hc0 hc1 x0 x1 x2 xo3).1)

/-! ## What the result block holds after each point -/

/-- THE ACCUMULATION. The result window's buffer after the body at position `n`: the case selected by n % 4, run on the
    point's input blocks, and for n % 4 ≠ 0 on what this very function gives at n - 1 (the buffer is not written back in
    between). The two conditions never hold together. -/
def outsAt2 (c : Dev nD) : (n : ℕ) → n < cfg2.N → Vec F S512x128 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 4 = 0 then
      if h1 : (n + 1) % 4 = 3 then
        False.elim (by omega)
      else
        out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩)
    else
      if h1 : (n + 1) % 4 = 3 then
        out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn))
      else
        out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn))

/-- At a first chunk: zeros plus the product, whatever came before. -/
theorem outsAt2_A (c : Dev nD) (t : Fin cfg2.N) (h0 : t.val % 4 = 0) (h1 : ¬t.val % 4 = 3) :
    outsAt2 V c t.val t.isLt = out2_A_3 c (grid2.coords t) (ms2_0 t) (hs2_0 t) (ms2_1 t) (hs2_1 t) (ms2_2 t) (hs2_2 t) (ms2_3 t) (hs2_3 t) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (dif_pos h0).trans ((dif_neg h1).trans rfl)

/-- At a middle chunk: the product added to what the point before left. -/
theorem outsAt2_B (c : Dev nD) (t : Fin cfg2.N) (h0 : ¬t.val % 4 = 0) (h1 : ¬t.val % 4 = 3) :
    outsAt2 V c t.val t.isLt = out2_B_3 c (grid2.coords t) (ms2_0 t) (hs2_0 t) (ms2_1 t) (hs2_1 t) (ms2_2 t) (hs2_2 t) (ms2_3 t) (hs2_3 t) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last chunk: the log-softmax of the completed sum plus the bias, over what the point before left. -/
theorem outsAt2_C (c : Dev nD) (t : Fin cfg2.N) (h0 : ¬t.val % 4 = 0) (h1 : t.val % 4 = 3) :
    outsAt2 V c t.val t.isLt = out2_C_3 c (grid2.coords t) (ms2_0 t) (hs2_0 t) (ms2_1 t) (hs2_1 t) (ms2_2 t) (hs2_2 t) (ms2_3 t) (hs2_3 t) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The proof data of the region -/

/-- On core `c`: the arrays as found on entry; after the body at point `t` each input's buffer still at its block and
    the result buffer at `outsAt2`; the invariant constantly the region's resting state (the other scoped buffers and
    the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt)
  Φ _ := Pipeline.ΦA spec2 c
  q _ := fullShare
  owed _ := 0

/-- The arrays of the proof data are the contents found on entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt) := by dsimp only [dat2]

/-- Each input's current buffer holds its block when the body starts. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
/-- At a point that is not a first chunk the result buffer holds what the body left at the point before: the point is
    not the first, the point before is not a last chunk so nothing was written back in between, and the window is
    never idle and never clipped. -/
theorem before2_3_kept (c : Dev nD) (t : Fin cfg2.N) (h0 : ¬t.val % 4 = 0) (d) :
    (dat2 V c).before 3 t d = (outsAt2 V c (t.val - 1) (Nat.lt_of_le_of_lt (Nat.sub_le _ _) t.isLt)) := by
  have hN : t.val < 32 := lt_of_lt_of_eq t.isLt (show cfg2.N = 32 from N_2)
  rw [Dat.before_out_kept _ 3 rfl t (by omega) (Bool.eq_false_iff.mpr fun h => by have := (flush2_3 _).mp h; dsimp only at this; omega)
    (fun _ => rfl) (fun _ _ => rfl)]
  dsimp only [dat2]

/-- The invariant is the region's resting state at both ends. -/
theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 800000 in
/-- The body at any point: the inputs' buffers hold their blocks; t % 4 says which case the point is in; outside the
    first chunk the result buffer holds what the point before left; so that case's run applies. The invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  have hN : t.val < 32 := lt_of_lt_of_eq t.isLt (show cfg2.N = 32 from N_2)
  by_cases h0 : t.val % 4 = 0
  · by_cases h1 : t.val % 4 = 3
    · exfalso; omega
    · rw [outsAt2_A V c t h0 h1]
      unfold out2_A_3
      iintro ⟨HΦ, Ho, ⟨%d0, H0⟩, ⟨%d1, H1⟩, ⟨%d2, H2⟩, ⟨%d3, H3⟩⟩
      iapply ((kernelRun2_A c (grid2.coords t) _ _ _ _ _ _ _ _ ((hcond2_0 t).mpr h0) (fun h => h1 ((hcond2_1 t).mp h)) (iblk2 V c 0 t) (iblk2 V c 1 t) (iblk2 V c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _)
  · by_cases h1 : t.val % 4 = 3
    · rw [outsAt2_C V c t h0 h1]
      simp only [before2_3_kept V c t h0]
      unfold out2_C_3
      iintro ⟨HΦ, Ho, ⟨%d0, H0⟩, ⟨%d1, H1⟩, ⟨%d2, H2⟩, ⟨%d3, H3⟩⟩
      iapply ((kernelRun2_C c (grid2.coords t) _ _ _ _ _ _ _ _ (fun h => h0 ((hcond2_0 t).mp h)) ((hcond2_1 t).mpr h1) (iblk2 V c 0 t) (iblk2 V c 1 t) (iblk2 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _)
    · rw [outsAt2_B V c t h0 h1]
      simp only [before2_3_kept V c t h0]
      unfold out2_B_3
      iintro ⟨HΦ, Ho, ⟨%d0, H0⟩, ⟨%d1, H1⟩, ⟨%d2, H2⟩, ⟨%d3, H3⟩⟩
      iapply ((kernelRun2_B c (grid2.coords t) _ _ _ _ _ _ _ _ (fun h => h0 ((hcond2_0 t).mp h)) (fun h => h1 ((hcond2_1 t).mp h)) (iblk2 V c 0 t) (iblk2 V c 1 t) (iblk2 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_B_3 c _ _ _ _ _ _ _ _ _ _ _ _ _ _ _)

/-- The body obligation of the launch, at every point. -/
theorem body_obligation2 (c : Dev nD) : BodyObligation (dat2 (F := F) V c) (defs₀ (F := F)) Variants.none () Set.univ := fun t => by
  rw [bigSep_W2, bigSep_W2]
  exact sound_body2 V c t

end Cert.ReferenceIdeal.Hand

end
-- ==== Proof.RefRun.lean ====
/-
  The reference program from launch to return. Its host operations build the six padded operands (each a full-shape
  scatter into zeros: the operand itself), then three calls follow: S1 = x · W1 in row stripes, then
  S2 = relu(adj · S1 + b1) · W2 accumulated over four column blocks, then the log_softmax of adj · S2 + b2 accumulated
  the same way. The buffer contents at each boundary are a fold from the launch memory; each call is a segment entered
  at one boundary's contents and left at the next; the program runs, ends with the arguments as launched, and its
  result array is the last boundary's contents of the third call's output.
-/
import proofs.«168608_g2000301010487996_pallasbulk_922_1_alg».proof.Proof.RefLinear
import proofs.«168608_g2000301010487996_pallasbulk_922_1_alg».proof.Proof.RefAggregate1
import proofs.«168608_g2000301010487996_pallasbulk_922_1_alg».proof.Proof.RefAggregate2
import proofs.«168608_g2000301010487996_pallasbulk_922_1_alg».proof.Proof.Gen.ReferenceIdeal.Regions
import Idealize.ShloMosaic.Lib.Pipeline.RegionsLoop

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the host operations. -/
abbrev Wh (c : Dev nD) : Valuation τ sig (Elt F) := StableHlo.after hostOps0 (fun b => m (c, b))
abbrev Vh : (c : Dev nD) → (b : Ref sig .tc) → Buf (Elt F) ((c : Thread nD τ).loc b) := fun c b => Wh m c b

/-- After call 0: its arrays at what the pipeline leaves (inputs as entered, the output's write-backs folded), every
    other buffer as entered. -/
def Wa (c : Dev nD) : Valuation τ sig (Elt F) :=
  Pipeline.withArrays spec0 c (Wh m c) fun w => (dat0 (Vh m) c).arrAt w cfg0.N
theorem Wa_arr (c : Dev nD) (w : Fin cfg0.W) :
    Wa m c (Proc.devRef .tc (Pipeline.arrRef spec0 w)) = (dat0 (Vh m) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m c (Proc.devRef .tc b) = Wh m c (Proc.devRef .tc b) := by
  unfold Wa; exact Pipeline.withArrays_of_ne spec0 c _ _ b hb
abbrev Va : (c : Dev nD) → (b : Ref sig .tc) → Buf (Elt F) ((c : Thread nD τ).loc b) := fun c b => Wa m c b
theorem hF0 (c : Dev nD) (w : Fin cfg0.W) : (dat0 (Vh m) c).arrAt w cfg0.N = Va m c (Pipeline.arrRef spec0 w) :=
  (Wa_arr m c w).symm
theorem hrest0 (c : Dev nD) : ∀ b, b ∉ Finset.univ.image (Pipeline.arrRef spec0) → Va m c b = Vh m c b :=
  fun b hb => Wa_of_ne m c b fun w e => hb (Finset.mem_image.mpr ⟨w, Finset.mem_univ _, e⟩)

/-- After call 1: its arrays at what the pipeline leaves (inputs as entered, the output's write-backs folded), every
    other buffer as entered. -/
def Wb (c : Dev nD) : Valuation τ sig (Elt F) :=
  Pipeline.withArrays spec1 c (Wa m c) fun w => (dat1 (Va m) c).arrAt w cfg1.N
theorem Wb_arr (c : Dev nD) (w : Fin cfg1.W) :
    Wb m c (Proc.devRef .tc (Pipeline.arrRef spec1 w)) = (dat1 (Va m) c).arrAt w cfg1.N := by
  unfold Wb; exact Pipeline.withArrays_arr spec1 launch1.win.arr_inj c _ _ w
theorem Wb_of_ne (c : Dev nD) (b : Ref sig .tc) (hb : ∀ w, Pipeline.arrRef spec1 w ≠ b) :
    Wb m c (Proc.devRef .tc b) = Wa m c (Proc.devRef .tc b) := by
  unfold Wb; exact Pipeline.withArrays_of_ne spec1 c _ _ b hb
abbrev Vb : (c : Dev nD) → (b : Ref sig .tc) → Buf (Elt F) ((c : Thread nD τ).loc b) := fun c b => Wb m c b
theorem hF1 (c : Dev nD) (w : Fin cfg1.W) : (dat1 (Va m) c).arrAt w cfg1.N = Vb m c (Pipeline.arrRef spec1 w) :=
  (Wb_arr m c w).symm
theorem hrest1 (c : Dev nD) : ∀ b, b ∉ Finset.univ.image (Pipeline.arrRef spec1) → Vb m c b = Va m c b :=
  fun b hb => Wb_of_ne m c b fun w e => hb (Finset.mem_image.mpr ⟨w, Finset.mem_univ _, e⟩)

/-- After call 2: its arrays at what the pipeline leaves (inputs as entered, the output's write-backs folded), every
    other buffer as entered. -/
def Wc (c : Dev nD) : Valuation τ sig (Elt F) :=
  Pipeline.withArrays spec2 c (Wb m c) fun w => (dat2 (Vb m) c).arrAt w cfg2.N
theorem Wc_arr (c : Dev nD) (w : Fin cfg2.W) :
    Wc m c (Proc.devRef .tc (Pipeline.arrRef spec2 w)) = (dat2 (Vb m) c).arrAt w cfg2.N := by
  unfold Wc; exact Pipeline.withArrays_arr spec2 launch2.win.arr_inj c _ _ w
theorem Wc_of_ne (c : Dev nD) (b : Ref sig .tc) (hb : ∀ w, Pipeline.arrRef spec2 w ≠ b) :
    Wc m c (Proc.devRef .tc b) = Wb m c (Proc.devRef .tc b) := by
  unfold Wc; exact Pipeline.withArrays_of_ne spec2 c _ _ b hb
abbrev Vc : (c : Dev nD) → (b : Ref sig .tc) → Buf (Elt F) ((c : Thread nD τ).loc b) := fun c b => Wc m c b
theorem hF2 (c : Dev nD) (w : Fin cfg2.W) : (dat2 (Vb m) c).arrAt w cfg2.N = Vc m c (Pipeline.arrRef spec2 w) :=
  (Wc_arr m c w).symm
theorem hrest2 (c : Dev nD) : ∀ b, b ∉ Finset.univ.image (Pipeline.arrRef spec2) → Vc m c b = Vb m c b :=
  fun b hb => Wc_of_ne m c b fun w e => hb (Finset.mem_image.mpr ⟨w, Finset.mem_univ _, e⟩)

/-! ### The arguments end as launched: no host operation writes one and no call has one among its arrays -/

theorem Wc_main_arg0 (c : Dev nD) : Wc m c (Proc.devRef .tc main_arg0) = m ((c : Thread nD τ).loc main_arg0) :=
  calc Wc m c (Proc.devRef .tc main_arg0)
    _ = Wb m c (Proc.devRef .tc main_arg0) := Wc_of_ne m c main_arg0 (by decide)
    _ = Wa m c (Proc.devRef .tc main_arg0) := Wb_of_ne m c main_arg0 (by decide)
    _ = Wh m c (Proc.devRef .tc main_arg0) := Wa_of_ne m c main_arg0 (by decide)
    _ = m ((c : Thread nD τ).loc main_arg0) := Gen.V1_of m c main_arg0 (by decide)
theorem Wc_main_arg1 (c : Dev nD) : Wc m c (Proc.devRef .tc main_arg1) = m ((c : Thread nD τ).loc main_arg1) :=
  calc Wc m c (Proc.devRef .tc main_arg1)
    _ = Wb m c (Proc.devRef .tc main_arg1) := Wc_of_ne m c main_arg1 (by decide)
    _ = Wa m c (Proc.devRef .tc main_arg1) := Wb_of_ne m c main_arg1 (by decide)
    _ = Wh m c (Proc.devRef .tc main_arg1) := Wa_of_ne m c main_arg1 (by decide)
    _ = m ((c : Thread nD τ).loc main_arg1) := Gen.V1_of m c main_arg1 (by decide)
theorem Wc_main_arg2 (c : Dev nD) : Wc m c (Proc.devRef .tc main_arg2) = m ((c : Thread nD τ).loc main_arg2) :=
  calc Wc m c (Proc.devRef .tc main_arg2)
    _ = Wb m c (Proc.devRef .tc main_arg2) := Wc_of_ne m c main_arg2 (by decide)
    _ = Wa m c (Proc.devRef .tc main_arg2) := Wb_of_ne m c main_arg2 (by decide)
    _ = Wh m c (Proc.devRef .tc main_arg2) := Wa_of_ne m c main_arg2 (by decide)
    _ = m ((c : Thread nD τ).loc main_arg2) := Gen.V1_of m c main_arg2 (by decide)
theorem Wc_main_arg3 (c : Dev nD) : Wc m c (Proc.devRef .tc main_arg3) = m ((c : Thread nD τ).loc main_arg3) :=
  calc Wc m c (Proc.devRef .tc main_arg3)
    _ = Wb m c (Proc.devRef .tc main_arg3) := Wc_of_ne m c main_arg3 (by decide)
    _ = Wa m c (Proc.devRef .tc main_arg3) := Wb_of_ne m c main_arg3 (by decide)
    _ = Wh m c (Proc.devRef .tc main_arg3) := Wa_of_ne m c main_arg3 (by decide)
    _ = m ((c : Thread nD τ).loc main_arg3) := Gen.V1_of m c main_arg3 (by decide)
theorem Wc_main_arg4 (c : Dev nD) : Wc m c (Proc.devRef .tc main_arg4) = m ((c : Thread nD τ).loc main_arg4) :=
  calc Wc m c (Proc.devRef .tc main_arg4)
    _ = Wb m c (Proc.devRef .tc main_arg4) := Wc_of_ne m c main_arg4 (by decide)
    _ = Wa m c (Proc.devRef .tc main_arg4) := Wb_of_ne m c main_arg4 (by decide)
    _ = Wh m c (Proc.devRef .tc main_arg4) := Wa_of_ne m c main_arg4 (by decide)
    _ = m ((c : Thread nD τ).loc main_arg4) := Gen.V1_of m c main_arg4 (by decide)
theorem Wc_main_arg5 (c : Dev nD) : Wc m c (Proc.devRef .tc main_arg5) = m ((c : Thread nD τ).loc main_arg5) :=
  calc Wc m c (Proc.devRef .tc main_arg5)
    _ = Wb m c (Proc.devRef .tc main_arg5) := Wc_of_ne m c main_arg5 (by decide)
    _ = Wa m c (Proc.devRef .tc main_arg5) := Wb_of_ne m c main_arg5 (by decide)
    _ = Wh m c (Proc.devRef .tc main_arg5) := Wa_of_ne m c main_arg5 (by decide)
    _ = m ((c : Thread nD τ).loc main_arg5) := Gen.V1_of m c main_arg5 (by decide)

/-! ## The proof data family and the thread state -/

abbrev radm : (p : Fin 3) → (pcfgs (F := F) p).Adm := fun p => (cfgs p).toPCfg_adm
/-- Every call's proof data, each at its entry contents. -/
def rdats : (p : Fin 3) → (c : Dev nD) → Dat τ (Elt F) Unit ℕ (UR sig nD τ) ℕ (Pipeline.pin (pcfgs (F := F)) radm p) c
  | ⟨0, _⟩ => fun c => dat0 (Vh m) c
  | ⟨1, _⟩ => fun c => dat1 (Va m) c
  | ⟨2, _⟩ => fun c => dat2 (Vb m) c
abbrev 𝒱r : Variants := Variants.none
abbrev Lr : GSem nD τ sig → Finset Unit := fun _ => ∅
abbrev lvr : GSem nD τ sig → Unit → ℕ := fun _ _ => 0
/-- What rides beside the buffers through every segment: the core's generator register at some state and its debts, none. -/
abbrev Rr (c : Dev nD) : sProp 𝕄 := iprop((∃ r, prngReg c r) ∗ ∃ W, owes (c : Thread nD τ) (0 : CellTallies nD τ sig Unit) W)
/-- The host operations as a segment from the launch contents. -/
abbrev hostSeg : Pipeline.HostSeg (Name := ℕ) (U := UR sig nD τ) (pcfgs (F := F)) defs₀ 𝒱r Lr lvr :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (fun c b => m (c, b)) Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wc m c) ∗ ∃ r, prngReg c r)

/-! ## The calls as segments -/

set_option backward.isDefEq.respectTransparency.types false in
/-- CALL 0 (the row stripes of x · W1) as a segment of the program: entered with every unscoped buffer at `Wh`, left with them at
    `Wa`. Its arrays are split out of the unscoped buffers and put back at their exit contents; the generator
    register goes into the call's invariant and comes back; nothing is owed; the call has no semaphore of its own. -/
def reg0 : Pipeline.RegionSeg (pcfgs (F := F)) radm (rdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (Vh m) c).loose
  hwaits := Pipeline.hwaits_of_owed_zero _ _ _ _ Lr lvr 0 fun _ _ => rfl
  pre c := iprop(StableHlo.held (c : Thread nD τ) (Pipeline.ucRefs τ sig) (Wh m c) ∗ Rr c)
  post c := iprop(StableHlo.held (c : Thread nD τ) (Pipeline.ucRefs τ sig) (Wa m c) ∗ Rr c)
  X c := iprop(∃ r, prngReg c r)
  Y c := iprop(∃ r, prngReg c r)
  Z c := Pipeline.unscopedRest (Ix := Unit) (Name := ℕ) (U := UR sig nD τ) (Lvl := ℕ) spec0 c (Vh m c)
  hentry c := by
    rw [Pipeline.ownSems0_none]
    have hsplit := Pipeline.arrays_of_unscopedBufs (p := 0) (pcfgs (F := F)) radm (rdats m) launch0.win launch0.arr_whole c
      ((rdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) radm (Ix := Unit) (Name := ℕ) (U := UR sig nD τ) (Lvl := ℕ)
      launch0.win launch0.arr_whole c (rdats m) ((rdats m 0 c).share_full fun _ => rfl)
      (Vh m c) (Va m c) ((rdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 (the accumulated adj · S1, finished to relu(· + b1) · W2) as a segment of the program: entered with every unscoped buffer at `Wa`, left with them at
    `Wb`. Its arrays are split out of the unscoped buffers and put back at their exit contents; the generator
    register goes into the call's invariant and comes back; nothing is owed; the call has no semaphore of its own. -/
def reg1 : Pipeline.RegionSeg (pcfgs (F := F)) radm (rdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (Va m) c).loose
  hwaits := Pipeline.hwaits_of_owed_zero _ _ _ _ Lr lvr 1 fun _ _ => rfl
  pre c := iprop(StableHlo.held (c : Thread nD τ) (Pipeline.ucRefs τ sig) (Wa m c) ∗ Rr c)
  post c := iprop(StableHlo.held (c : Thread nD τ) (Pipeline.ucRefs τ sig) (Wb m c) ∗ Rr c)
  X c := iprop(∃ r, prngReg c r)
  Y c := iprop(∃ r, prngReg c r)
  Z c := Pipeline.unscopedRest (Ix := Unit) (Name := ℕ) (U := UR sig nD τ) (Lvl := ℕ) spec1 c (Va m c)
  hentry c := by
    rw [Pipeline.ownSems0_none]
    have hsplit := Pipeline.arrays_of_unscopedBufs (p := 1) (pcfgs (F := F)) radm (rdats m) launch1.win launch1.arr_whole c
      ((rdats m 1 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have back : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (Va m) c).trans back
  hexit c := by
    have hjoin := Pipeline.unscopedBufs_of_arrays (p := 1) (pcfgs (F := F)) radm (Ix := Unit) (Name := ℕ) (U := UR sig nD τ) (Lvl := ℕ)
      launch1.win launch1.arr_whole c (rdats m) ((rdats m 1 c).share_full fun _ => rfl)
      (Va m c) (Vb m c) ((rdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 (the accumulated adj · S2, finished to the log_softmax) as a segment of the program: entered with every unscoped buffer at `Wb`, left with them at
    `Wc`. Its arrays are split out of the unscoped buffers and put back at their exit contents; the generator
    register goes into the call's invariant and comes back; nothing is owed; the call has no semaphore of its own. -/
def reg2 : Pipeline.RegionSeg (pcfgs (F := F)) radm (rdats m) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (Vb m) c).loose
  hwaits := Pipeline.hwaits_of_owed_zero _ _ _ _ Lr lvr 2 fun _ _ => rfl
  pre c := iprop(StableHlo.held (c : Thread nD τ) (Pipeline.ucRefs τ sig) (Wb m c) ∗ Rr c)
  post c := iprop(StableHlo.held (c : Thread nD τ) (Pipeline.ucRefs τ sig) (Wc m c) ∗ Rr c)
  X c := iprop(∃ r, prngReg c r)
  Y c := iprop(∃ r, prngReg c r)
  Z c := Pipeline.unscopedRest (Ix := Unit) (Name := ℕ) (U := UR sig nD τ) (Lvl := ℕ) spec2 c (Vb m c)
  hentry c := by
    rw [Pipeline.ownSems0_none]
    have hsplit := Pipeline.arrays_of_unscopedBufs (p := 2) (pcfgs (F := F)) radm (rdats m) launch2.win launch2.arr_whole c
      ((rdats m 2 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) radm (Ix := Unit) (Name := ℕ) (U := UR sig nD τ) (Lvl := ℕ)
      launch2.win launch2.arr_whole c (rdats m) ((rdats m 2 c).share_full fun _ => rfl)
      (Vb m c) (Vc m c) ((rdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev rsegs : List (Pipeline.Seg (pcfgs (F := F)) radm (rdats m) () defs₀ 𝒱r Lr lvr) :=
  [ .host (hostSeg m),
    .region (reg0 m),
    .region (reg1 m),
    .region (reg2 m) ]
theorem main_rsegs (c : Dev nD) : main (F := F) c = Pipeline.Seg.run (rsegs m) := (main_chain c).trans (by chain_rfl)

set_option backward.isDefEq.respectTransparency.types false in
/-- THE RUN. From any memory with zero counters every weakly fair execution of the program terminates without a fault,
    the result array ends at the last boundary's contents and the six arguments as launched. -/
theorem run_named : θ_run defs (onTc (τ := τ) (main (F := F))) ⟨m, fun _ => 0, ρ⟩ (fun r => ∀ c : Dev nD,
      r.2.mem ((c.tc : Thread nD τ).loc main_v18) = Wc m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) radm (rdats m) () cellOf_inj emb₁ defs₀ 𝒱r Lr lvr m ρ main (rsegs m)
    (fun c Q => by rw [main_rsegs m c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ Rr c)) (Tₙ := Tend m)
    (hch := ⟨fun _ => .rfl, fun _ => .rfl, fun _ => .rfl, fun _ => .rfl, fun c => by
      show iprop(StableHlo.held (c : Thread nD τ) (Pipeline.ucRefs τ sig) (Wc m c) ∗ Rr c)
        ⊢ iprop(Tend m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lr lvr fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m c b)
    (hfin := fun c s' => by
      iintro ⟨⟨Hh, -⟩, HSI⟩
      unfold StableHlo.held
      imodintro
      iapply (pointsTo_read_all (Pipeline.ucRefs τ sig) (fun b => (((c : Thread nD τ)).1, b)) (Wc m c) s')
      isplitl [Hh] <;> iassumption)
    (hQ := fun s h c =>
      ⟨h c _ (mem_uc main_v18 (by decide)),
       (h c _ (mem_uc main_arg0 (by decide))).trans (Wc_main_arg0 m c),
       (h c _ (mem_uc main_arg1 (by decide))).trans (Wc_main_arg1 m c),
       (h c _ (mem_uc main_arg2 (by decide))).trans (Wc_main_arg2 m c),
       (h c _ (mem_uc main_arg3 (by decide))).trans (Wc_main_arg3 m c),
       (h c _ (mem_uc main_arg4 (by decide))).trans (Wc_main_arg4 m c),
       (h c _ (mem_uc main_arg5 (by decide))).trans (Wc_main_arg5 m c)⟩)

end Cert.ReferenceIdeal.Hand

end
-- ==== Proof.HostValue.lean ====
/-
  The reference's host operations, read: each of the six operands the calls read is built by scattering the argument
  (for four of them after a change of float format, the identity on extended reals) into an array of zeros with NO
  scattered axis and the whole array as the update window — every update index lands at itself, so the scatter
  returns the update, and the operand is the argument.
-/
import proofs.«168608_g2000301010487996_pallasbulk_922_1_alg».proof.Proof.RefRun
import Idealize.ShloMosaic.PureOps.Ideal
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

open Classical in
/-- Writing `upd (e n)` at `e n` for every `n` of a list, in order, leaves `upd` at every index some `n` names and
    the start contents elsewhere. -/
theorem foldl_write_apply {ι β γ : Type} [DecidableEq β] (e : ι → β) (upd : β → γ) :
    ∀ (l : List ι) (x : β → γ) (i' : β),
      (l.foldl (fun r n => fun i' => if i' = e n then upd (e n) else r i') x) i'
        = if ∃ n ∈ l, e n = i' then upd i' else x i'
  | [], x, i' => by simp
  | a :: l, x, i' => by
    rw [List.foldl_cons, foldl_write_apply e upd l]
    by_cases h1 : ∃ n ∈ l, e n = i'
    · obtain ⟨n, hn, hne⟩ := h1
      rw [if_pos ⟨n, hn, hne⟩, if_pos ⟨n, List.mem_cons_of_mem _ hn, hne⟩]
    · rw [if_neg h1]
      by_cases h2 : i' = e a
      · rw [if_pos h2, if_pos ⟨a, List.mem_cons_self, h2.symm⟩, h2]
      · rw [if_neg h2, if_neg]
        rintro ⟨n, hn, hne⟩
        rcases List.mem_cons.mp hn with rfl | hn
        · exact h2 hne.symm
        · exact h1 ⟨n, hn, hne⟩

/-- A scatter whose every update index lands at itself and whose body returns the update leaves the update: the
    update indices, taken in row-major order, are all the indices of the array. -/
theorem scatter_whole {α : Type} {S si : Shape} {w : Nat} (d : ScatterDims S si S) (idx : IVec si w)
    (hres : ∀ j : S.Idx, d.resultIdx? j idx = some j) (x upd : S.Idx → α) :
    Host.scatter d (fun _ b => b) x idx upd = upd := by
  funext i'
  unfold Host.scatter
  simp only [hres]
  exact (foldl_write_apply (fun n => S.rowMajor.symm n) upd _ x i').trans
    (if_pos ⟨S.rowMajor i', List.mem_finRange _, Equiv.symm_apply_apply _ _⟩)

/-- An update index lands at itself when no axis has a start offset and its window coordinate on every axis is its
    own coordinate. -/
theorem resultIdx_self {S si : Shape} {w : Nat} (d : ScatterDims S si S) (idx : IVec si w) (j : S.Idx)
    (hs : ∀ a, d.start j idx a = 0) (hw : ∀ a, d.window j a = (j a).val) : d.resultIdx? j idx = some j := by
  unfold ScatterDims.resultIdx?
  rw [dif_pos (fun a => by rw [hs, hw]; have := (j a).isLt; omega)]
  refine congrArg some (funext fun a => Fin.ext ?_)
  show (d.start j idx a + d.window j a).toNat = (j a).val
  rw [hs, hw]; omega

/-! ## The six scatters of this program: each returns its update -/

theorem scat_x (x upd : S4096x512.Idx → EReal) (idx : IVec S0 32) :
    Host.scatter scatter_S4096x512_S0_S4096x512_01_n_n_0 (fun _ b => b) x idx upd = upd :=
  scatter_whole _ idx (fun j => resultIdx_self _ idx j (fun a => rfl)
    (fun a => by match a with | ⟨0, _⟩ => rfl | ⟨1, _⟩ => rfl)) x upd
theorem scat_adj (x upd : S4096x4096.Idx → EReal) (idx : IVec S0 32) :
    Host.scatter scatter_S4096x4096_S0_S4096x4096_01_n_n_0 (fun _ b => b) x idx upd = upd :=
  scatter_whole _ idx (fun j => resultIdx_self _ idx j (fun a => rfl)
    (fun a => by match a with | ⟨0, _⟩ => rfl | ⟨1, _⟩ => rfl)) x upd
theorem scat_w1 (x upd : S512x256.Idx → EReal) (idx : IVec S0 32) :
    Host.scatter scatter_S512x256_S0_S512x256_01_n_n_0 (fun _ b => b) x idx upd = upd :=
  scatter_whole _ idx (fun j => resultIdx_self _ idx j (fun a => rfl)
    (fun a => by match a with | ⟨0, _⟩ => rfl | ⟨1, _⟩ => rfl)) x upd
theorem scat_w2 (x upd : S256x128.Idx → EReal) (idx : IVec S0 32) :
    Host.scatter scatter_S256x128_S0_S256x128_01_n_n_0 (fun _ b => b) x idx upd = upd :=
  scatter_whole _ idx (fun j => resultIdx_self _ idx j (fun a => rfl)
    (fun a => by match a with | ⟨0, _⟩ => rfl | ⟨1, _⟩ => rfl)) x upd
theorem scat_b1 (x upd : S1x256.Idx → EReal) (idx : IVec S0 32) :
    Host.scatter scatter_S1x256_S0_S1x256_01_n_n_0 (fun _ b => b) x idx upd = upd :=
  scatter_whole _ idx (fun j => resultIdx_self _ idx j (fun a => rfl)
    (fun a => by match a with | ⟨0, _⟩ => rfl | ⟨1, _⟩ => rfl)) x upd
theorem scat_b2 (x upd : S1x128.Idx → EReal) (idx : IVec S0 32) :
    Host.scatter scatter_S1x128_S0_S1x128_01_n_n_0 (fun _ b => b) x idx upd = upd :=
  scatter_whole _ idx (fun j => resultIdx_self _ idx j (fun a => rfl)
    (fun a => by match a with | ⟨0, _⟩ => rfl | ⟨1, _⟩ => rfl)) x upd

/-! ## The six operands after the host operations: the arguments -/

variable (m : (ℓ : Loc nD τ sig) → Buf (Elt Ideal) ℓ)

/-- The operand built from the features is the features. -/
theorem Vh_x (c : Dev nD) : Vh m c main_v2 = m ((c : Thread nD τ).loc main_arg0) := by
  show StableHlo.after hostOps0 (fun b => m (c, b)) (Proc.devRef .tc main_v2) = _
  after_results
  exact scat_x _ _ _
/-- The operand built from the adjacency is the adjacency. -/
theorem Vh_adj (c : Dev nD) : Vh m c main_v5 = m ((c : Thread nD τ).loc main_arg1) := by
  show StableHlo.after hostOps0 (fun b => m (c, b)) (Proc.devRef .tc main_v5) = _
  after_results
  exact scat_adj _ _ _
/-- The operand built from the first weights is the first weights. -/
theorem Vh_w1 (c : Dev nD) : Vh m c main_v8 = m ((c : Thread nD τ).loc main_arg2) := by
  show StableHlo.after hostOps0 (fun b => m (c, b)) (Proc.devRef .tc main_v8) = _
  after_results
  exact scat_w1 _ _ _
/-- The operand built from the second weights is the second weights. -/
theorem Vh_w2 (c : Dev nD) : Vh m c main_v11 = m ((c : Thread nD τ).loc main_arg4) := by
  show StableHlo.after hostOps0 (fun b => m (c, b)) (Proc.devRef .tc main_v11) = _
  after_results
  exact scat_w2 _ _ _
/-- The operand built from the first bias is the first bias. -/
theorem Vh_b1 (c : Dev nD) : Vh m c main_v13 = m ((c : Thread nD τ).loc main_arg3) := by
  show StableHlo.after hostOps0 (fun b => m (c, b)) (Proc.devRef .tc main_v13) = _
  after_results
  exact scat_b1 _ _ _
/-- The operand built from the second bias is the second bias. -/
theorem Vh_b2 (c : Dev nD) : Vh m c main_v15 = m ((c : Thread nD τ).loc main_arg5) := by
  show StableHlo.after hostOps0 (fun b => m (c, b)) (Proc.devRef .tc main_v15) = _
  after_results
  exact scat_b2 _ _ _

end Cert.ReferenceIdeal.Hand

end
-- ==== Proof.RefValue0.lean ====
/- What the first region of the reference program computes, at the extended reals: the first feature product.

   At a point of the grid the body's single write is the product of a 1024 x 512 feature stripe with the 512 x 256
   weight matrix: entry (p, q) of the stripe is the sum over f < 512 of feature (p, f) times weight (f, q) -- the zero
   accumulator adds nothing and the changes of float format are the identity. Stripe t holds rows
   [1024 t, 1024 t + 1024) of the features and is written to the same rows of the result; the four stripes cover all
   4096 rows, row r by stripe r / 1024. So the result array ends as the whole product, whatever it held before. -/
import proofs.«168608_g2000301010487996_pallasbulk_922_1_alg».proof.Proof.RefLinear
import proofs.«168608_g2000301010487996_pallasbulk_922_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Cert.ReferenceIdeal.Gen
open Idealize.ShloMosaic Idealize.ShloMosaic.TcCoe Idealize.SL.Sem Idealize.ShloMosaic.ValueIdx
open Idealize.ShloMosaic.Pipeline (Dat)

/-- The zero offset of a whole-buffer rectangle. -/
theorem hzero2 : (![0, 0] : Fin 2 → Nat) = fun _ => 0 := funext fun a => by fin_cases a <;> rfl

/-! ## One entry of a stripe's product -/

/-- The left factor of the stripe product at output entry `j` and contraction position `q` sits in row `j 0` … -/
theorem lin_lhs_0 (j : S1024x256.Idx) (q : dot_S1024x512_S512x256_S1024x256_1_0_0_1_n_n.contr.Idx) :
    (dot_S1024x512_S512x256_S1024x256_1_0_0_1_n_n.lhsIdx j q 0).val = (j 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
/-- … and in the column the contraction position names. -/
theorem lin_lhs_1 (j : S1024x256.Idx) (q : dot_S1024x512_S512x256_S1024x256_1_0_0_1_n_n.contr.Idx) :
    (dot_S1024x512_S512x256_S1024x256_1_0_0_1_n_n.lhsIdx j q 1).val = (q ⟨0, by decide⟩).val :=
  dot_S1024x512_S512x256_S1024x256_1_0_0_1_n_n.lhsIdx_val_of_single rfl j q
/-- The right factor sits in the row the contraction position names … -/
theorem lin_rhs_0 (j : S1024x256.Idx) (q : dot_S1024x512_S512x256_S1024x256_1_0_0_1_n_n.contr.Idx) :
    (dot_S1024x512_S512x256_S1024x256_1_0_0_1_n_n.rhsIdx j q 0).val = (q ⟨0, by decide⟩).val :=
  dot_S1024x512_S512x256_S1024x256_1_0_0_1_n_n.rhsIdx_val_of_single rfl j q
/-- … and in column `j 1`. -/
theorem lin_rhs_1 (j : S1024x256.Idx) (q : dot_S1024x512_S512x256_S1024x256_1_0_0_1_n_n.contr.Idx) :
    (dot_S1024x512_S512x256_S1024x256_1_0_0_1_n_n.rhsIdx j q 1).val = (j 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- Entry (p, q) of what the body writes: the sum over the 512 feature columns of feature (p, f) times weight (f, q). -/
theorem linear_pay_apply (x0 : Vec Ideal S1024x512 .bf16) (x1 : Vec Ideal S512x256 .bf16) (p : Fin 1024) (q : Fin 256) :
    k0_pay1 (F := Ideal) x0 x1 (ix2 p q) = ∑ f : Fin 512, x0 (ix2 p f) * x1 (ix2 f q) := by
  unfold k0_pay1
  refine (Ideal.matmul_constant_zero_apply dot_S1024x512_S512x256_S1024x256_1_0_0_1_n_n none (shapeCast S1024x512 x0 shapeCasts_S1024x512_S1024x512) (shapeCast S512x256 x1 shapeCasts_S512x256_S512x256) (ix2 p q)).trans ?_
  rw [shapeCast_self, shapeCast_self, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p q) ((contrEquiv1 dot_S1024x512_S512x256_S1024x256_1_0_0_1_n_n 512 rfl rfl).symm k) = ix2 p k := funext fun a => Fin.ext (by
    match a with
    | ⟨0, _⟩ => exact lin_lhs_0 _ _
    | ⟨1, _⟩ => exact (lin_lhs_1 _ _).trans hk)
  have er : dot_S1024x512_S512x256_S1024x256_1_0_0_1_n_n.rhsIdx (ix2 p q) ((contrEquiv1 dot_S1024x512_S512x256_S1024x256_1_0_0_1_n_n 512 rfl rfl).symm k) = ix2 k q := funext fun a => Fin.ext (by
    match a with
    | ⟨0, _⟩ => exact (lin_rhs_0 _ _).trans hk
    | ⟨1, _⟩ => exact lin_rhs_1 _ _)
  rw [el, er]

/-- The same against the specification: if the two loaded blocks agree with arrays `A` and `B` along row `r` of `A`
    and column `q` of `B`, the written entry (p, q) is entry (r, q) of the product of `A` and `B`. -/
theorem linear_entry (A : Cert.Gcn.Arr 4096 512) (B : Cert.Gcn.Arr 512 256) (x0 : Vec Ideal S1024x512 .bf16) (x1 : Vec Ideal S512x256 .bf16)
    (p : Fin 1024) (q : Fin 256) (r : Fin 4096)
    (h0 : ∀ f : Fin 512, x0 (ix2 p f) = A (ix2 r f)) (h1 : ∀ f : Fin 512, x1 (ix2 f q) = B (ix2 f q)) :
    k0_pay1 (F := Ideal) x0 x1 (ix2 p q) = Cert.Gcn.support1 A B (ix2 r q) := by
  rw [linear_pay_apply, Cert.Gcn.support1_apply]
  exact Finset.sum_congr rfl fun f _ => by rw [h0 f, h1 f]

/-! ## From stripes to the array -/

variable (V : (c : Dev nD) → (b : Ref sig .tc) → Buf (Elt Ideal) ((c : Thread nD τ).loc b))

/-- Where the three blocks of point `t` sit: the feature and result stripes at block row `t`, the weights at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is stripe `t` of the product of the feature and weight arrays found on entry. -/
theorem linear_flushed (c : Dev nD) (t : Fin cfg0.N) :
    (dat0 (F := Ideal) V c).flushed 2 t = ((cfg0.win 2).blk t).view.read (Elt Ideal) (Cert.Gcn.support1 (V c main_v2) (V c main_v8)) := by
  show (cfg0.win 2).cut (grid0.coords t) ((dat0 V c).after 2 t) = _
  rw [after0_2]
  unfold out0_2
  rw [View.canon_unit_zero hzero2]
  simp only [View.ld_unit_zero (S := S1024x512) hzero2, View.ld_unit_zero (S := S512x256) hzero2]
  obtain ⟨e0, e1, e2, e3, e4, e5⟩ := idx_facts0 t
  have hN : t.val < 4 := lt_of_lt_of_eq t.isLt (show cfg0.N = 4 from N_0)
  funext j
  obtain ⟨p, q, rfl⟩ : ∃ (p : Fin 1024) (q : Fin 256), j = ix2 p q := ⟨j 0, j 1, eq_ix2 j⟩
  show k0_pay1 (F := Ideal) (iblk0 V c 0 t) (iblk0 V c 1 t) (ix2 p q) = Cert.Gcn.support1 (V c main_v2) (V c main_v8) (((cfg0.win 2).blk t).view.emb (ix2 p q))
  have hemb : ((cfg0.win 2).blk t).view.emb (ix2 p q) = ix2 (⟨1024 * t.val + p.val, by omega⟩ : Fin 4096) q := by
    funext a; apply Fin.ext
    match a with
    | ⟨0, _⟩ => show win0_2.index t (0 : Fin 2) * 1024 + 1 * p.val = 1024 * t.val + p.val; omega
    | ⟨1, _⟩ => show win0_2.index t (1 : Fin 2) * 256 + 1 * q.val = q.val; omega
  rw [hemb]
  refine linear_entry (V c main_v2) (V c main_v8) _ _ p q _ (fun f => ?_) (fun f => ?_)
  · show V c main_v2 (((cfg0.win 0).blk t).view.emb (ix2 p f)) = V c main_v2 _
    refine congrArg _ (funext fun a => Fin.ext ?_)
    match a with
    | ⟨0, _⟩ => show win0_0.index t (0 : Fin 2) * 1024 + 1 * p.val = 1024 * t.val + p.val; omega
    | ⟨1, _⟩ => show win0_0.index t (1 : Fin 2) * 512 + 1 * f.val = f.val; omega
  · show V c main_v8 (((cfg0.win 1).blk t).view.emb (ix2 f q)) = V c main_v8 _
    refine congrArg _ (funext fun a => Fin.ext ?_)
    match a with
    | ⟨0, _⟩ => show win0_1.index t (0 : Fin 2) * 512 + 1 * f.val = f.val; omega
    | ⟨1, _⟩ => show win0_1.index t (1 : Fin 2) * 256 + 1 * q.val = q.val; omega

/-- An index of the result array is in stripe `t` iff each coordinate is in the stripe's range on its axis. -/
theorem mem_stripe (t : Fin cfg0.N) (i : S4096x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v16).slice (win0_2.rect t)).set ↔ _
  rw [View.set_slice_whole, Rect.mem_set_unit]
  exact Iff.rfl

/-- Row r of the result lies in stripe r / 1024, which is written back (every stripe is). -/
theorem linear_cover (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  have hN : cfg0.N = 4 := N_0
  have ht : (i 0).val / 1024 < cfg0.N := by rw [hN]; omega
  obtain ⟨-, -, -, -, e4, e5⟩ := idx_facts0 ⟨(i 0).val / 1024, ht⟩
  refine ⟨⟨(i 0).val / 1024, ht⟩, flush0_2 _, ?_⟩
  rw [mem_stripe]
  intro a
  match a with
  | ⟨0, _⟩ => show win0_2.index ⟨(i 0).val / 1024, ht⟩ (0 : Fin 2) * 1024 ≤ (i 0).val ∧ (i 0).val < win0_2.index ⟨(i 0).val / 1024, ht⟩ (0 : Fin 2) * 1024 + 1024
              rw [e4]; dsimp only; omega
  | ⟨1, _⟩ => show win0_2.index ⟨(i 0).val / 1024, ht⟩ (1 : Fin 2) * 256 ≤ (i 1).val ∧ (i 1).val < win0_2.index ⟨(i 0).val / 1024, ht⟩ (1 : Fin 2) * 256 + 256
              rw [e5]; omega

/-- THE RESULT ARRAY of the first region: the product of the feature array and the weight array found on entry. -/
theorem linear_value (c : Dev nD) : (dat0 (F := Ideal) V c).arrAt 2 cfg0.N = Cert.Gcn.support1 (V c main_v2) (V c main_v8) :=
  (dat0 (F := Ideal) V c).arrAt_eq_of_cover 2 (Cert.Gcn.support1 (V c main_v2) (V c main_v8)) (fun t _ => linear_flushed V c t) (fun i => linear_cover i)

end Cert.ReferenceIdeal.Hand

end
-- ==== Proof.LibBlockSum.lean ====
/- A sum over four consecutive blocks, in the order a running accumulator produces it.

   A contraction over 4 n positions that is carried out in four chunks of n, each chunk added to an accumulator that
   starts at zero, leaves (((0 + S 0) + S 1) + S 2) + S 3, where S k is the sum over the k-th chunk. In a commutative
   additive monoid that is the sum over all 4 n positions. Nothing here mentions a program: the lemmas are about
   finite sums alone. -/
import Mathlib.Algebra.BigOperators.Fin

open scoped BigOperators

namespace Cert.BlockSum

/-- A sum over `n + n + n + n` positions, split into its four consecutive blocks of `n` and re-associated as a running
    accumulator does: zero, plus the first block, plus the second, plus the third, plus the fourth. Position `j` of
    block `k` is position `k n + j` of the whole range. -/
theorem sum_four_blocks {M : Type*} [AddCommMonoid M] (n N : ℕ) (hN : N = n + n + n + n) (f : Fin N → M) :
    ∑ i, f i = (((0 + ∑ j : Fin n, f ⟨j.val, by omega⟩) + ∑ j : Fin n, f ⟨n + j.val, by omega⟩)
        + ∑ j : Fin n, f ⟨n + n + j.val, by omega⟩) + ∑ j : Fin n, f ⟨n + n + n + j.val, by omega⟩ := by
  subst hN
  rw [Fin.sum_univ_add, Fin.sum_univ_add, Fin.sum_univ_add, zero_add]
  rfl

/-- The instance used for a contraction over 4096 positions carried out in four chunks of 1024: the blocks start at
    0, 1024, 2048 and 3072. -/
theorem sum_4096_as_four_1024 {M : Type*} [AddCommMonoid M] (f : Fin 4096 → M) :
    ∑ i, f i = (((0 + ∑ j : Fin 1024, f ⟨j.val, by omega⟩) + ∑ j : Fin 1024, f ⟨1024 + j.val, by omega⟩)
        + ∑ j : Fin 1024, f ⟨2048 + j.val, by omega⟩) + ∑ j : Fin 1024, f ⟨3072 + j.val, by omega⟩ :=
  sum_four_blocks 1024 4096 rfl f

end Cert.BlockSum
-- ==== Proof.RefValue1.lean ====
/-
  What the reference's second call computes. The runs' pieces are the body's payloads; point by point the
  accumulator holds zero plus the products of the column blocks seen so far in the stripe, so after the fourth block
  it holds the whole contraction adj · S1 of the stripe's rows — a sum over 4096 positions taken as four sums over
  1024, added in order onto zero: the same sum regrouped, by commutativity and associativity of addition on the
  extended reals alone — and the block stored then is relu(that + b1) · W2. The stripes' blocks tile the output array.
-/
import proofs.«168608_g2000301010487996_pallasbulk_922_1_alg».proof.Proof.RefAggregate1
import proofs.«168608_g2000301010487996_pallasbulk_922_1_alg».proof.Proof.Spec
import proofs.«168608_g2000301010487996_pallasbulk_922_1_alg».proof.Proof.LibBlockSum
import Idealize.ShloMosaic.Lib.Pipeline.Value
import Idealize.ShloMosaic.Lib.ValueLayout

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.Tactic Idealize.ShloMosaic.ValueIdx Idealize.SL.Sem
open Idealize.ShloMosaic.Pipeline (Dat)

/-! ## What the runs found, as the body's payloads -/

section Pieces
variable {F : FTy → Type} [FloatOps F]

theorem hz2 : (![0, 0] : Fin 2 → Nat) = fun _ => 0 := funext fun a => by fin_cases a <;> rfl

/-- A first-block point leaves in the accumulator: zero plus the tile's product (the later store covers the clearing one, and its
    first operand is the cleared buffer read back). -/
theorem accFirst_eq (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : isFirst i) (hc1 : ¬isLast i)
    (x0 : Vec F S512x1024 .bf16) (x1 : Vec F S1024x256 .bf16) (x2 : Vec F S1x256 .f32) (x3 : Vec F S256x128 .bf16) :
    accFirst c i arg2 harg2 arg3 harg3 arg4 harg4 arg5 harg5 arg6 harg6 arg7 harg7 hc0 hc1 x0 x1 x2 x3 = k1_pay2 (k1_pay1 (F := F)) x0 x1 := by
  unfold accFirst
  rw [View.read_writes_eq_canon _ _ _ (accFirst_cover c i arg2 harg2 arg3 harg3 arg4 harg4 arg5 harg5 arg6 harg6 arg7 harg7 hc0 hc1 x0 x1 x2 x3)]
  unfold runFirst
  dsimp only
  sl_unfold_words
  rw [View.canon_cons_unit_zero hz2, View.readCov_unit_zero _ hz2]
  simp only [View.readAt_eq_ld, harg2.read_unread, harg3.read_unread,
    View.ld_unit_zero (S := S512x1024) hz2, View.ld_unit_zero (S := S1024x256) hz2]

/-- A middle-block point leaves: what it found plus the tile's product. -/
theorem accMiddle_eq (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : ¬isLast i)
    (x0 : Vec F S512x1024 .bf16) (x1 : Vec F S1024x256 .bf16) (x2 : Vec F S1x256 .f32) (x3 : Vec F S256x128 .bf16) (acc : Vec F S512x256 .f32) :
    accMiddle c i arg2 harg2 arg3 harg3 arg4 harg4 arg5 harg5 arg6 harg6 arg7 harg7 hc0 hc1 x0 x1 x2 x3 acc = k1_pay2 acc x0 x1 := by
  unfold accMiddle
  rw [View.read_writes_eq_canon _ _ _ (accMiddle_cover c i arg2 harg2 arg3 harg3 arg4 harg4 arg5 harg5 arg6 harg6 arg7 harg7 hc0 hc1 x0 x1 x2 x3 acc)]
  unfold runMiddle
  dsimp only
  sl_unfold_words
  rw [View.canon_unit_zero hz2]
  simp only [View.readAt_eq_ld, harg7.read_unread, harg2.read_unread, harg3.read_unread,
    View.ld_unit_zero (S := S512x256) hz2, View.ld_unit_zero (S := S512x1024) hz2, View.ld_unit_zero (S := S1024x256) hz2]

/-- So does a last-block point, -/
theorem accLast_eq (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : isLast i)
    (x0 : Vec F S512x1024 .bf16) (x1 : Vec F S1024x256 .bf16) (x2 : Vec F S1x256 .f32) (x3 : Vec F S256x128 .bf16) (acc : Vec F S512x256 .f32) :
    accLast c i arg2 harg2 arg3 harg3 arg4 harg4 arg5 harg5 arg6 harg6 arg7 harg7 hc0 hc1 x0 x1 x2 x3 acc = k1_pay2 acc x0 x1 := by
  unfold accLast
  rw [View.read_writes_eq_canon _ _ _ (accLast_cover c i arg2 harg2 arg3 harg3 arg4 harg4 arg5 harg5 arg6 harg6 arg7 harg7 hc0 hc1 x0 x1 x2 x3 acc)]
  unfold runLast
  dsimp only
  sl_unfold_words
  rw [View.canon_unit_zero hz2]
  simp only [View.readAt_eq_ld, harg7.read_unread, harg2.read_unread, harg3.read_unread,
    View.ld_unit_zero (S := S512x256) hz2, View.ld_unit_zero (S := S512x1024) hz2, View.ld_unit_zero (S := S1024x256) hz2]

/-- and it stores into the output block the finishing step of that freshly stored accumulator. -/
theorem outLast_eq (c : Dev nD) (i : grid1.Coords) (arg2 : Memref sig .tc .vmem S512x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x256 .f32) (harg7 : arg7.IsWhole) (hc0 : ¬isFirst i) (hc1 : isLast i)
    (x0 : Vec F S512x1024 .bf16) (x1 : Vec F S1024x256 .bf16) (x2 : Vec F S1x256 .f32) (x3 : Vec F S256x128 .bf16) (acc : Vec F S512x256 .f32) :
    outLast c i arg2 harg2 arg3 harg3 arg4 harg4 arg5 harg5 arg6 harg6 arg7 harg7 hc0 hc1 x0 x1 x2 x3 acc = k1_pay3 (k1_pay2 acc x0 x1) x2 x3 := by
  unfold outLast
  rw [View.read_writes_eq_canon _ _ _ (outLast_cover c i arg2 harg2 arg3 harg3 arg4 harg4 arg5 harg5 arg6 harg6 arg7 harg7 hc0 hc1 x0 x1 x2 x3 acc)]
  unfold runLast
  dsimp only
  sl_unfold_words
  rw [View.canon_unit_zero hz2, View.readCov_unit_zero _ hz2]
  simp only [View.readAt_eq_ld, harg7.read_unread, harg2.read_unread, harg3.read_unread, harg4.read_unread, harg5.read_unread,
    View.ld_unit_zero (S := S512x256) hz2, View.ld_unit_zero (S := S512x1024) hz2, View.ld_unit_zero (S := S1024x256) hz2, View.ld_unit_zero (S := S1x256) hz2, View.ld_unit_zero (S := S256x128) hz2]

end Pieces

/-! ## The accumulator and the output block, point by point -/

section Steps
variable {F : FTy → Type} [FloatOps F]
variable (V : (c : Dev nD) → (b : Ref sig .tc) → Buf (Elt F) ((c : Thread nD τ).loc b))

/-- The point before (the first point's own position for the first). -/
abbrev prevPt (t : Fin cfg1.N) : Fin cfg1.N := ⟨t.val - 1, Nat.lt_of_le_of_lt (Nat.sub_le _ _) t.isLt⟩

/-- The accumulator after point `t`. -/
abbrev accAt (c : Dev nD) (t : Fin cfg1.N) : Vec F S512x256 .f32 := (outsAt1 V c t.val t.isLt).2

set_option maxHeartbeats 4800000 in
/-- At the first column block of a stripe: zero plus that tile's product. -/
theorem accAt_first (c : Dev nD) (t : Fin cfg1.N) (h0 : t.val % 4 = 0) :
    accAt V c t = k1_pay2 (k1_pay1 (F := F)) (iblk1 V c 0 t) (iblk1 V c 1 t) := by
  have h1 : ¬t.val % 4 = 3 := by omega
  show (outsAt1 V c t.val t.isLt).2 = _
  rw [outsAt1_first V c t h0 h1]
  dsimp only
  exact accFirst_eq c (grid1.coords t) (ms1_0 t) (hs1_0 t) (ms1_1 t) (hs1_1 t) (ms1_2 t) (hs1_2 t) (ms1_3 t) (hs1_3 t) (ms1_4 t) (hs1_4 t) accM (Memref.isWhole_whole _) ((isFirst_iff t).mpr h0) (fun h => h1 ((isLast_iff t).mp h)) (iblk1 V c 0 t) (iblk1 V c 1 t) (iblk1 V c 2 t) (iblk1 V c 3 t)

set_option maxHeartbeats 4800000 in
/-- At any later column block: what the point before left plus this tile's product. -/
theorem accAt_next (c : Dev nD) (t : Fin cfg1.N) (h0 : ¬t.val % 4 = 0) :
    accAt V c t = k1_pay2 (accAt V c (prevPt t)) (iblk1 V c 0 t) (iblk1 V c 1 t) := by
  show (outsAt1 V c t.val t.isLt).2 = _
  by_cases h1 : t.val % 4 = 3
  · rw [outsAt1_last V c t h0 h1]
    dsimp only
    exact accLast_eq c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) ((isLast_iff t).mpr h1) (iblk1 V c 0 t) (iblk1 V c 1 t) (iblk1 V c 2 t) (iblk1 V c 3 t) _
  · rw [outsAt1_middle V c t h0 h1]
    dsimp only
    exact accMiddle_eq c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) (fun h => h1 ((isLast_iff t).mp h)) (iblk1 V c 0 t) (iblk1 V c 1 t) (iblk1 V c 2 t) (iblk1 V c 3 t) _

set_option maxHeartbeats 4800000 in
/-- At the last column block the output block holds the finishing step of the accumulator. -/
theorem outAt_last (c : Dev nD) (t : Fin cfg1.N) (h1 : t.val % 4 = 3) :
    (outsAt1 V c t.val t.isLt).1 = k1_pay3 (accAt V c t) (iblk1 V c 2 t) (iblk1 V c 3 t) := by
  have h0 : ¬t.val % 4 = 0 := by omega
  rw [accAt_next V c t h0, outsAt1_last V c t h0 h1]
  dsimp only
  exact outLast_eq c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) ((isLast_iff t).mpr h1) (iblk1 V c 0 t) (iblk1 V c 1 t) (iblk1 V c 2 t) (iblk1 V c 3 t) _

end Steps

/-! ## The body's arithmetic at an index, on the extended reals -/

section AtIdeal

/-- A 512 × 1024 tile of adj times 1024 rows of S1, into the zero accumulator, at row `p` and column `q`: the sum over the tile's 1024 columns. -/
theorem mmBlock_apply (lhs : FVec Ideal S512x1024 .bf16) (rhs : FVec Ideal S1024x256 .bf16) (p : Fin 512) (q : Fin 256) :
    FloatOps.matmul dot_S512x1024_S1024x256_S512x256_1_0_0_1_n_n none lhs rhs (constant S512x256 .f32 0x00000000#32) (ix2 p q)
      = ∑ k : Fin 1024, lhs (ix2 p k) * rhs (ix2 k q) := by
  rw [Ideal.matmul_constant_zero_apply]
  rw [← Equiv.sum_comp (contrEquiv1 dot_S512x1024_S1024x256_S512x256_1_0_0_1_n_n 1024 rfl rfl).symm]
  refine Finset.sum_congr rfl fun k _ => ?_
  have hl : dot_S512x1024_S1024x256_S512x256_1_0_0_1_n_n.lhsIdx (ix2 p q) ((contrEquiv1 dot_S512x1024_S1024x256_S512x256_1_0_0_1_n_n 1024 rfl rfl).symm k) = ix2 p k := by
    funext a; apply Fin.ext
    match a with
    | ⟨0, _⟩ => rfl
    | ⟨1, _⟩ => exact (DotDims.lhsIdx_val_of_single _ (cl := 1) rfl _ _).trans (contrEquiv1_symm_val _ 1024 rfl rfl k)
  have hr : dot_S512x1024_S1024x256_S512x256_1_0_0_1_n_n.rhsIdx (ix2 p q) ((contrEquiv1 dot_S512x1024_S1024x256_S512x256_1_0_0_1_n_n 1024 rfl rfl).symm k) = ix2 k q := by
    funext a; apply Fin.ext
    match a with
    | ⟨0, _⟩ => exact (DotDims.rhsIdx_val_of_single _ (cr := 0) rfl _ _).trans (contrEquiv1_symm_val _ 1024 rfl rfl k)
    | ⟨1, _⟩ => rfl
  rw [hl, hr]

/-- The rectified stripe times W2, into the zero accumulator, at row `p` and class `q`: the sum over the 256 hidden units. -/
theorem mmFinish_apply (lhs : FVec Ideal S512x256 .bf16) (rhs : FVec Ideal S256x128 .bf16) (p : Fin 512) (q : Fin 128) :
    FloatOps.matmul dot_S512x256_S256x128_S512x128_1_0_0_1_n_n none lhs rhs (constant S512x128 .f32 0x00000000#32) (ix2 p q)
      = ∑ k : Fin 256, lhs (ix2 p k) * rhs (ix2 k q) := by
  rw [Ideal.matmul_constant_zero_apply]
  rw [← Equiv.sum_comp (contrEquiv1 dot_S512x256_S256x128_S512x128_1_0_0_1_n_n 256 rfl rfl).symm]
  refine Finset.sum_congr rfl fun k _ => ?_
  have hl : dot_S512x256_S256x128_S512x128_1_0_0_1_n_n.lhsIdx (ix2 p q) ((contrEquiv1 dot_S512x256_S256x128_S512x128_1_0_0_1_n_n 256 rfl rfl).symm k) = ix2 p k := by
    funext a; apply Fin.ext
    match a with
    | ⟨0, _⟩ => rfl
    | ⟨1, _⟩ => exact (DotDims.lhsIdx_val_of_single _ (cl := 1) rfl _ _).trans (contrEquiv1_symm_val _ 256 rfl rfl k)
  have hr : dot_S512x256_S256x128_S512x128_1_0_0_1_n_n.rhsIdx (ix2 p q) ((contrEquiv1 dot_S512x256_S256x128_S512x128_1_0_0_1_n_n 256 rfl rfl).symm k) = ix2 k q := by
    funext a; apply Fin.ext
    match a with
    | ⟨0, _⟩ => exact (DotDims.rhsIdx_val_of_single _ (cr := 0) rfl _ _).trans (contrEquiv1_symm_val _ 256 rfl rfl k)
    | ⟨1, _⟩ => rfl
  rw [hl, hr]

/-- The value the accumulator is cleared to is the extended real 0 everywhere. -/
theorem clear_apply (y : S512x256.Idx) : k1_pay1 (F := Ideal) y = 0 := by
  unfold k1_pay1
  rw [shapeCast_self, broadcast_apply]
  exact Ideal.ofBits_zero_f32

/-- One accumulation step at row `p`, column `q`: what the accumulator held plus the tile's contribution. The shape
    casts are between equal shapes. -/
theorem accumulate_apply (acc : Vec Ideal S512x256 .f32) (a : Vec Ideal S512x1024 .bf16) (s : Vec Ideal S1024x256 .bf16)
    (p : Fin 512) (q : Fin 256) :
    k1_pay2 acc a s (ix2 p q) = acc (ix2 p q) + ∑ j : Fin 1024, a (ix2 p j) * s (ix2 j q) := by
  unfold k1_pay2
  rw [shapeCast_self, addf_apply]
  refine congrArg (acc (ix2 p q) + ·) ?_
  refine (mmBlock_apply _ _ p q).trans ?_
  simp only [shapeCast_self]

/-- The finishing step at row `p`, class `q`: relu of the accumulated row plus the bias row, times W2. The format
    changes are the identity. -/
theorem finish_apply (acc : Vec Ideal S512x256 .f32) (b : Vec Ideal S1x256 .f32) (w : Vec Ideal S256x128 .bf16)
    (p : Fin 512) (q : Fin 128) :
    k1_pay3 acc b w (ix2 p q) = ∑ h : Fin 256, max (acc (ix2 p h) + b (ix2 (0 : Fin 1) h)) 0 * w (ix2 h q) := by
  unfold k1_pay3
  rw [truncf_apply]
  refine (mmFinish_apply _ _ p q).trans ?_
  refine Finset.sum_congr rfl fun h _ => ?_
  rw [truncf_apply, maximumf_apply, addf_apply, broadcast_apply, shapeCast_self, shapeCast_self, broadcastTo_1b_ab_apply]
  show max (_ + _) (Ideal.ofBits .f32 0x00000000#32) * _ = _
  rw [Ideal.ofBits_zero_f32]

end AtIdeal

/-! ## The call's value -/

section Value
variable (V : (c : Dev nD) → (b : Ref sig .tc) → Buf (Elt Ideal) ((c : Thread nD τ).loc b))

/-- The printed index maps over the 32 points, with t = 4·stripe + block: the adj tile is at (stripe, block), the S1
    rows at (block, 0), the bias row and W2 stay, the output block is at (stripe, 0). -/
theorem idx_facts1 : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

/-- The adj tile of a point: rows of its stripe, columns of its block. -/
theorem tile_adj (c : Dev nD) (t : Fin cfg1.N) (y : S512x1024.Idx) (i : S4096x4096.Idx)
    (h0 : (i 0).val = t.val / 4 * 512 + (y 0).val) (h1 : (i 1).val = t.val % 4 * 1024 + (y 1).val) :
    iblk1 V c 0 t y = V c main_v5 i := by
  obtain ⟨e0, e1, e2, e3, e4, e5, e6, e7, e8, e9⟩ := idx_facts1 t
  show V c main_v5 (((cfg1.win 0).blk t).view.emb y) = V c main_v5 i
  refine congrArg _ (funext fun a => Fin.ext ?_)
  match a with
  | ⟨0, _⟩ => show win1_0.index t (0 : Fin 2) * 512 + 1 * (y 0).val = (i 0).val; omega
  | ⟨1, _⟩ => show win1_0.index t (1 : Fin 2) * 1024 + 1 * (y 1).val = (i 1).val; omega

/-- The S1 rows of a point: the rows its column block names, every column. -/
theorem rows_s1 (c : Dev nD) (t : Fin cfg1.N) (y : S1024x256.Idx) (i : S4096x256.Idx)
    (h0 : (i 0).val = t.val % 4 * 1024 + (y 0).val) (h1 : (i 1).val = 0 + (y 1).val) :
    iblk1 V c 1 t y = V c main_v16 i := by
  obtain ⟨e0, e1, e2, e3, e4, e5, e6, e7, e8, e9⟩ := idx_facts1 t
  show V c main_v16 (((cfg1.win 1).blk t).view.emb y) = V c main_v16 i
  refine congrArg _ (funext fun a => Fin.ext ?_)
  match a with
  | ⟨0, _⟩ => show win1_1.index t (0 : Fin 2) * 1024 + 1 * (y 0).val = (i 0).val; omega
  | ⟨1, _⟩ => show win1_1.index t (1 : Fin 2) * 256 + 1 * (y 1).val = (i 1).val; omega

/-- The bias row and W2 are whole at every point. -/
theorem whole_b1 (c : Dev nD) (t : Fin cfg1.N) (y : S1x256.Idx) : iblk1 V c 2 t y = V c main_v13 y := by
  obtain ⟨e0, e1, e2, e3, e4, e5, e6, e7, e8, e9⟩ := idx_facts1 t
  show V c main_v13 (((cfg1.win 2).blk t).view.emb y) = V c main_v13 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega
theorem whole_w2 (c : Dev nD) (t : Fin cfg1.N) (y : S256x128.Idx) : iblk1 V c 3 t y = V c main_v11 y := by
  obtain ⟨e0, e1, e2, e3, e4, e5, e6, e7, e8, e9⟩ := idx_facts1 t
  show V c main_v11 (((cfg1.win 3).blk t).view.emb y) = V c main_v11 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 128 + 1 * (y 1).val = (y 1).val; omega

/-- One term of the contraction of row `r` of adj with column `q` of S1. -/
def term (A : Cert.Gcn.Arr 4096 4096) (S : Cert.Gcn.Arr 4096 256) (r : Fin 4096) (q : Fin 256) (k : Fin 4096) : EReal :=
  A (ix2 r k) * S (ix2 k q)

/-- One accumulation step at a point, at row `p` of its stripe (row `r` of the array) and column `q`: the 1024
    terms of the contraction that its column block holds, those from position `off` on, are added. -/
theorem step_apply (c : Dev nD) (t : Fin cfg1.N) (acc : Vec Ideal S512x256 .f32) (p : Fin 512) (q : Fin 256) (r : Fin 4096)
    (hr : r.val = t.val / 4 * 512 + p.val) (off : ℕ) (hoff : off = t.val % 4 * 1024) :
    k1_pay2 acc (iblk1 V c 0 t) (iblk1 V c 1 t) (ix2 p q)
      = acc (ix2 p q) + ∑ j : Fin 1024, term (V c main_v5) (V c main_v16) r q ⟨off + j.val, by omega⟩ := by
  rw [accumulate_apply]
  refine congrArg (acc (ix2 p q) + ·) (Finset.sum_congr rfl fun j _ => ?_)
  unfold term
  rw [tile_adj V c t (ix2 p j) (ix2 r ⟨off + j.val, by omega⟩) (by show r.val = t.val / 4 * 512 + p.val; exact hr)
      (by show off + j.val = t.val % 4 * 1024 + j.val; omega),
    rows_s1 V c t (ix2 j q) (ix2 ⟨off + j.val, by omega⟩ q) (by show off + j.val = t.val % 4 * 1024 + j.val; omega)
      (by show q.val = 0 + q.val; omega)]

/-- After the last column block of a stripe the accumulator holds, at row `p` and column `q`, the whole contraction
    of row `r` of adj with column `q` of S1: zero, then the four blocks of 1024 terms added in order — the sum
    over all 4096 positions regrouped. -/
theorem acc_done (c : Dev nD) (t : Fin cfg1.N) (h3 : t.val % 4 = 3) (p : Fin 512) (q : Fin 256) (r : Fin 4096)
    (hr : r.val = t.val / 4 * 512 + p.val) :
    accAt V c t (ix2 p q) = ∑ k : Fin 4096, term (V c main_v5) (V c main_v16) r q k := by
  have v1 : (prevPt t).val = t.val - 1 := rfl
  have v2 : (prevPt (prevPt t)).val = t.val - 2 := by show t.val - 1 - 1 = _; omega
  have v3 : (prevPt (prevPt (prevPt t))).val = t.val - 3 := by show t.val - 1 - 1 - 1 = _; omega
  rw [accAt_next V c t (by omega), step_apply V c t _ p q r hr 3072 (by omega)]
  rw [accAt_next V c (prevPt t) (by rw [v1]; omega), step_apply V c (prevPt t) _ p q r (by rw [v1]; omega) 2048 (by rw [v1]; omega)]
  rw [accAt_next V c (prevPt (prevPt t)) (by rw [v2]; omega),
    step_apply V c (prevPt (prevPt t)) _ p q r (by rw [v2]; omega) 1024 (by rw [v2]; omega)]
  rw [accAt_first V c (prevPt (prevPt (prevPt t))) (by rw [v3]; omega),
    step_apply V c (prevPt (prevPt (prevPt t))) _ p q r (by rw [v3]; omega) 0 (by rw [v3]; omega), clear_apply]
  rw [Cert.BlockSum.sum_4096_as_four_1024 (term (V c main_v5) (V c main_v16) r q)]
  simp only [Nat.zero_add]

/-- The finished stripe: at the last column block of stripe `t / 4` the stored block, at `y`, is the second stage
    S2 = relu(adj · S1 + b1) · W2 at the array index `i` over `y`. -/
theorem stripe_done (c : Dev nD) (t : Fin cfg1.N) (h3 : t.val % 4 = 3) (y : S512x128.Idx) (i : S4096x128.Idx)
    (hi0 : (i 0).val = t.val / 4 * 512 + (y 0).val) (hi1 : (i 1).val = (y 1).val) :
    k1_pay3 (accAt V c t) (iblk1 V c 2 t) (iblk1 V c 3 t) y
      = Cert.Gcn.support2Of (V c main_v5) (V c main_v16) (V c main_v13) (V c main_v11) i := by
  obtain ⟨p, q, rfl⟩ : ∃ (p : Fin 512) (q : Fin 128), y = ix2 p q := ⟨y 0, y 1, eq_ix2 y⟩
  obtain ⟨r, cc, rfl⟩ : ∃ (r : Fin 4096) (cc : Fin 128), i = ix2 r cc := ⟨i 0, i 1, eq_ix2 i⟩
  obtain rfl : cc = q := Fin.ext hi1
  rw [finish_apply]
  unfold Cert.Gcn.support2Of
  rw [Cert.Gcn.support2_apply]
  refine Finset.sum_congr rfl fun h _ => ?_
  rw [Cert.Gcn.hidden_apply, whole_w2, whole_b1, acc_done V c t h3 p h r hi0]
  rfl

/-- What a last-block point writes back is its stripe of S2. -/
theorem flushed1_eq (c : Dev nD) (t : Fin cfg1.N) (hfl : (cfg1.win 4).flush t = true) :
    (dat1 V c).flushed 4 t
      = ((cfg1.win 4).blk t).view.read (Elt Ideal)
          (Cert.Gcn.support2Of (V c main_v5) (V c main_v16) (V c main_v13) (V c main_v11)) := by
  have h3 : t.val % 4 = 3 := (flush1_4 t).mp hfl
  show (cfg1.win 4).cut (grid1.coords t) ((dat1 V c).after 4 t) = _
  rw [after1_4, outAt_last V c t h3]
  obtain ⟨e0, e1, e2, e3, e4, e5, e6, e7, e8, e9⟩ := idx_facts1 t
  funext j
  refine stripe_done V c t h3 j _ ?_ ?_
  · show win1_4.index t (0 : Fin 2) * 512 + 1 * (j 0).val = t.val / 4 * 512 + (j 0).val; omega
  · show win1_4.index t (1 : Fin 2) * 128 + 1 * (j 1).val = (j 1).val; omega

/-- An index of the output array is in point `t`'s block iff each coordinate is in the block's range. -/
theorem mem_blk1 (t : Fin cfg1.N) (i : S4096x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v17).slice (win1_4.rect t)).set ↔ _
  rw [View.set_slice_whole, Rect.mem_set_unit]
  exact Iff.rfl

/-- Row `r` is written back by the last-block point of stripe `r / 512`. -/
theorem cover1 (i : S4096x128.Idx) : ∃ t : Fin cfg1.N, (cfg1.win 4).flush t = true ∧ i ∈ ((cfg1.win 4).blk t).view.set := by
  have hi0 : (i 0).val < 4096 := (i 0).isLt
  have hi1 : (i 1).val < 128 := (i 1).isLt
  have hN : cfg1.N = 32 := N_1
  refine ⟨⟨4 * ((i 0).val / 512) + 3, by rw [hN]; omega⟩, (flush1_4 _).mpr (by show (4 * ((i 0).val / 512) + 3) % 4 = 3; omega), ?_⟩
  rw [mem_blk1]
  obtain ⟨e0, e1, e2, e3, e4, e5, e6, e7, e8, e9⟩ := idx_facts1 ⟨4 * ((i 0).val / 512) + 3, by rw [hN]; omega⟩
  intro a
  match a with
  | ⟨0, _⟩ =>
    show win1_4.index _ (0 : Fin 2) * 512 ≤ (i 0).val ∧ (i 0).val < win1_4.index _ (0 : Fin 2) * 512 + 512
    rw [e8]; show (4 * ((i 0).val / 512) + 3) / 4 * 512 ≤ (i 0).val ∧ (i 0).val < (4 * ((i 0).val / 512) + 3) / 4 * 512 + 512; omega
  | ⟨1, _⟩ =>
    show win1_4.index _ (1 : Fin 2) * 128 ≤ (i 1).val ∧ (i 1).val < win1_4.index _ (1 : Fin 2) * 128 + 128
    rw [e9]; omega

/-- THE SECOND CALL'S VALUE: its output array ends holding S2 = relu(adj · S1 + b1) · W2 of its four input arrays. -/
theorem aggregate1_value (c : Dev nD) :
    (dat1 V c).arrAt 4 cfg1.N = Cert.Gcn.support2Of (V c main_v5) (V c main_v16) (V c main_v13) (V c main_v11) :=
  (dat1 V c).arrAt_eq_of_cover 4 _ (fun t hfl => flushed1_eq V c t hfl) cover1

end Value

end Cert.ReferenceIdeal.Hand

end
-- ==== Proof.RefValue2.lean ====
/- What the third region of the reference program computes, at the extended reals: the second aggregation followed by
   the row-wise log-softmax.

   For a row stripe i the four points (i, 0..3) run in order on one result block. After the point with chunk k the block
   holds zero plus the partial products of the first k + 1 column chunks of the adjacency stripe with the matching row
   chunks of the hidden features: entry (p, q) is 0 + S 0 + ... + S k with S k the sum over the 1024 positions of chunk
   k. The last point then adds the bias, subtracts each row's maximum, and subtracts the logarithm of the row's sum of
   exponentials. Four chunks of 1024 make the whole contraction over 4096, so the block written back after k = 3 is
   the row stripe of the log-softmax of adjacency times features plus bias; the eight stripes cover all 4096 rows. -/
import proofs.«168608_g2000301010487996_pallasbulk_922_1_alg».proof.Proof.RefAggregate2
import proofs.«168608_g2000301010487996_pallasbulk_922_1_alg».proof.Proof.LibBlockSum
import proofs.«168608_g2000301010487996_pallasbulk_922_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.ReferenceIdeal.Hand

open Cert.ReferenceIdeal.Gen
open Idealize.ShloMosaic Idealize.ShloMosaic.TcCoe Idealize.SL.Sem Idealize.ShloMosaic.ValueIdx Idealize.ShloMosaic.Tactic
open Idealize.ShloMosaic.Pipeline (Dat)

/-- The zero offset of a whole-buffer rectangle. -/
theorem hzero2' : (![0, 0] : Fin 2 → Nat) = fun _ => 0 := funext fun a => by fin_cases a <;> rfl

/-! ## What each case writes, as a term of the blocks it was handed -/

section Pieces
variable {F : FTy → Type} [FloatOps F]

/-- FIRST CHUNK: the block ends at the zero block plus the product of the two input blocks. -/
theorem out2_A_eq (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : cond2_0 i) (hc1 : ¬cond2_1 i) (x0 : Vec F S512x1024 .bf16) (x1 : Vec F S1024x128 .bf16) (x2 : Vec F S1x128 .f32) :
    out2_A_3 c i arg2 harg2 arg3 harg3 arg4 harg4 arg5 harg5 hc0 hc1 x0 x1 x2 = k2_pay2 (k2_pay1 (F := F)) x0 x1 := by
  unfold out2_A_3
  rw [View.read_writes_eq_canon _ _ _ (cover2_A_3 c i arg2 harg2 arg3 harg3 arg4 harg4 arg5 harg5 hc0 hc1 x0 x1 x2)]
  unfold kernelRun2_A
  dsimp only
  sl_unfold_words
  rw [View.canon_cons_unit_zero (S := S512x128) hzero2', View.readCov_unit_zero (S := S512x128) _ hzero2']
  simp only [View.readAt_eq_ld, harg2.read_unread, harg3.read_unread, View.ld_unit_zero (S := S512x1024) hzero2', View.ld_unit_zero (S := S1024x128) hzero2']

/-- MIDDLE CHUNKS: the block ends at what it held plus the product of the two input blocks. -/
theorem out2_B_eq (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : ¬cond2_0 i) (hc1 : ¬cond2_1 i) (x0 : Vec F S512x1024 .bf16) (x1 : Vec F S1024x128 .bf16) (x2 : Vec F S1x128 .f32) (xo3 : Vec F S512x128 .f32) :
    out2_B_3 c i arg2 harg2 arg3 harg3 arg4 harg4 arg5 harg5 hc0 hc1 x0 x1 x2 xo3 = k2_pay2 xo3 x0 x1 := by
  unfold out2_B_3
  rw [View.read_writes_eq_canon _ _ _ (cover2_B_3 c i arg2 harg2 arg3 harg3 arg4 harg4 arg5 harg5 hc0 hc1 x0 x1 x2 xo3)]
  unfold kernelRun2_B
  dsimp only
  sl_unfold_words
  rw [View.canon_unit_zero hzero2']
  simp only [View.readAt_eq_ld, harg2.read_unread, harg3.read_unread, harg5.read_unread, View.ld_unit_zero (S := S512x1024) hzero2', View.ld_unit_zero (S := S1024x128) hzero2', View.ld_unit_zero (S := S512x128) hzero2']

/-- LAST CHUNK: the block ends at the finishing step applied to what it held plus the product, and to the bias. -/
theorem out2_C_eq (c : Dev nD) (i : grid2.Coords) (arg2 : Memref sig .tc .vmem S512x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S512x128 .f32) (harg5 : arg5.IsWhole) (hc0 : ¬cond2_0 i) (hc1 : cond2_1 i) (x0 : Vec F S512x1024 .bf16) (x1 : Vec F S1024x128 .bf16) (x2 : Vec F S1x128 .f32) (xo3 : Vec F S512x128 .f32) :
    out2_C_3 c i arg2 harg2 arg3 harg3 arg4 harg4 arg5 harg5 hc0 hc1 x0 x1 x2 xo3 = k2_pay3 (k2_pay2 xo3 x0 x1) x2 := by
  unfold out2_C_3
  rw [View.read_writes_eq_canon _ _ _ (cover2_C_3 c i arg2 harg2 arg3 harg3 arg4 harg4 arg5 harg5 hc0 hc1 x0 x1 x2 xo3)]
  unfold kernelRun2_C
  dsimp only
  sl_unfold_words
  rw [View.canon_cons_unit_zero (S := S512x128) hzero2', View.readCov_unit_zero (S := S512x128) _ hzero2']
  simp only [View.readAt_eq_ld, harg2.read_unread, harg3.read_unread, harg4.read_unread, harg5.read_unread, View.ld_unit_zero (S := S512x1024) hzero2', View.ld_unit_zero (S := S1024x128) hzero2', View.ld_unit_zero (S := S512x128) hzero2', View.ld_unit_zero (S := S1x128) hzero2']

end Pieces

/-! ## One entry of a chunk product -/

theorem agg_lhs_0 (j : S512x128.Idx) (q : dot_S512x1024_S1024x128_S512x128_1_0_0_1_n_n.contr.Idx) : (dot_S512x1024_S1024x128_S512x128_1_0_0_1_n_n.lhsIdx j q 0).val = (j 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem agg_lhs_1 (j : S512x128.Idx) (q : dot_S512x1024_S1024x128_S512x128_1_0_0_1_n_n.contr.Idx) : (dot_S512x1024_S1024x128_S512x128_1_0_0_1_n_n.lhsIdx j q 1).val = (q ⟨0, by decide⟩).val :=
  dot_S512x1024_S1024x128_S512x128_1_0_0_1_n_n.lhsIdx_val_of_single rfl j q
theorem agg_rhs_0 (j : S512x128.Idx) (q : dot_S512x1024_S1024x128_S512x128_1_0_0_1_n_n.contr.Idx) : (dot_S512x1024_S1024x128_S512x128_1_0_0_1_n_n.rhsIdx j q 0).val = (q ⟨0, by decide⟩).val :=
  dot_S512x1024_S1024x128_S512x128_1_0_0_1_n_n.rhsIdx_val_of_single rfl j q
theorem agg_rhs_1 (j : S512x128.Idx) (q : dot_S512x1024_S1024x128_S512x128_1_0_0_1_n_n.contr.Idx) : (dot_S512x1024_S1024x128_S512x128_1_0_0_1_n_n.rhsIdx j q 1).val = (j 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- Entry (p, q) after a chunk: what the block held there plus the sum over the chunk's 1024 positions of adjacency
    (p, j) times feature (j, q). -/
theorem agg_pay_apply (acc : Vec Ideal S512x128 .f32) (x0 : Vec Ideal S512x1024 .bf16) (x1 : Vec Ideal S1024x128 .bf16) (p : Fin 512) (q : Fin 128) :
    k2_pay2 (F := Ideal) acc x0 x1 (ix2 p q) = acc (ix2 p q) + ∑ j : Fin 1024, x0 (ix2 p j) * x1 (ix2 j q) := by
  unfold k2_pay2
  refine (congrArg₂ (fun a b : EReal => a + b) (congrFun (shapeCast_self acc shapeCasts_S512x128_S512x128) (ix2 p q))
    (Ideal.matmul_constant_zero_apply (φ₁ := .bf16) (φ₂ := .bf16) dot_S512x1024_S1024x128_S512x128_1_0_0_1_n_n none (shapeCast S512x1024 x0 shapeCasts_S512x1024_S512x1024) (shapeCast S1024x128 x1 shapeCasts_S1024x128_S1024x128) (ix2 p q))).trans ?_
  rw [shapeCast_self, shapeCast_self, ← Equiv.sum_comp (contrEquiv1 dot_S512x1024_S1024x128_S512x128_1_0_0_1_n_n 1024 rfl rfl).symm]
  refine congrArg (fun b : EReal => acc (ix2 p q) + b) (Finset.sum_congr rfl fun k _ => ?_)
  have hk := contrEquiv1_symm_val dot_S512x1024_S1024x128_S512x128_1_0_0_1_n_n 1024 rfl rfl k
  have el : dot_S512x1024_S1024x128_S512x128_1_0_0_1_n_n.lhsIdx (ix2 p q) ((contrEquiv1 dot_S512x1024_S1024x128_S512x128_1_0_0_1_n_n 1024 rfl rfl).symm k) = ix2 p k := funext fun a => Fin.ext (by
    match a with
    | ⟨0, _⟩ => exact agg_lhs_0 _ _
    | ⟨1, _⟩ => exact (agg_lhs_1 _ _).trans hk)
  have er : dot_S512x1024_S1024x128_S512x128_1_0_0_1_n_n.rhsIdx (ix2 p q) ((contrEquiv1 dot_S512x1024_S1024x128_S512x128_1_0_0_1_n_n 1024 rfl rfl).symm k) = ix2 k q := funext fun a => Fin.ext (by
    match a with
    | ⟨0, _⟩ => exact (agg_rhs_0 _ _).trans hk
    | ⟨1, _⟩ => exact agg_rhs_1 _ _)
  rw [el, er]

/-- The zero block is zero everywhere. -/
theorem zero_pay_apply (j : S512x128.Idx) : k2_pay1 (F := Ideal) j = 0 := by
  unfold k2_pay1
  exact Ideal.ofBits_zero_f32

/-! ## The finishing step: bias, row maximum, exponentials, logarithm -/

/-- A lane number below 128 is below 128 as a signed 32-bit word. -/
theorem lane_lt : ∀ n : ℕ, n < 128 → IntOp.cmpi .slt (BitVec.ofNat 32 n) 128#32 = 1#1 := by decide +kernel

/-- The lane mask "column < 128" holds at every entry of a 512 x 128 block. -/
theorem lane_mask (j : S512x128.Idx) :
    cmpi .slt (iota .tc S512x128 32 [1] iota_S512x128_d1_w32) (broadcast S512x128 (128#32 : BitVec 32)) j = 1#1 := by
  show IntOp.cmpi .slt (iota .tc S512x128 32 [1] iota_S512x128_d1_w32 j) 128#32 = 1#1
  rw [iota_single_apply]
  exact lane_lt _ (j 1).isLt

/-- So a select on that mask picks its first operand. -/
theorem select_lane_mask {α : Type} (a b : S512x128.Idx → α) :
    select (cmpi .slt (iota .tc S512x128 32 [1] iota_S512x128_d1_w32) (broadcast S512x128 (128#32 : BitVec 32))) a b = a := by
  funext j
  show Scalar.select _ (a j) (b j) = a j
  rw [lane_mask j]
  rfl

/-- A per-row value written as a 512 x 1 column and spread over the 128 lanes reads, at (p, q), the value of row p. -/
theorem keep_col (w : FVec Ideal S512 .f32) (p : Fin 512) (q : Fin 128) :
    broadcastTo S512x128 (shapeCast S512x1 w shapeCasts_S512_S512x1) broadcasts_S512x1_S512x128 (ix2 p q) = w (ix1 p) := by
  refine (broadcastTo_apply _ broadcasts_S512x1_S512x128 (ix2 p q) (ix2 p (0 : Fin 1)) (fun a => ?_)).trans ?_
  · match a with
    | ⟨0, _⟩ => rfl
    | ⟨1, _⟩ => rfl
  · refine shapeCast_apply w shapeCasts_S512_S512x1 (ix2 p (0 : Fin 1)) (ix1 p) ?_
    rw [Shape.rowMajor_val_one, Shape.rowMajor_val_two]
    show p.val = p.val * 1 + 0
    omega

/-- The bias row spread over the 512 rows reads, at (p, q), bias entry q. -/
theorem bias_row (b : Vec Ideal S1x128 .f32) (p : Fin 512) (q : Fin 128) :
    broadcastTo S512x128 b broadcasts_S1x128_S512x128 (ix2 p q) = b (ix2 (0 : Fin 1) q) := by
  refine broadcastTo_apply _ broadcasts_S1x128_S512x128 (ix2 p q) (ix2 (0 : Fin 1) q) (fun a => ?_)
  match a with
  | ⟨0, _⟩ => rfl
  | ⟨1, _⟩ => rfl

/-- Row p with lane c put back in: the entry (p, c). -/
theorem lift_lane (p : Fin 512) (c : Fin (S512x128.size 1)) : reduces_S512x128_S512.lift (ix1 p) c = ix2 p (c : Fin 128) :=
  funext fun a => Fin.ext (by
    match a with
    | ⟨0, _⟩ => rfl
    | ⟨1, _⟩ => rfl)

/-- The row maximum of a block at row p: the fold of max over the 128 lanes from minus infinity. -/
theorem row_max (v : FVec Ideal S512x128 .f32) (p : Fin 512) :
    multiReduction .maximumf [1] S512 v 0xFF800000#32 reduces_S512x128_S512 (.inl rfl) rfl (ix1 p)
      = (Finset.univ : Finset (Fin 128)).fold max (Ideal.ofBits .f32 0xFF800000#32) (fun c => v (ix2 p c)) := by
  refine (Ideal.multiReduction_maximumf_single v _ reduces_S512x128_S512 (.inl rfl) rfl (ix1 p)).trans ?_
  rw [show (v ∘ reduces_S512x128_S512.lift (ix1 p)) = fun c : Fin (S512x128.size 1) => v (ix2 p (c : Fin 128)) from funext fun c => congrArg v (lift_lane p c)]
  rfl

/-- The row sum of a block at row p. -/
theorem row_sum (v : FVec Ideal S512x128 .f32) (p : Fin 512) :
    multiReduction .add [1] S512 v 0x00000000#32 reduces_S512x128_S512 (.inl rfl) rfl (ix1 p) = ∑ c : Fin 128, v (ix2 p c) := by
  refine (Ideal.multiReduction_add_single v _ reduces_S512x128_S512 (.inl rfl) rfl (ix1 p)).trans ?_
  exact Finset.sum_congr rfl fun c _ => congrArg v (lift_lane p c)

/-- The same with a logarithm taken on the column before it is spread. -/
theorem keep_col_log (w : FVec Ideal S512 .f32) (p : Fin 512) (q : Fin 128) :
    broadcastTo S512x128 (log (shapeCast S512x1 w shapeCasts_S512_S512x1)) broadcasts_S512x1_S512x128 (ix2 p q) = Ideal.log (w (ix1 p)) := by
  refine (broadcastTo_apply _ broadcasts_S512x1_S512x128 (ix2 p q) (ix2 p (0 : Fin 1)) (fun a => ?_)).trans ?_
  · match a with
    | ⟨0, _⟩ => rfl
    | ⟨1, _⟩ => rfl
  · show Ideal.log (shapeCast S512x1 w shapeCasts_S512_S512x1 (ix2 p (0 : Fin 1))) = _
    refine congrArg Ideal.log (shapeCast_apply w shapeCasts_S512_S512x1 (ix2 p (0 : Fin 1)) (ix1 p) ?_)
    rw [Shape.rowMajor_val_one, Shape.rowMajor_val_two]
    show p.val = p.val * 1 + 0
    omega

/-- The exponential of a row entry shifted by its row's maximum. -/
theorem exp_shift (L : FVec Ideal S512x128 .f32) (p : Fin 512) (c : Fin 128) :
    exp (subf L (broadcastTo S512x128 (shapeCast S512x1 (multiReduction .maximumf [1] S512 L 0xFF800000#32 reduces_S512x128_S512 (.inl rfl) rfl) shapeCasts_S512_S512x1) broadcasts_S512x1_S512x128)) (ix2 p c)
      = Ideal.exp ((L (ix2 p c) : EReal) - (Finset.univ : Finset (Fin 128)).fold max (Ideal.ofBits .f32 0xFF800000#32) (fun c' => L (ix2 p c'))) :=
  congrArg Ideal.exp (congrArg (fun b : EReal => (L (ix2 p c) : EReal) - b) ((keep_col _ p c).trans (row_max L p)))

/-- THE FINISHING STEP at entry (p, q), from the completed sums `acc` and the bias `bb`: with L c = acc (p, c) + bb (0, c)
    the row of logits and M their maximum over the 128 lanes (folded from minus infinity), the entry is
    (L q - M) - log (sum over the lanes c of exp (L c - M)). The lane mask is all true and changes nothing. -/
theorem softmax_pay_apply (acc : Vec Ideal S512x128 .f32) (bb : Vec Ideal S1x128 .f32) (p : Fin 512) (q : Fin 128) :
    k2_pay3 (F := Ideal) acc bb (ix2 p q)
      = ((acc (ix2 p q) + bb (ix2 (0 : Fin 1) q))
          - (Finset.univ : Finset (Fin 128)).fold max (Ideal.ofBits .f32 0xFF800000#32) (fun c => acc (ix2 p c) + bb (ix2 (0 : Fin 1) c)))
        - Ideal.log (∑ c : Fin 128, Ideal.exp ((acc (ix2 p c) + bb (ix2 (0 : Fin 1) c))
            - (Finset.univ : Finset (Fin 128)).fold max (Ideal.ofBits .f32 0xFF800000#32) (fun c => acc (ix2 p c) + bb (ix2 (0 : Fin 1) c)))) := by
  unfold k2_pay3
  simp only [shapeCast_self]
  rw [select_lane_mask, select_lane_mask]
  have hL : ∀ c : Fin 128, (addf (F := Ideal) (φ := .f32) acc (broadcastTo S512x128 bb broadcasts_S1x128_S512x128) : FVec Ideal S512x128 .f32) (ix2 p c)
      = (acc (ix2 p c) + bb (ix2 (0 : Fin 1) c) : EReal) :=
    fun c => congrArg (fun z : EReal => (acc (ix2 p c) : EReal) + z) (bias_row bb p c)
  rw [subf_apply, subf_apply, keep_col, keep_col_log, row_max, row_sum]
  simp only [hL]
  refine congrArg (fun z : EReal => _ - Ideal.log z) (Finset.sum_congr rfl fun c _ => ?_)
  rw [exp_shift]
  simp only [hL]

/-! ## The accumulation, chunk by chunk -/

section Chunks
variable (A : Cert.Gcn.Arr 4096 4096) (B : Cert.Gcn.Arr 4096 128)

/-- Adjacency (r, n) times feature (n, q), for a natural row and position; zero outside the arrays. -/
def aggTerm (r n : ℕ) (q : Fin 128) : EReal :=
  if h : r < 4096 ∧ n < 4096 then A (ix2 (⟨r, h.1⟩ : Fin 4096) (⟨n, h.2⟩ : Fin 4096)) * B (ix2 (⟨n, h.2⟩ : Fin 4096) q) else 0

/-- The sum over contraction chunk `k`: positions 1024 k .. 1024 k + 1023. -/
def chunkSum (r : ℕ) (q : Fin 128) (k : ℕ) : EReal := ∑ j : Fin 1024, aggTerm A B r (1024 * k + j.val) q

/-- The accumulator after chunk `k`: zero plus chunk 0, then each later chunk added on the right. -/
def accAfter (r : ℕ) (q : Fin 128) : ℕ → EReal
  | 0 => 0 + chunkSum A B r q 0
  | k + 1 => accAfter r q k + chunkSum A B r q (k + 1)

/-- After the fourth chunk the accumulator is the whole contraction over the 4096 positions. -/
theorem accAfter_three (r : Fin 4096) (q : Fin 128) :
    accAfter A B r.val q 3 = ∑ i : Fin 4096, A (ix2 r i) * B (ix2 i q) := by
  rw [Cert.BlockSum.sum_4096_as_four_1024 (fun i : Fin 4096 => A (ix2 r i) * B (ix2 i q))]
  show ((0 + chunkSum A B r.val q 0 + chunkSum A B r.val q 1) + chunkSum A B r.val q 2) + chunkSum A B r.val q 3 = _
  unfold chunkSum
  have e : ∀ (n : ℕ) (i : Fin 4096), n = i.val → aggTerm A B r.val n q = A (ix2 r i) * B (ix2 i q) := by
    intro n i h; subst h; unfold aggTerm; rw [dif_pos ⟨r.isLt, i.isLt⟩]
  refine congrArg₂ (fun a b : EReal => a + b) (congrArg₂ (fun a b : EReal => a + b) (congrArg₂ (fun a b : EReal => a + b) (congrArg (fun b : EReal => 0 + b) ?_) ?_) ?_) ?_
  all_goals exact Finset.sum_congr rfl fun j _ => e _ _ (by simp)

end Chunks

/-! ## Where the blocks sit -/

variable (V : (c : Dev nD) → (b : Ref sig .tc) → Buf (Elt Ideal) ((c : Thread nD τ).loc b))

/-- Point `t` has row stripe t / 4 and chunk t % 4: the adjacency block is (t / 4, t % 4), the feature block
    (t % 4, 0), the bias the whole row, the result block (t / 4, 0). -/
theorem idx_facts2 : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

/-- One product of the chunk at point `t`, read off the arrays found on entry. -/
theorem chunk_term (c : Dev nD) (t : Fin cfg2.N) (p : Fin 512) (j : Fin 1024) (q : Fin 128)
    (x0 : Vec Ideal S512x1024 .bf16) (x1 : Vec Ideal S1024x128 .bf16) (h0 : x0 = iblk2 V c 0 t) (h1 : x1 = iblk2 V c 1 t) :
    x0 (ix2 p j) * x1 (ix2 j q) = aggTerm (V c main_v5) (V c main_v17) (512 * (t.val / 4) + p.val) (1024 * (t.val % 4) + j.val) q := by
  subst h0 h1
  obtain ⟨e0, e1, e2, e3, -, -, -, -⟩ := idx_facts2 t
  have hN : t.val < 32 := lt_of_lt_of_eq t.isLt (show cfg2.N = 32 from N_2)
  unfold aggTerm
  rw [dif_pos ⟨by omega, by omega⟩]
  refine congrArg₂ (fun a b : EReal => a * b) ?_ ?_
  · show V c main_v5 (((cfg2.win 0).blk t).view.emb (ix2 p j)) = V c main_v5 _
    refine congrArg _ (funext fun a => Fin.ext ?_)
    match a with
    | ⟨0, _⟩ => show win2_0.index t (0 : Fin 2) * 512 + 1 * p.val = 512 * (t.val / 4) + p.val; omega
    | ⟨1, _⟩ => show win2_0.index t (1 : Fin 2) * 1024 + 1 * j.val = 1024 * (t.val % 4) + j.val; omega
  · show V c main_v17 (((cfg2.win 1).blk t).view.emb (ix2 j q)) = V c main_v17 _
    refine congrArg _ (funext fun a => Fin.ext ?_)
    match a with
    | ⟨0, _⟩ => show win2_1.index t (0 : Fin 2) * 1024 + 1 * j.val = 1024 * (t.val % 4) + j.val; omega
    | ⟨1, _⟩ => show win2_1.index t (1 : Fin 2) * 128 + 1 * q.val = q.val; omega

/-- So the product of the two blocks at point `t`, at entry (p, q), is chunk t % 4 of row 512 (t / 4) + p. -/
theorem chunk_sum_eq (c : Dev nD) (t : Fin cfg2.N) (p : Fin 512) (q : Fin 128)
    (x0 : Vec Ideal S512x1024 .bf16) (x1 : Vec Ideal S1024x128 .bf16) (h0 : x0 = iblk2 V c 0 t) (h1 : x1 = iblk2 V c 1 t) :
    ∑ j : Fin 1024, x0 (ix2 p j) * x1 (ix2 j q) = chunkSum (V c main_v5) (V c main_v17) (512 * (t.val / 4) + p.val) q (t.val % 4) :=
  Finset.sum_congr rfl fun j _ => chunk_term V c t p j q x0 x1 h0 h1

/-- The bias block at any point is the bias row found on entry. -/
theorem bias_blk (c : Dev nD) (t : Fin cfg2.N) (q : Fin 128) :
    (iblk2 V c 2 t : Vec Ideal S1x128 .f32) (ix2 (0 : Fin 1) q) = V c main_v15 (ix2 (0 : Fin 1) q) := by
  obtain ⟨-, -, -, -, e4, e5, -, -⟩ := idx_facts2 t
  show V c main_v15 (((cfg2.win 2).blk t).view.emb (ix2 (0 : Fin 1) q)) = V c main_v15 _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-! ## What the result block holds after each point -/

/-- At a first chunk: zero plus chunk 0 of the row. -/
theorem at_first (c : Dev nD) (t : Fin cfg2.N) (h0 : t.val % 4 = 0) (h1 : ¬t.val % 4 = 3) (p : Fin 512) (q : Fin 128) :
    outsAt2 V c t.val t.isLt (ix2 p q) = 0 + chunkSum (V c main_v5) (V c main_v17) (512 * (t.val / 4) + p.val) q (t.val % 4) := by
  refine (congrFun (outsAt2_A V c t h0 h1) (ix2 p q)).trans ?_
  refine (congrFun (out2_A_eq c (grid2.coords t) (ms2_0 t) (hs2_0 t) (ms2_1 t) (hs2_1 t) (ms2_2 t) (hs2_2 t) (ms2_3 t) (hs2_3 t) ((hcond2_0 t).mpr h0) (fun h => h1 ((hcond2_1 t).mp h)) (iblk2 V c 0 t) (iblk2 V c 1 t) (iblk2 V c 2 t)) (ix2 p q)).trans ?_
  refine (agg_pay_apply (k2_pay1 (F := Ideal)) (iblk2 V c 0 t) (iblk2 V c 1 t) p q).trans ?_
  exact congrArg₂ (fun a b : EReal => a + b) (zero_pay_apply (ix2 p q)) (chunk_sum_eq V c t p q _ _ rfl rfl)

/-- At a middle chunk: what the point before left, plus this chunk of the row. -/
theorem at_middle (c : Dev nD) (t : Fin cfg2.N) (h0 : ¬t.val % 4 = 0) (h1 : ¬t.val % 4 = 3) (p : Fin 512) (q : Fin 128) :
    outsAt2 V c t.val t.isLt (ix2 p q)
      = outsAt2 V c (t.val - 1) (Nat.lt_of_le_of_lt (Nat.sub_le _ _) t.isLt) (ix2 p q) + chunkSum (V c main_v5) (V c main_v17) (512 * (t.val / 4) + p.val) q (t.val % 4) := by
  refine (congrFun (outsAt2_B V c t h0 h1) (ix2 p q)).trans ?_
  refine (congrFun (out2_B_eq c (grid2.coords t) (ms2_0 t) (hs2_0 t) (ms2_1 t) (hs2_1 t) (ms2_2 t) (hs2_2 t) (ms2_3 t) (hs2_3 t) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt))) (ix2 p q)).trans ?_
  refine (agg_pay_apply (outsAt2 V c (t.val - 1) (Nat.lt_of_le_of_lt (Nat.sub_le _ _) t.isLt)) (iblk2 V c 0 t) (iblk2 V c 1 t) p q).trans ?_
  exact congrArg (fun b : EReal => _ + b) (chunk_sum_eq V c t p q _ _ rfl rfl)

/-- THE INVARIANT. After a point that is not a last chunk, entry (p, q) of the result block is the accumulator of row
    512 (n / 4) + p after chunk n % 4: by induction on the point. -/
theorem acc_inv (c : Dev nD) : ∀ (n : ℕ) (hn : n < cfg2.N), n % 4 ≠ 3 → ∀ (p : Fin 512) (q : Fin 128),
    outsAt2 V c n hn (ix2 p q) = accAfter (V c main_v5) (V c main_v17) (512 * (n / 4) + p.val) q (n % 4)
  | 0, hn, _, p, q => at_first V c ⟨0, hn⟩ rfl (by show ¬(0 % 4 = 3); decide) p q
  | n + 1, hn, h3, p, q => by
    have hN : n + 1 < 32 := lt_of_lt_of_eq hn (show cfg2.N = 32 from N_2)
    by_cases h0 : (n + 1) % 4 = 0
    · refine (at_first V c ⟨n + 1, hn⟩ h0 h3 p q).trans ?_
      show 0 + chunkSum _ _ _ q ((n + 1) % 4) = accAfter _ _ _ q ((n + 1) % 4)
      rw [h0]; rfl
    · refine (at_middle V c ⟨n + 1, hn⟩ h0 h3 p q).trans ?_
      show outsAt2 V c n _ (ix2 p q) + chunkSum _ _ (512 * ((n + 1) / 4) + p.val) q ((n + 1) % 4) = accAfter _ _ (512 * ((n + 1) / 4) + p.val) q ((n + 1) % 4)
      rw [acc_inv c n (Nat.lt_of_succ_lt hn) (by omega) p q]
      have e1 : (n + 1) / 4 = n / 4 := by omega
      have e2 : (n + 1) % 4 = n % 4 + 1 := by omega
      rw [e1, e2]; rfl

/-- One entry of the logits from the completed accumulator: after the last chunk is added and the bias put on, entry
    (p, c) of stripe t / 4 is the logit of row 512 (t / 4) + p and lane c. -/
theorem logit_entry (c : Dev nD) (t : Fin cfg2.N) (h0 : ¬t.val % 4 = 0) (h1 : t.val % 4 = 3) (p : Fin 512) (l : Fin 128)
    (r : Fin 4096) (hr : r.val = 512 * (t.val / 4) + p.val) :
    k2_pay2 (F := Ideal) (outsAt2 V c (t.val - 1) (Nat.lt_of_le_of_lt (Nat.sub_le _ _) t.isLt)) (iblk2 V c 0 t) (iblk2 V c 1 t) (ix2 p l)
        + (iblk2 V c 2 t : Vec Ideal S1x128 .f32) (ix2 (0 : Fin 1) l)
      = Cert.Gcn.logits (V c main_v5) (V c main_v17) (V c main_v15) (ix2 r l) := by
  have hN : t.val < 32 := lt_of_lt_of_eq t.isLt (show cfg2.N = 32 from N_2)
  rw [Cert.Gcn.logits_apply, ← accAfter_three (V c main_v5) (V c main_v17) r l, bias_blk V c t l]
  refine congrArg (fun a : EReal => a + V c main_v15 (ix2 (0 : Fin 1) l)) ?_
  refine (agg_pay_apply (outsAt2 V c (t.val - 1) (Nat.lt_of_le_of_lt (Nat.sub_le _ _) t.isLt)) (iblk2 V c 0 t) (iblk2 V c 1 t) p l).trans ?_
  rw [acc_inv V c (t.val - 1) (Nat.lt_of_le_of_lt (Nat.sub_le _ _) t.isLt) (by omega) p l, chunk_sum_eq V c t p l _ _ rfl rfl, hr]
  have e1 : (t.val - 1) / 4 = t.val / 4 := by omega
  have e2 : (t.val - 1) % 4 = 2 := by omega
  rw [e1, e2, h1]; rfl

/-- At a last chunk the result block is the row stripe of the log-softmax of the logits. -/
theorem at_last (c : Dev nD) (t : Fin cfg2.N) (h0 : ¬t.val % 4 = 0) (h1 : t.val % 4 = 3) (p : Fin 512) (q : Fin 128)
    (r : Fin 4096) (hr : r.val = 512 * (t.val / 4) + p.val) :
    outsAt2 V c t.val t.isLt (ix2 p q) = Cert.Gcn.outOfSupport2 (V c main_v5) (V c main_v17) (V c main_v15) (ix2 r q) := by
  refine (congrFun (outsAt2_C V c t h0 h1) (ix2 p q)).trans ?_
  refine (congrFun (out2_C_eq c (grid2.coords t) (ms2_0 t) (hs2_0 t) (ms2_1 t) (hs2_1 t) (ms2_2 t) (hs2_2 t) (ms2_3 t) (hs2_3 t) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt))) (ix2 p q)).trans ?_
  refine (softmax_pay_apply (k2_pay2 (F := Ideal) (outsAt2 V c (t.val - 1) (Nat.lt_of_le_of_lt (Nat.sub_le _ _) t.isLt)) (iblk2 V c 0 t) (iblk2 V c 1 t)) (iblk2 V c 2 t) p q).trans ?_
  simp only [logit_entry V c t h0 h1 p _ r hr]
  rfl

/-! ## From stripes to the array -/

/-- WHAT A LAST-CHUNK POINT WRITES BACK is its row stripe of the log-softmax of the logits of the arrays found on entry. -/
theorem aggregate2_flushed (c : Dev nD) (t : Fin cfg2.N) (hf : (cfg2.win 3).flush t = true) :
    (dat2 (F := Ideal) V c).flushed 3 t = ((cfg2.win 3).blk t).view.read (Elt Ideal) (Cert.Gcn.outOfSupport2 (V c main_v5) (V c main_v17) (V c main_v15)) := by
  have h1 : t.val % 4 = 3 := (flush2_3 t).mp hf
  have hN : t.val < 32 := lt_of_lt_of_eq t.isLt (show cfg2.N = 32 from N_2)
  obtain ⟨-, -, -, -, -, -, e6, e7⟩ := idx_facts2 t
  show (cfg2.win 3).cut (grid2.coords t) ((dat2 V c).after 3 t) = _
  rw [after2_3]
  funext j
  obtain ⟨p, q, rfl⟩ : ∃ (p : Fin 512) (q : Fin 128), j = ix2 p q := ⟨j 0, j 1, eq_ix2 j⟩
  show outsAt2 V c t.val t.isLt (ix2 p q) = Cert.Gcn.outOfSupport2 (V c main_v5) (V c main_v17) (V c main_v15) (((cfg2.win 3).blk t).view.emb (ix2 p q))
  have hemb : ((cfg2.win 3).blk t).view.emb (ix2 p q) = ix2 (⟨512 * (t.val / 4) + p.val, by omega⟩ : Fin 4096) q := by
    funext a; apply Fin.ext
    match a with
    | ⟨0, _⟩ => show win2_3.index t (0 : Fin 2) * 512 + 1 * p.val = 512 * (t.val / 4) + p.val; omega
    | ⟨1, _⟩ => show win2_3.index t (1 : Fin 2) * 128 + 1 * q.val = q.val; omega
  rw [hemb]
  exact at_last V c t (by omega) h1 p q _ rfl

/-- An index of the result array is in the block of point `t` iff each coordinate is in the block's range on its axis. -/
theorem mem_block2 (t : Fin cfg2.N) (i : S4096x128.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v18).slice (win2_3.rect t)).set ↔ _
  rw [View.set_slice_whole, Rect.mem_set_unit]
  exact Iff.rfl

/-- Row r of the result lies in the block written back at point 4 (r / 512) + 3. -/
theorem aggregate2_cover (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  have hN : cfg2.N = 32 := N_2
  have ht : 4 * ((i 0).val / 512) + 3 < cfg2.N := by rw [hN]; omega
  obtain ⟨-, -, -, -, -, -, e6, e7⟩ := idx_facts2 ⟨4 * ((i 0).val / 512) + 3, ht⟩
  refine ⟨⟨4 * ((i 0).val / 512) + 3, ht⟩, (flush2_3 _).mpr (by show (4 * ((i 0).val / 512) + 3) % 4 = 3; omega), ?_⟩
  rw [mem_block2]
  intro a
  match a with
  | ⟨0, _⟩ => show win2_3.index ⟨4 * ((i 0).val / 512) + 3, ht⟩ (0 : Fin 2) * 512 ≤ (i 0).val ∧ (i 0).val < win2_3.index ⟨4 * ((i 0).val / 512) + 3, ht⟩ (0 : Fin 2) * 512 + 512
              rw [e6]; dsimp only; omega
  | ⟨1, _⟩ => show win2_3.index ⟨4 * ((i 0).val / 512) + 3, ht⟩ (1 : Fin 2) * 128 ≤ (i 1).val ∧ (i 1).val < win2_3.index ⟨4 * ((i 0).val / 512) + 3, ht⟩ (1 : Fin 2) * 128 + 128
              rw [e7]; omega

/-- THE RESULT ARRAY of the third region: the row-wise log-softmax of adjacency times features plus bias, of the
    arrays found on entry. -/
theorem aggregate2_value (c : Dev nD) :
    (dat2 (F := Ideal) V c).arrAt 3 cfg2.N = Cert.Gcn.outOfSupport2 (V c main_v5) (V c main_v17) (V c main_v15) :=
  (dat2 (F := Ideal) V c).arrAt_eq_of_cover 3 (Cert.Gcn.outOfSupport2 (V c main_v5) (V c main_v17) (V c main_v15)) (fun t hf => aggregate2_flushed V c t hf) (fun i => aggregate2_cover i)

end Cert.ReferenceIdeal.Hand

end
-- ==== Proof.RefOut.lean ====
/-
  The reference program's run with its result as ONE function of the six argument arrays: the host operations hand
  the calls the arguments themselves; the first call leaves the first product; the middle call, reading it, leaves
  the second product of the rectified first aggregation; the last call, reading that, leaves the log-softmax of the
  second aggregation; an array a call only reads is left as the call found it.
-/
import proofs.«168608_g2000301010487996_pallasbulk_922_1_alg».proof.Proof.RefRun
import proofs.«168608_g2000301010487996_pallasbulk_922_1_alg».proof.Proof.HostValue
import proofs.«168608_g2000301010487996_pallasbulk_922_1_alg».proof.Proof.RefValue0
import proofs.«168608_g2000301010487996_pallasbulk_922_1_alg».proof.Proof.RefValue1
import proofs.«168608_g2000301010487996_pallasbulk_922_1_alg».proof.Proof.RefValue2
import proofs.«168608_g2000301010487996_pallasbulk_922_1_alg».proof.Proof.Spec

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## What each call reads -/

/-- The first call reads the features and the first weights as launched (through the host operations). -/
theorem Va_support1 (c : Dev nD) :
    Va m c main_v16 = Cert.Gcn.support1 (m ((c.tc : Thread nD τ).loc main_arg0)) (m ((c.tc : Thread nD τ).loc main_arg2)) :=
  calc Wa m c (Proc.devRef .tc main_v16)
    _ = (dat0 (Vh m) c).arrAt 2 cfg0.N := Wa_arr m c 2
    _ = Cert.Gcn.support1 (Vh m c main_v2) (Vh m c main_v8) := linear_value (Vh m) c
    _ = _ := by rw [Vh_x, Vh_w1]

/-- After the first call the adjacency, the first bias and the second weights are still the arguments. -/
theorem Va_adj (c : Dev nD) : Va m c main_v5 = (m ((c.tc : Thread nD τ).loc main_arg1)) :=
  (Wa_of_ne m c main_v5 (by decide)).trans (Vh_adj m c)
theorem Va_b1 (c : Dev nD) : Va m c main_v13 = (m ((c.tc : Thread nD τ).loc main_arg3)) :=
  (Wa_of_ne m c main_v13 (by decide)).trans (Vh_b1 m c)
theorem Va_w2 (c : Dev nD) : Va m c main_v11 = (m ((c.tc : Thread nD τ).loc main_arg4)) :=
  (Wa_of_ne m c main_v11 (by decide)).trans (Vh_w2 m c)
theorem Va_b2 (c : Dev nD) : Va m c main_v15 = (m ((c.tc : Thread nD τ).loc main_arg5)) :=
  (Wa_of_ne m c main_v15 (by decide)).trans (Vh_b2 m c)

/-- The middle call's output: the second product of the rectified first aggregation of the arguments. -/
theorem Vb_support2 (c : Dev nD) :
    Vb m c main_v17
      = Cert.Gcn.support2Of (m ((c.tc : Thread nD τ).loc main_arg1))
          (Cert.Gcn.support1 (m ((c.tc : Thread nD τ).loc main_arg0)) (m ((c.tc : Thread nD τ).loc main_arg2)))
          (m ((c.tc : Thread nD τ).loc main_arg3)) (m ((c.tc : Thread nD τ).loc main_arg4)) :=
  calc Wb m c (Proc.devRef .tc main_v17)
    _ = (dat1 (Va m) c).arrAt 4 cfg1.N := Wb_arr m c 4
    _ = Cert.Gcn.support2Of (Va m c main_v5) (Va m c main_v16) (Va m c main_v13) (Va m c main_v11) :=
        aggregate1_value (Va m) c
    _ = _ := by rw [Va_adj, Va_support1, Va_b1, Va_w2]

/-- After the middle call the adjacency (one of its input arrays, left as entered) and the second bias are still
    the arguments. -/
theorem Vb_adj (c : Dev nD) : Vb m c main_v5 = (m ((c.tc : Thread nD τ).loc main_arg1)) :=
  calc Wb m c (Proc.devRef .tc main_v5)
    _ = Wa m c (Proc.devRef .tc main_v5) :=
        (Wb_arr m c 0).trans (((dat1 (Va m) c).arrAt_in 0 rfl _).trans (A_eq1 (Va m) c 0))
    _ = _ := Va_adj m c
theorem Vb_b2 (c : Dev nD) : Vb m c main_v15 = (m ((c.tc : Thread nD τ).loc main_arg5)) :=
  (Wb_of_ne m c main_v15 (by decide)).trans (Va_b2 m c)

/-- The result array after the run, as the specification of the six argument arrays. -/
theorem result_value (c : Dev nD) :
    Wc m c (Proc.devRef .tc main_v18)
      = Cert.Gcn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  calc Wc m c (Proc.devRef .tc main_v18)
    _ = (dat2 (Vb m) c).arrAt 3 cfg2.N := Wc_arr m c 3
    _ = Cert.Gcn.outOfSupport2 (Vb m c main_v5) (Vb m c main_v17) (Vb m c main_v15) := aggregate2_value (Vb m) c
    _ = Cert.Gcn.outOfSupport2 (m ((c.tc : Thread nD τ).loc main_arg1))
          (Cert.Gcn.support2Of (m ((c.tc : Thread nD τ).loc main_arg1))
            (Cert.Gcn.support1 (m ((c.tc : Thread nD τ).loc main_arg0)) (m ((c.tc : Thread nD τ).loc main_arg2)))
            (m ((c.tc : Thread nD τ).loc main_arg3)) (m ((c.tc : Thread nD τ).loc main_arg4)))
          (m ((c.tc : Thread nD τ).loc main_arg5)) := by rw [Vb_adj, Vb_support2, Vb_b2]
    _ = _ := rfl

/-- THE REFERENCE'S RUN: every weakly fair execution terminates, nothing faults, the result array ends at the
    specification of the launch contents of the six arguments, and the arguments end as launched. -/
theorem run : θ_run (Cert.ReferenceIdeal.defs (F := Ideal)) (onTc (τ := Cert.ReferenceIdeal.τ) (Cert.ReferenceIdeal.main (F := Ideal))) ⟨m, fun _ => 0, ρ⟩
    (fun r => ∀ c : Dev Cert.ReferenceIdeal.nD,
      r.2.mem ((c.tc : Thread nD τ).loc main_v18)
        = Cert.Gcn.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.ReferenceIdeal.defs (F := Ideal)) _ _).mono
    (fun r h c => ⟨(h c).1.trans (result_value m c), (h c).2⟩)
    (run_named (F := Ideal) m ρ)

end Cert.ReferenceIdeal.Hand

end
-- ==== Proof.lean ====
/-
  The certificate of a two-layer graph convolution followed by log_softmax:
      out = z − log Σ_c exp z,   z = L − rowmax L,   L = adj · S2 + b2,   S2 = relu(adj · S1 + b1) · W2,   S1 = x · W1,
  over x[4096, 512], adj[4096, 4096], W1[512, 256], b1[1, 256], W2[256, 128], b2[1, 128].

  The kernel computes each of the three stages in one call over eight row stripes of 512, each contraction whole in
  one product. The reference first writes each operand into a zero array of the operand's own shape (which is the
  operand), computes S1 in four stripes of 1024 rows, and takes each of the two contractions with adj in four column
  blocks of 1024 added in order onto a zero accumulator — kept in a scratch buffer for the second stage and in the
  output block itself for the third — finishing a stripe at its last block; its last stage selects under a mask that
  holds at every one of the 128 classes, so the selected-away constant never enters.

  On the extended reals a change of float format is the identity, and four partial sums added in order onto zero are
  the whole sum: addition there is commutative and associative, and nothing more is used — the precondition that the
  inputs are finite is never opened. So both programs end with the one function `Cert.Gcn.out` of the six arguments.

  The kernel's two frames are the generated ones. The reference's frame is its run from launch to return — host
  operations, then each call as a segment between the buffer contents before and after it — with the result dropped.
  The ideal reading rewrote no operation of the kernel, so there is nothing for `preserves` to state.
-/
import proofs.«168608_g2000301010487996_pallasbulk_922_1_alg».proof.Defs
import proofs.«168608_g2000301010487996_pallasbulk_922_1_alg».proof.Proof.Gen.Kernel
import proofs.«168608_g2000301010487996_pallasbulk_922_1_alg».proof.Proof.Gen.Kernel.Skeleton
import proofs.«168608_g2000301010487996_pallasbulk_922_1_alg».proof.Proof.Gen.Kernel.Launch
import proofs.«168608_g2000301010487996_pallasbulk_922_1_alg».proof.Proof.Gen.Kernel.Points
import proofs.«168608_g2000301010487996_pallasbulk_922_1_alg».proof.Proof.Gen.Kernel.Frame
import proofs.«168608_g2000301010487996_pallasbulk_922_1_alg».proof.Proof.Gen.KernelIdeal
import proofs.«168608_g2000301010487996_pallasbulk_922_1_alg».proof.Proof.Gen.KernelIdeal.Skeleton
import proofs.«168608_g2000301010487996_pallasbulk_922_1_alg».proof.Proof.Gen.KernelIdeal.Launch
import proofs.«168608_g2000301010487996_pallasbulk_922_1_alg».proof.Proof.Gen.KernelIdeal.Points
import proofs.«168608_g2000301010487996_pallasbulk_922_1_alg».proof.Proof.Gen.KernelIdeal.Frame
import proofs.«168608_g2000301010487996_pallasbulk_922_1_alg».proof.Proof.Gen.ReferenceIdeal
import proofs.«168608_g2000301010487996_pallasbulk_922_1_alg».proof.Proof.Gen.ReferenceIdeal.Skeleton
import proofs.«168608_g2000301010487996_pallasbulk_922_1_alg».proof.Proof.Gen.ReferenceIdeal.Launch
import proofs.«168608_g2000301010487996_pallasbulk_922_1_alg».proof.Proof.Gen.ReferenceIdeal.Regions
import proofs.«168608_g2000301010487996_pallasbulk_922_1_alg».proof.Proof.Gen.ReferenceIdeal.Points
import proofs.«168608_g2000301010487996_pallasbulk_922_1_alg».proof.Proof.Gen.Pre_finite_inputs
import Idealize.ShloMosaic.Adequacy
import Idealize.ShloMosaic.Init
import proofs.«168608_g2000301010487996_pallasbulk_922_1_alg».proof.Proof.KernelOut
import proofs.«168608_g2000301010487996_pallasbulk_922_1_alg».proof.Proof.RefOut

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, the result forgotten. -/
theorem frame_reference_ideal : Cert.frame_ReferenceIdeal := fun m ρ _ =>
  (θ_run Cert.ReferenceIdeal.defs _ _).mono (fun _ h c => (h c).2) (Cert.ReferenceIdeal.Hand.run_named (F := Ideal) m ρ)

/-- No operation was rewritten. -/
theorem preserves : Cert.preserves_Kernel_KernelIdeal := trivial

/-- From memories agreeing on the six arguments both programs run and end with the same result array: each ends with
    `Cert.Gcn.out` of its own arguments, and the arguments agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
